-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v237)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v237) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v289) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S250000x128 : Shape := ⟨2, ![250000, 128]⟩
abbrev S2000000 : Shape := ⟨1, ![2000000]⟩
abbrev S1001x128 : Shape := ⟨2, ![1001, 128]⟩
abbrev S128x16 : Shape := ⟨2, ![128, 16]⟩
abbrev S128 : Shape := ⟨1, ![128]⟩
abbrev S256x256 : Shape := ⟨2, ![256, 256]⟩
abbrev S256 : Shape := ⟨1, ![256]⟩
abbrev S2x256x256 : Shape := ⟨3, ![2, 256, 256]⟩
abbrev S2x256 : Shape := ⟨2, ![2, 256]⟩
abbrev S1x256 : Shape := ⟨2, ![1, 256]⟩
abbrev S1 : Shape := ⟨1, ![1]⟩
abbrev S2x1x256 : Shape := ⟨3, ![2, 1, 256]⟩
abbrev S2x1 : Shape := ⟨2, ![2, 1]⟩
abbrev S50000x16 : Shape := ⟨2, ![50000, 16]⟩
abbrev S200000x16 : Shape := ⟨2, ![200000, 16]⟩
abbrev S50000x8 : Shape := ⟨2, ![50000, 8]⟩
abbrev S200000x8 : Shape := ⟨2, ![200000, 8]⟩
abbrev S8192 : Shape := ⟨1, ![8192]⟩
abbrev S_ : Shape := ⟨0, ![]⟩

class Facts : Prop where
  bcast_S_S250000x128 : S_.BroadcastsInDim S250000x128 (![] : Fin 0 → Fin S250000x128.rank)
  reducesTo_S250000x128_S_d0_1 : S250000x128.ReducesTo [0, 1] S_
  h_S_ : 0 < S_.numel
  bcast_S_S2000000 : S_.BroadcastsInDim S2000000 (![] : Fin 0 → Fin S2000000.rank)
  reducesTo_S2000000_S_d0 : S2000000.ReducesTo [0] S_
  bcast_S_S1001x128 : S_.BroadcastsInDim S1001x128 (![] : Fin 0 → Fin S1001x128.rank)
  reducesTo_S1001x128_S_d0_1 : S1001x128.ReducesTo [0, 1] S_
  bcast_S_S128x16 : S_.BroadcastsInDim S128x16 (![] : Fin 0 → Fin S128x16.rank)
  reducesTo_S128x16_S_d0_1 : S128x16.ReducesTo [0, 1] S_
  bcast_S_S128 : S_.BroadcastsInDim S128 (![] : Fin 0 → Fin S128.rank)
  reducesTo_S128_S_d0 : S128.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S2x256x256 : S_.BroadcastsInDim S2x256x256 (![] : Fin 0 → Fin S2x256x256.rank)
  reducesTo_S2x256x256_S_d0_1_2 : S2x256x256.ReducesTo [0, 1, 2] S_
  bcast_S_S2x256 : S_.BroadcastsInDim S2x256 (![] : Fin 0 → Fin S2x256.rank)
  reducesTo_S2x256_S_d0_1 : S2x256.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_
  bcast_S_S2x1x256 : S_.BroadcastsInDim S2x1x256 (![] : Fin 0 → Fin S2x1x256.rank)
  reducesTo_S2x1x256_S_d0_1_2 : S2x1x256.ReducesTo [0, 1, 2] S_
  bcast_S_S2x1 : S_.BroadcastsInDim S2x1 (![] : Fin 0 → Fin S2x1.rank)
  reducesTo_S2x1_S_d0_1 : S2x1.ReducesTo [0, 1] S_
  bcast_S_S50000x16 : S_.BroadcastsInDim S50000x16 (![] : Fin 0 → Fin S50000x16.rank)
  reducesTo_S50000x16_S_d0_1 : S50000x16.ReducesTo [0, 1] S_
  bcast_S_S200000x16 : S_.BroadcastsInDim S200000x16 (![] : Fin 0 → Fin S200000x16.rank)
  reducesTo_S200000x16_S_d0_1 : S200000x16.ReducesTo [0, 1] S_

variable [Facts]

def fn_part6 {F : FTy → Type} [FloatOps F] (main_arg21 : FVec F S200000x16 .f32) (main_v98 : IVec S_ 1) (main_v101 : IVec S50000x16 1) (main_c_39 : IVec S_ 1) : IVec S_ 1 :=
  let main_v102 : IVec S_ 1 := (fun x v => Host.reduce IntOp.andi x v reducesTo_S50000x16_S_d0_1 h_S_) main_v101 main_c_39
  let main_v103 : IVec S_ 1 := andi main_v98 main_v102
  let main_v104 : FVec F S200000x16 .f32 := Host.absf main_arg21
  let main_cst_40 : FVec F S_ .f32 := constant S_ .f32 0x7F800000#32
  let main_v105 : FVec F S200000x16 .f32 := broadcastInDim S200000x16 ![] bcast_S_S200000x16 main_cst_40
  let main_v106 : IVec S200000x16 1 := cmpf .olt main_v104 main_v105
  let main_c_41 : IVec S_ 1 := constantI S_ 1 1#1
  let main_v107 : IVec S_ 1 := (fun x v => Host.reduce IntOp.andi x v reducesTo_S200000x16_S_d0_1 h_S_) main_v106 main_c_41
  let main_v108 : IVec S_ 1 := andi main_v103 main_v107
  main_v108

def fn_part5 {F : FTy → Type} [FloatOps F] (main_arg18 : FVec F S2x1x256 .f32) (main_arg19 : FVec F S2x1 .f32) (main_arg20 : FVec F S50000x16 .f32) (main_arg21 : FVec F S200000x16 .f32) (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  let main_v89 : FVec F S2x1x256 .f32 := Host.absf main_arg18
  let main_cst_34 : FVec F S_ .f32 := constant S_ .f32 0x7F800000#32
  let main_v90 : FVec F S2x1x256 .f32 := broadcastInDim S2x1x256 ![] bcast_S_S2x1x256 main_cst_34
  let main_v91 : IVec S2x1x256 1 := cmpf .olt main_v89 main_v90
  let main_c_35 : IVec S_ 1 := constantI S_ 1 1#1
  let main_v92 : IVec S_ 1 := (fun x v => Host.reduce IntOp.andi x v reducesTo_S2x1x256_S_d0_1_2 h_S_) main_v91 main_c_35
  let main_v93 : IVec S_ 1 := andi main_v88 main_v92
  let main_v94 : FVec F S2x1 .f32 := Host.absf main_arg19
  let main_cst_36 : FVec F S_ .f32 := constant S_ .f32 0x7F800000#32
  let main_v95 : FVec F S2x1 .f32 := broadcastInDim S2x1 ![] bcast_S_S2x1 main_cst_36
  let main_v96 : IVec S2x1 1 := cmpf .olt main_v94 main_v95
  let main_c_37 : IVec S_ 1 := constantI S_ 1 1#1
  let main_v97 : IVec S_ 1 := (fun x v => Host.reduce IntOp.andi x v reducesTo_S2x1_S_d0_1 h_S_) main_v96 main_c_37
  let main_v98 : IVec S_ 1 := andi main_v93 main_v97
  let main_v99 : FVec F S50000x16 .f32 := Host.absf main_arg20
  let main_cst_38 : FVec F S_ .f32 := constant S_ .f32 0x7F800000#32
  let main_v100 : FVec F S50000x16 .f32 := broadcastInDim S50000x16 ![] bcast_S_S50000x16 main_cst_38
  let main_v101 : IVec S50000x16 1 := cmpf .olt main_v99 main_v100
  let main_c_39 : IVec S_ 1 := constantI S_ 1 1#1
  fn_part6 (F := F) main_arg21 main_v98 main_v101 main_c_39

def fn_part4 {F : FTy → Type} [FloatOps F] (main_arg14 : FVec F S2x256x256 .f32) (main_arg15 : FVec F S2x256 .f32) (main_arg16 : FVec F S1x256 .f32) (main_arg17 : FVec F S1 .f32) (main_arg18 : FVec F S2x1x256 .f32) (main_arg19 : FVec F S2x1 .f32) (main_arg20 : FVec F S50000x16 .f32) (main_arg21 : FVec F S200000x16 .f32) (main_v63 : IVec S_ 1) (main_v67 : IVec S_ 1) : IVec S_ 1 :=
  let main_v68 : IVec S_ 1 := andi main_v63 main_v67
  let main_v69 : FVec F S2x256x256 .f32 := Host.absf main_arg14
  let main_cst_26 : FVec F S_ .f32 := constant S_ .f32 0x7F800000#32
  let main_v70 : FVec F S2x256x256 .f32 := broadcastInDim S2x256x256 ![] bcast_S_S2x256x256 main_cst_26
  let main_v71 : IVec S2x256x256 1 := cmpf .olt main_v69 main_v70
  let main_c_27 : IVec S_ 1 := constantI S_ 1 1#1
  let main_v72 : IVec S_ 1 := (fun x v => Host.reduce IntOp.andi x v reducesTo_S2x256x256_S_d0_1_2 h_S_) main_v71 main_c_27
  let main_v73 : IVec S_ 1 := andi main_v68 main_v72
  let main_v74 : FVec F S2x256 .f32 := Host.absf main_arg15
  let main_cst_28 : FVec F S_ .f32 := constant S_ .f32 0x7F800000#32
  let main_v75 : FVec F S2x256 .f32 := broadcastInDim S2x256 ![] bcast_S_S2x256 main_cst_28
  let main_v76 : IVec S2x256 1 := cmpf .olt main_v74 main_v75
  let main_c_29 : IVec S_ 1 := constantI S_ 1 1#1
  let main_v77 : IVec S_ 1 := (fun x v => Host.reduce IntOp.andi x v reducesTo_S2x256_S_d0_1 h_S_) main_v76 main_c_29
  let main_v78 : IVec S_ 1 := andi main_v73 main_v77
  let main_v79 : FVec F S1x256 .f32 := Host.absf main_arg16
  let main_cst_30 : FVec F S_ .f32 := constant S_ .f32 0x7F800000#32
  let main_v80 : FVec F S1x256 .f32 := broadcastInDim S1x256 ![] bcast_S_S1x256 main_cst_30
  let main_v81 : IVec S1x256 1 := cmpf .olt main_v79 main_v80
  let main_c_31 : IVec S_ 1 := constantI S_ 1 1#1
  let main_v82 : IVec S_ 1 := (fun x v => Host.reduce IntOp.andi x v reducesTo_S1x256_S_d0_1 h_S_) main_v81 main_c_31
  let main_v83 : IVec S_ 1 := andi main_v78 main_v82
  let main_v84 : FVec F S1 .f32 := Host.absf main_arg17
  let main_cst_32 : FVec F S_ .f32 := constant S_ .f32 0x7F800000#32
  fn_part5 (F := F) main_arg18 main_arg19 main_arg20 main_arg21 main_v83 main_v84 main_cst_32

def fn_part3 {F : FTy → Type} [FloatOps F] (main_arg11 : FVec F S2x256 .f32) (main_arg12 : FVec F S256x256 .f32) (main_arg13 : FVec F S256 .f32) (main_arg14 : FVec F S2x256x256 .f32) (main_arg15 : FVec F S2x256 .f32) (main_arg16 : FVec F S1x256 .f32) (main_arg17 : FVec F S1 .f32) (main_arg18 : FVec F S2x1x256 .f32) (main_arg19 : FVec F S2x1 .f32) (main_arg20 : FVec F S50000x16 .f32) (main_arg21 : FVec F S200000x16 .f32) (main_v48 : IVec S_ 1) (main_v49 : FVec F S2x256x256 .f32) (main_v50 : FVec F S2x256x256 .f32) : IVec S_ 1 :=
  let main_v51 : IVec S2x256x256 1 := cmpf .olt main_v49 main_v50
  let main_c_19 : IVec S_ 1 := constantI S_ 1 1#1
  let main_v52 : IVec S_ 1 := (fun x v => Host.reduce IntOp.andi x v reducesTo_S2x256x256_S_d0_1_2 h_S_) main_v51 main_c_19
  let main_v53 : IVec S_ 1 := andi main_v48 main_v52
  let main_v54 : FVec F S2x256 .f32 := Host.absf main_arg11
  let main_cst_20 : FVec F S_ .f32 := constant S_ .f32 0x7F800000#32
  let main_v55 : FVec F S2x256 .f32 := broadcastInDim S2x256 ![] bcast_S_S2x256 main_cst_20
  let main_v56 : IVec S2x256 1 := cmpf .olt main_v54 main_v55
  let main_c_21 : IVec S_ 1 := constantI S_ 1 1#1
  let main_v57 : IVec S_ 1 := (fun x v => Host.reduce IntOp.andi x v reducesTo_S2x256_S_d0_1 h_S_) main_v56 main_c_21
  let main_v58 : IVec S_ 1 := andi main_v53 main_v57
  let main_v59 : FVec F S256x256 .f32 := Host.absf main_arg12
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_arg17 main_arg18 main_arg19 main_arg20 main_arg21 main_v63 main_v67

def fn_part2 {F : FTy → Type} [FloatOps F] (main_arg7 : FVec F S128 .f32) (main_arg8 : FVec F S256x256 .f32) (main_arg9 : FVec F S256 .f32) (main_arg10 : FVec F S2x256x256 .f32) (main_arg11 : FVec F S2x256 .f32) (main_arg12 : FVec F S256x256 .f32) (main_arg13 : FVec F S256 .f32) (main_arg14 : FVec F S2x256x256 .f32) (main_arg15 : FVec F S2x256 .f32) (main_arg16 : FVec F S1x256 .f32) (main_arg17 : FVec F S1 .f32) (main_arg18 : FVec F S2x1x256 .f32) (main_arg19 : FVec F S2x1 .f32) (main_arg20 : FVec F S50000x16 .f32) (main_arg21 : FVec F S200000x16 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S2x256x256 .f32 := Host.absf main_arg10
  let main_cst_18 : FVec F S_ .f32 := constant S_ .f32 0x7F800000#32
  let main_v50 : FVec F S2x256x256 .f32 := broadcastInDim S2x256x256 ![] bcast_S_S2x256x256 main_cst_18
  fn_part3 (F := F) main_arg11 main_arg12 main_arg13 main_arg14 main_arg15 main_arg16 main_arg17 main_arg18 main_arg19 main_arg20 main_arg21 main_v48 main_v49 main_v50

def fn_part1 {F : FTy → Type} [FloatOps F] (main_arg4 : FVec F S128x16 .f32) (main_arg5 : FVec F S128 .f32) (main_arg6 : FVec F S128x16 .f32) (main_arg7 : FVec F S128 .f32) (main_arg8 : FVec F S256x256 .f32) (main_arg9 : FVec F S256 .f32) (main_arg10 : FVec F S2x256x256 .f32) (main_arg11 : FVec F S2x256 .f32) (main_arg12 : FVec F S256x256 .f32) (main_arg13 : FVec F S256 .f32) (main_arg14 : FVec F S2x256x256 .f32) (main_arg15 : FVec F S2x256 .f32) (main_arg16 : FVec F S1x256 .f32) (main_arg17 : FVec F S1 .f32) (main_arg18 : FVec F S2x1x256 .f32) (main_arg19 : FVec F S2x1 .f32) (main_arg20 : FVec F S50000x16 .f32) (main_arg21 : FVec F S200000x16 .f32) (main_v13 : IVec S_ 1) (main_v16 : IVec S1001x128 1) : IVec S_ 1 :=
  let main_c_5 : IVec S_ 1 := constantI S_ 1 1#1
  let main_v17 : IVec S_ 1 := (fun x v => Host.reduce IntOp.andi x v reducesTo_S1001x128_S_d0_1 h_S_) main_v16 main_c_5
  let main_v18 : IVec S_ 1 := andi main_v13 main_v17
  let main_v19 : FVec F S128x16 .f32 := Host.absf main_arg4
  let main_cst_6 : FVec F S_ .f32 := constant S_ .f32 0x7F800000#32
  let main_v20 : FVec F S128x16 .f32 := broadcastInDim S128x16 ![] bcast_S_S128x16 main_cst_6
  let main_v21 : IVec S128x16 1 := cmpf .olt main_v19 main_v20
  let main_c_7 : IVec S_ 1 := constantI S_ 1 1#1
  let main_v22 : IVec S_ 1 := (fun x v => Host.reduce IntOp.andi x v reducesTo_S128x16_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x16 .f32 := Host.absf main_arg6
  let main_cst_10 : FVec F S_ .f32 := constant S_ .f32 0x7F800000#32
  let main_v30 : FVec F S128x16 .f32 := broadcastInDim S128x16 ![] bcast_S_S128x16 main_cst_10
  let main_v31 : IVec S128x16 1 := cmpf .olt main_v29 main_v30
  let main_c_11 : IVec S_ 1 := constantI S_ 1 1#1
  let main_v32 : IVec S_ 1 := (fun x v => Host.reduce IntOp.andi x v reducesTo_S128x16_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_v33

def fn {F : FTy → Type} [FloatOps F] (main_arg0 : FVec F S250000x128 .f32) (main_arg1 : FVec F S2000000 .f32) (main_arg2 : FVec F S1001x128 .f32) (main_arg3 : FVec F S1001x128 .f32) (main_arg4 : FVec F S128x16 .f32) (main_arg5 : FVec F S128 .f32) (main_arg6 : FVec F S128x16 .f32) (main_arg7 : FVec F S128 .f32) (main_arg8 : FVec F S256x256 .f32) (main_arg9 : FVec F S256 .f32) (main_arg10 : FVec F S2x256x256 .f32) (main_arg11 : FVec F S2x256 .f32) (main_arg12 : FVec F S256x256 .f32) (main_arg13 : FVec F S256 .f32) (main_arg14 : FVec F S2x256x256 .f32) (main_arg15 : FVec F S2x256 .f32) (main_arg16 : FVec F S1x256 .f32) (main_arg17 : FVec F S1 .f32) (main_arg18 : FVec F S2x1x256 .f32) (main_arg19 : FVec F S2x1 .f32) (main_arg20 : FVec F S50000x16 .f32) (main_arg21 : FVec F S200000x16 .f32) (main_arg22 : IVec S2000000 32) (main_arg23 : IVec S2000000 32) (main_arg24 : IVec S50000x8 32) (main_arg25 : IVec S200000x8 32) (main_arg26 : IVec S8192 32) (main_arg27 : IVec S8192 32) : IVec S_ 1 :=
  let main_v0 : FVec F S250000x128 .f32 := Host.absf main_arg0
  let main_cst : FVec F S_ .f32 := constant S_ .f32 0x7F800000#32
  let main_v1 : FVec F S250000x128 .f32 := broadcastInDim S250000x128 ![] bcast_S_S250000x128 main_cst
  let main_v2 : IVec S250000x128 1 := cmpf .olt main_v0 main_v1
  let main_c : IVec S_ 1 := constantI S_ 1 1#1
  let main_v3 : IVec S_ 1 := (fun x v => Host.reduce IntOp.andi x v reducesTo_S250000x128_S_d0_1 h_S_) main_v2 main_c
  let main_v4 : FVec F S2000000 .f32 := Host.absf main_arg1
  let main_cst_0 : FVec F S_ .f32 := constant S_ .f32 0x7F800000#32
  let main_v5 : FVec F S2000000 .f32 := broadcastInDim S2000000 ![] bcast_S_S2000000 main_cst_0
  let main_v6 : IVec S2000000 1 := cmpf .olt main_v4 main_v5
  let main_c_1 : IVec S_ 1 := constantI S_ 1 1#1
  let main_v7 : IVec S_ 1 := (fun x v => Host.reduce IntOp.andi x v reducesTo_S2000000_S_d0 h_S_) main_v6 main_c_1
  let main_v8 : IVec S_ 1 := andi main_v3 main_v7
  let main_v9 : FVec F S1001x128 .f32 := Host.absf main_arg2
  let main_cst_2 : FVec F S_ .f32 := constant S_ .f32 0x7F800000#32
  let main_v10 : FVec F S1001x128 .f32 := broadcastInDim S1001x128 ![] bcast_S_S1001x128 main_cst_2
  let main_v11 : IVec S1001x128 1 := cmpf .olt main_v9 main_v10
  let main_c_3 : IVec S_ 1 := constantI S_ 1 1#1
  let main_v12 : IVec S_ 1 := (fun x v => Host.reduce IntOp.andi x v reducesTo_S1001x128_S_d0_1 h_S_) main_v11 main_c_3
  let main_v13 : IVec S_ 1 := andi main_v8 main_v12
  let main_v14 : FVec F S1001x128 .f32 := Host.absf main_arg3
  let main_cst_4 : FVec F S_ .f32 := constant S_ .f32 0x7F800000#32
  let main_v15 : FVec F S1001x128 .f32 := broadcastInDim S1001x128 ![] bcast_S_S1001x128 main_cst_4
  let main_v16 : IVec S1001x128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S250000x128 : Shape := ⟨2, ![250000, 128]⟩
abbrev S2000000 : Shape := ⟨1, ![2000000]⟩
abbrev S1001x128 : Shape := ⟨2, ![1001, 128]⟩
abbrev S128x16 : Shape := ⟨2, ![128, 16]⟩
abbrev S128 : Shape := ⟨1, ![128]⟩
abbrev S256x256 : Shape := ⟨2, ![256, 256]⟩
abbrev S256 : Shape := ⟨1, ![256]⟩
abbrev S2x256x256 : Shape := ⟨3, ![2, 256, 256]⟩
abbrev S2x256 : Shape := ⟨2, ![2, 256]⟩
abbrev S1x256 : Shape := ⟨2, ![1, 256]⟩
abbrev S1 : Shape := ⟨1, ![1]⟩
abbrev S2x1x256 : Shape := ⟨3, ![2, 1, 256]⟩
abbrev S2x1 : Shape := ⟨2, ![2, 1]⟩
abbrev S50000x16 : Shape := ⟨2, ![50000, 16]⟩
abbrev S200000x16 : Shape := ⟨2, ![200000, 16]⟩
abbrev S50000x8 : Shape := ⟨2, ![50000, 8]⟩
abbrev S200000x8 : Shape := ⟨2, ![200000, 8]⟩
abbrev S8192 : Shape := ⟨1, ![8192]⟩
abbrev S2000000x1 : Shape := ⟨2, ![2000000, 1]⟩
abbrev S_ : Shape := ⟨0, ![]⟩
abbrev S2000000x128 : Shape := ⟨2, ![2000000, 128]⟩
abbrev S8192x1 : Shape := ⟨2, ![8192, 1]⟩
abbrev S8192x128 : Shape := ⟨2, ![8192, 128]⟩
abbrev S8192x8 : Shape := ⟨2, ![8192, 8]⟩
abbrev S8192x8x1 : Shape := ⟨3, ![8192, 8, 1]⟩
abbrev S8192x8x128 : Shape := ⟨3, ![8192, 8, 128]⟩
abbrev S8192x16 : Shape := ⟨2, ![8192, 16]⟩
abbrev S1x256x256 : Shape := ⟨3, ![1, 256, 256]⟩
abbrev S1x1x256 : Shape := ⟨3, ![1, 1, 256]⟩
abbrev S256x1 : Shape := ⟨2, ![256, 1]⟩
abbrev S1x1 : Shape := ⟨2, ![1, 1]⟩
abbrev S16x128 : Shape := ⟨2, ![16, 128]⟩
abbrev S1x128 : Shape := ⟨2, ![1, 128]⟩
abbrev S1024x128 : Shape := ⟨2, ![1024, 128]⟩
abbrev S1024x16 : Shape := ⟨2, ![1024, 16]⟩
abbrev S1024x1 : Shape := ⟨2, ![1024, 1]⟩
abbrev S1024x256 : Shape := ⟨2, ![1024, 256]⟩
abbrev S1024 : Shape := ⟨1, ![1024]⟩

abbrev nBuf : Space → Nat
  | .hbm => 328
  | .vmem => 30
  | .smem => 0
  | _ => 0

abbrev hbmTy0_0 (i : Nat) : BufTy := match i % 128 with
  | 0 => ⟨S250000x128, .f32⟩
  | 1 => ⟨S2000000, .f32⟩
  | 2 => ⟨S1001x128, .f32⟩
  | 3 => ⟨S1001x128, .f32⟩
  | 4 => ⟨S128x16, .f32⟩
  | 5 => ⟨S128, .f32⟩
  | 6 => ⟨S128x16, .f32⟩
  | 7 => ⟨S128, .f32⟩
  | 8 => ⟨S256x256, .f32⟩
  | 9 => ⟨S256, .f32⟩
  | 10 => ⟨S2x256x256, .f32⟩
  | 11 => ⟨S2x256, .f32⟩
  | 12 => ⟨S256x256, .f32⟩
  | 13 => ⟨S256, .f32⟩
  | 14 => ⟨S2x256x256, .f32⟩
  | 15 => ⟨S2x256, .f32⟩
  | 16 => ⟨S1x256, .f32⟩
  | 17 => ⟨S1, .f32⟩
  | 18 => ⟨S2x1x256, .f32⟩
  | 19 => ⟨S2x1, .f32⟩
  | 20 => ⟨S50000x16, .f32⟩
  | 21 => ⟨S200000x16, .f32⟩
  | 22 => ⟨S2000000, .i32⟩
  | 23 => ⟨S2000000, .i32⟩
  | 24 => ⟨S50000x8, .i32⟩
  | 25 => ⟨S200000x8, .i32⟩
  | 26 => ⟨S8192, .i32⟩
  | 27 => ⟨S8192, .i32⟩
  | 28 => ⟨S2000000x1, .f32⟩
  | 29 => ⟨S_, .i32⟩
  | 30 => ⟨S2000000, .i32⟩
  | 31 => ⟨S2000000, .i1⟩
  | 32 => ⟨S_, .i32⟩
  | 33 => ⟨S2000000, .i32⟩
  | 34 => ⟨S2000000, .i32⟩
  | 35 => ⟨S2000000, .i32⟩
  | 36 => ⟨S2000000x1, .i32⟩
  | 37 => ⟨S2000000x128, .f32⟩
  | 38 => ⟨S2000000x128, .f32⟩
  | 39 => ⟨S2000000x128, .f32⟩
  | 40 => ⟨S_, .f32⟩
  | 41 => ⟨S250000x128, .f32⟩
  | 42 => ⟨S2000000x1, .i32⟩
  | 43 => ⟨S250000x128, .f32⟩
  | 44 => ⟨S250000x128, .f32⟩
  | 45 => ⟨S_, .i32⟩
  | 46 => ⟨S8192, .i32⟩
  | 47 => ⟨S8192, .i32⟩
  | 48 => ⟨S_, .i32⟩
  | 49 => ⟨S8192, .i32⟩
  | 50 => ⟨S8192, .i1⟩
  | 51 => ⟨S_, .i32⟩
  | 52 => ⟨S8192, .i32⟩
  | 53 => ⟨S8192, .i32⟩
  | 54 => ⟨S8192, .i32⟩
  | 55 => ⟨S8192x1, .i32⟩
  | 56 => ⟨S8192x128, .f32⟩
  | 57 => ⟨S_, .i32⟩
  | 58 => ⟨S8192, .i32⟩
  | 59 => ⟨S8192, .i1⟩
  | 60 => ⟨S_, .i32⟩
  | 61 => ⟨S8192, .i32⟩
  | 62 => ⟨S8192, .i32⟩
  | 63 => ⟨S8192, .i32⟩
  | 64 => ⟨S8192x1, .i32⟩
  | 65 => ⟨S8192x128, .f32⟩
  | 66 => ⟨S_, .i32⟩
  | 67 => ⟨S8192, .i32⟩
  | 68 => ⟨S8192, .i1⟩
  | 69 => ⟨S_, .i32⟩
  | 70 => ⟨S8192, .i32⟩
  | 71 => ⟨S8192, .i32⟩
  | 72 => ⟨S8192, .i32⟩
  | 73 => ⟨S8192x1, .i32⟩
  | 74 => ⟨S8192x8, .i32⟩
  | 75 => ⟨S_, .i32⟩
  | 76 => ⟨S8192x8, .i32⟩
  | 77 => ⟨S8192x8, .i1⟩
  | 78 => ⟨S_, .i32⟩
  | 79 => ⟨S8192x8, .i32⟩
  | 80 => ⟨S8192x8, .i32⟩
  | 81 => ⟨S8192x8, .i32⟩
  | 82 => ⟨S8192x8x1, .i32⟩
  | 83 => ⟨S8192x8x128, .f32⟩
  | 84 => ⟨S_, .i32⟩
  | 85 => ⟨S8192x8, .i32⟩
  | 86 => ⟨S8192x8, .i1⟩
  | 87 => ⟨S8192x8, .i32⟩
  | 88 => ⟨S_, .i32⟩
  | 89 => ⟨S8192, .i32⟩
  | 90 => ⟨S8192, .f32⟩
  | 91 => ⟨S_, .f32⟩
  | 92 => ⟨S8192, .f32⟩
  | 93 => ⟨S8192, .i1⟩
  | 94 => ⟨S_, .f32⟩
  | 95 => ⟨S8192, .f32⟩
  | 96 => ⟨S8192, .f32⟩
  | 97 => ⟨S_, .f32⟩
  | 98 => ⟨S8192, .f32⟩
  | 99 => ⟨S8192, .f32⟩
  | 100 => ⟨S_, .f32⟩
  | 101 => ⟨S_, .f32⟩
  | 102 => ⟨S8192, .f32⟩
  | 103 => ⟨S8192, .f32⟩
  | 104 => ⟨S_, .f32⟩
  | 105 => ⟨S8192x128, .f32⟩
  | 106 => ⟨S8192x1, .f32⟩
  | 107 => ⟨S8192x128, .f32⟩
  | 108 => ⟨S8192x128, .f32⟩
  | 109 => ⟨S_, .i32⟩
  | 110 => ⟨S8192, .i32⟩
  | 111 => ⟨S8192, .i1⟩
  | 112 => ⟨S_, .i32⟩
  | 113 => ⟨S8192, .i32⟩
  | 114 => ⟨S8192, .i32⟩
  | 115 => ⟨S8192, .i32⟩
  | 116 => ⟨S8192x1, .i32⟩
  | 117 => ⟨S8192x8, .i32⟩
  | 118 => ⟨S_, .i32⟩
  | 119 => ⟨S8192x8, .i32⟩
  | 120 => ⟨S8192x8, .i1⟩
  | 121 => ⟨S_, .i32⟩
  | 122 => ⟨S8192x8, .i32⟩
  | 123 => ⟨S8192x8, .i32⟩
  | 124 => ⟨S8192x8, .i32⟩
  | 125 => ⟨S8192x8x1, .i32⟩
  | 126 => ⟨S8192x8x128, .f32⟩
  | 127 => ⟨S_, .i32⟩
  | _ => ⟨S250000x128, .f32⟩

abbrev hbmTy0_1 (i : Nat) : BufTy := match i % 128 with
  | 0 => ⟨S8192x8, .i32⟩
  | 1 => ⟨S8192x8, .i1⟩
  | 2 => ⟨S8192x8, .i32⟩
  | 3 => ⟨S_, .i32⟩
  | 4 => ⟨S8192, .i32⟩
  | 5 => ⟨S8192, .f32⟩
  | 6 => ⟨S_, .f32⟩
  | 7 => ⟨S8192, .f32⟩
  | 8 => ⟨S8192, .i1⟩
  | 9 => ⟨S_, .f32⟩
  | 10 => ⟨S8192, .f32⟩
  | 11 => ⟨S8192, .f32⟩
  | 12 => ⟨S_, .f32⟩
  | 13 => ⟨S8192, .f32⟩
  | 14 => ⟨S8192, .f32⟩
  | 15 => ⟨S_, .f32⟩
  | 16 => ⟨S_, .f32⟩
  | 17 => ⟨S8192, .f32⟩
  | 18 => ⟨S8192, .f32⟩
  | 19 => ⟨S_, .f32⟩
  | 20 => ⟨S8192x128, .f32⟩
  | 21 => ⟨S8192x1, .f32⟩
  | 22 => ⟨S8192x128, .f32⟩
  | 23 => ⟨S8192x128, .f32⟩
  | 24 => ⟨S_, .i32⟩
  | 25 => ⟨S8192, .i32⟩
  | 26 => ⟨S8192, .i1⟩
  | 27 => ⟨S_, .i32⟩
  | 28 => ⟨S8192, .i32⟩
  | 29 => ⟨S8192, .i32⟩
  | 30 => ⟨S8192, .i32⟩
  | 31 => ⟨S8192x1, .i32⟩
  | 32 => ⟨S8192x16, .f32⟩
  | 33 => ⟨S_, .i32⟩
  | 34 => ⟨S8192, .i32⟩
  | 35 => ⟨S8192, .i1⟩
  | 36 => ⟨S_, .i32⟩
  | 37 => ⟨S8192, .i32⟩
  | 38 => ⟨S8192, .i32⟩
  | 39 => ⟨S8192, .i32⟩
  | 40 => ⟨S8192x1, .i32⟩
  | 41 => ⟨S8192x16, .f32⟩
  | 42 => ⟨S1x256x256, .f32⟩
  | 43 => ⟨S256x256, .f32⟩
  | 44 => ⟨S256x256, .f32⟩
  | 45 => ⟨S256x256, .f32⟩
  | 46 => ⟨S_, .f32⟩
  | 47 => ⟨S256x256, .f32⟩
  | 48 => ⟨S256x256, .f32⟩
  | 49 => ⟨S_, .f32⟩
  | 50 => ⟨S256x256, .f32⟩
  | 51 => ⟨S256x256, .f32⟩
  | 52 => ⟨S256x256, .f32⟩
  | 53 => ⟨S256x256, .f32⟩
  | 54 => ⟨S256x256, .bf16⟩
  | 55 => ⟨S1x256, .f32⟩
  | 56 => ⟨S256, .f32⟩
  | 57 => ⟨S256, .f32⟩
  | 58 => ⟨S256, .f32⟩
  | 59 => ⟨S_, .f32⟩
  | 60 => ⟨S256, .f32⟩
  | 61 => ⟨S256, .f32⟩
  | 62 => ⟨S_, .f32⟩
  | 63 => ⟨S256, .f32⟩
  | 64 => ⟨S256, .f32⟩
  | 65 => ⟨S256, .f32⟩
  | 66 => ⟨S1x256, .f32⟩
  | 67 => ⟨S1x256x256, .f32⟩
  | 68 => ⟨S256x256, .f32⟩
  | 69 => ⟨S256x256, .f32⟩
  | 70 => ⟨S256x256, .f32⟩
  | 71 => ⟨S_, .f32⟩
  | 72 => ⟨S256x256, .f32⟩
  | 73 => ⟨S256x256, .f32⟩
  | 74 => ⟨S_, .f32⟩
  | 75 => ⟨S256x256, .f32⟩
  | 76 => ⟨S256x256, .f32⟩
  | 77 => ⟨S256x256, .f32⟩
  | 78 => ⟨S256x256, .f32⟩
  | 79 => ⟨S256x256, .bf16⟩
  | 80 => ⟨S1x256, .f32⟩
  | 81 => ⟨S256, .f32⟩
  | 82 => ⟨S256, .f32⟩
  | 83 => ⟨S256, .f32⟩
  | 84 => ⟨S_, .f32⟩
  | 85 => ⟨S256, .f32⟩
  | 86 => ⟨S256, .f32⟩
  | 87 => ⟨S_, .f32⟩
  | 88 => ⟨S256, .f32⟩
  | 89 => ⟨S256, .f32⟩
  | 90 => ⟨S256, .f32⟩
  | 91 => ⟨S1x256, .f32⟩
  | 92 => ⟨S1x1x256, .f32⟩
  | 93 => ⟨S1x256, .f32⟩
  | 94 => ⟨S1x256, .f32⟩
  | 95 => ⟨S1x256, .f32⟩
  | 96 => ⟨S_, .f32⟩
  | 97 => ⟨S1x256, .f32⟩
  | 98 => ⟨S1x256, .f32⟩
  | 99 => ⟨S_, .f32⟩
  | 100 => ⟨S1x256, .f32⟩
  | 101 => ⟨S1x256, .f32⟩
  | 102 => ⟨S1x256, .f32⟩
  | 103 => ⟨S256x1, .f32⟩
  | 104 => ⟨S256x1, .bf16⟩
  | 105 => ⟨S1x1, .f32⟩
  | 106 => ⟨S1, .f32⟩
  | 107 => ⟨S1, .f32⟩
  | 108 => ⟨S1, .f32⟩
  | 109 => ⟨S_, .f32⟩
  | 110 => ⟨S1, .f32⟩
  | 111 => ⟨S1, .f32⟩
  | 112 => ⟨S_, .f32⟩
  | 113 => ⟨S1, .f32⟩
  | 114 => ⟨S1, .f32⟩
  | 115 => ⟨S1, .f32⟩
  | 116 => ⟨S1x1, .f32⟩
  | 117 => ⟨S1x256x256, .f32⟩
  | 118 => ⟨S256x256, .f32⟩
  | 119 => ⟨S256x256, .f32⟩
  | 120 => ⟨S256x256, .f32⟩
  | 121 => ⟨S_, .f32⟩
  | 122 => ⟨S256x256, .f32⟩
  | 123 => ⟨S256x256, .f32⟩
  | 124 => ⟨S_, .f32⟩
  | 125 => ⟨S256x256, .f32⟩
  | 126 => ⟨S256x256, .f32⟩
  | 127 => ⟨S256x256, .f32⟩
  | _ => ⟨S250000x128, .f32⟩

abbrev hbmTy0_2 (i : Nat) : BufTy := match i % 128 with
  | 0 => ⟨S256x256, .f32⟩
  | 1 => ⟨S256x256, .bf16⟩
  | 2 => ⟨S1x256, .f32⟩
  | 3 => ⟨S256, .f32⟩
  | 4 => ⟨S256, .f32⟩
  | 5 => ⟨S256, .f32⟩
  | 6 => ⟨S_, .f32⟩
  | 7 => ⟨S256, .f32⟩
  | 8 => ⟨S256, .f32⟩
  | 9 => ⟨S_, .f32⟩
  | 10 => ⟨S256, .f32⟩
  | 11 => ⟨S256, .f32⟩
  | 12 => ⟨S256, .f32⟩
  | 13 => ⟨S1x256, .f32⟩
  | 14 => ⟨S1x256x256, .f32⟩
  | 15 => ⟨S256x256, .f32⟩
  | 16 => ⟨S256x256, .f32⟩
  | 17 => ⟨S256x256, .f32⟩
  | 18 => ⟨S_, .f32⟩
  | 19 => ⟨S256x256, .f32⟩
  | 20 => ⟨S256x256, .f32⟩
  | 21 => ⟨S_, .f32⟩
  | 22 => ⟨S256x256, .f32⟩
  | 23 => ⟨S256x256, .f32⟩
  | 24 => ⟨S256x256, .f32⟩
  | 25 => ⟨S256x256, .f32⟩
  | 26 => ⟨S256x256, .bf16⟩
  | 27 => ⟨S1x256, .f32⟩
  | 28 => ⟨S256, .f32⟩
  | 29 => ⟨S256, .f32⟩
  | 30 => ⟨S256, .f32⟩
  | 31 => ⟨S_, .f32⟩
  | 32 => ⟨S256, .f32⟩
  | 33 => ⟨S256, .f32⟩
  | 34 => ⟨S_, .f32⟩
  | 35 => ⟨S256, .f32⟩
  | 36 => ⟨S256, .f32⟩
  | 37 => ⟨S256, .f32⟩
  | 38 => ⟨S1x256, .f32⟩
  | 39 => ⟨S1x1x256, .f32⟩
  | 40 => ⟨S1x256, .f32⟩
  | 41 => ⟨S1x256, .f32⟩
  | 42 => ⟨S1x256, .f32⟩
  | 43 => ⟨S_, .f32⟩
  | 44 => ⟨S1x256, .f32⟩
  | 45 => ⟨S1x256, .f32⟩
  | 46 => ⟨S_, .f32⟩
  | 47 => ⟨S1x256, .f32⟩
  | 48 => ⟨S1x256, .f32⟩
  | 49 => ⟨S1x256, .f32⟩
  | 50 => ⟨S256x1, .f32⟩
  | 51 => ⟨S256x1, .bf16⟩
  | 52 => ⟨S1x1, .f32⟩
  | 53 => ⟨S1, .f32⟩
  | 54 => ⟨S1, .f32⟩
  | 55 => ⟨S1, .f32⟩
  | 56 => ⟨S_, .f32⟩
  | 57 => ⟨S1, .f32⟩
  | 58 => ⟨S1, .f32⟩
  | 59 => ⟨S_, .f32⟩
  | 60 => ⟨S1, .f32⟩
  | 61 => ⟨S1, .f32⟩
  | 62 => ⟨S1, .f32⟩
  | 63 => ⟨S1x1, .f32⟩
  | 64 => ⟨S16x128, .f32⟩
  | 65 => ⟨S16x128, .bf16⟩
  | 66 => ⟨S1x128, .f32⟩
  | 67 => ⟨S16x128, .f32⟩
  | 68 => ⟨S16x128, .bf16⟩
  | 69 => ⟨S1x128, .f32⟩
  | 70 => ⟨S8192x1, .f32⟩
  | 71 => ⟨S8192, .f32⟩
  | _ => ⟨S250000x128, .f32⟩

abbrev hbmTy (i : Nat) : BufTy := match i / 128 with
  | 0 => hbmTy0_0 i
  | 1 => hbmTy0_1 i
  | 2 => hbmTy0_2 i
  | _ => ⟨S250000x128, .f32⟩

abbrev bufTy : (tb : Table) → Fin (tcTables nBuf tb) → BufTy
  | .hbm, ⟨i, _⟩ => hbmTy i
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x16, .f32⟩
  | .local _ .vmem, ⟨5, _⟩ => ⟨S1024x16, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x16, .f32⟩
  | .local _ .vmem, ⟨11, _⟩ => ⟨S1024x16, .f32⟩
  | .local _ .vmem, ⟨12, _⟩ => ⟨S16x128, .bf16⟩
  | .local _ .vmem, ⟨13, _⟩ => ⟨S1x128, .f32⟩
  | .local _ .vmem, ⟨14, _⟩ => ⟨S16x128, .bf16⟩
  | .local _ .vmem, ⟨15, _⟩ => ⟨S1x128, .f32⟩
  | .local _ .vmem, ⟨16, _⟩ => ⟨S256x256, .bf16⟩
  | .local _ .vmem, ⟨17, _⟩ => ⟨S1x256, .f32⟩
  | .local _ .vmem, ⟨18, _⟩ => ⟨S256x256, .bf16⟩
  | .local _ .vmem, ⟨19, _⟩ => ⟨S1x256, .f32⟩
  | .local _ .vmem, ⟨20, _⟩ => ⟨S256x1, .bf16⟩
  | .local _ .vmem, ⟨21, _⟩ => ⟨S1x1, .f32⟩
  | .local _ .vmem, ⟨22, _⟩ => ⟨S256x256, .bf16⟩
  | .local _ .vmem, ⟨23, _⟩ => ⟨S1x256, .f32⟩
  | .local _ .vmem, ⟨24, _⟩ => ⟨S256x256, .bf16⟩
  | .local _ .vmem, ⟨25, _⟩ => ⟨S1x256, .f32⟩
  | .local _ .vmem, ⟨26, _⟩ => ⟨S256x1, .bf16⟩
  | .local _ .vmem, ⟨27, _⟩ => ⟨S1x1, .f32⟩
  | .local _ .vmem, ⟨28, _⟩ => ⟨S1024x1, .f32⟩
  | .local _ .vmem, ⟨29, _⟩ => ⟨S1024x1, .f32⟩
  | _, _ => ⟨S250000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_c : Ref sig .tc := ⟨.hbm, 29, rfl⟩
abbrev main_v1 : Ref sig .tc := ⟨.hbm, 30, rfl⟩
abbrev main_v2 : Ref sig .tc := ⟨.hbm, 31, rfl⟩
abbrev main_c_0 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_cst : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_c_1 : Ref sig .tc := ⟨.hbm, 45, rfl⟩
abbrev main_v14 : Ref sig .tc := ⟨.hbm, 46, rfl⟩
abbrev main_v15 : Ref sig .tc := ⟨.hbm, 47, rfl⟩
abbrev main_c_2 : Ref sig .tc := ⟨.hbm, 48, rfl⟩
abbrev main_v16 : Ref sig .tc := ⟨.hbm, 49, rfl⟩
abbrev main_v17 : Ref sig .tc := ⟨.hbm, 50, rfl⟩
abbrev main_c_3 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_c_4 : Ref sig .tc := ⟨.hbm, 57, rfl⟩
abbrev main_v23 : Ref sig .tc := ⟨.hbm, 58, rfl⟩
abbrev main_v24 : Ref sig .tc := ⟨.hbm, 59, rfl⟩
abbrev main_c_5 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_c_6 : Ref sig .tc := ⟨.hbm, 66, rfl⟩
abbrev main_v30 : Ref sig .tc := ⟨.hbm, 67, rfl⟩
abbrev main_v31 : Ref sig .tc := ⟨.hbm, 68, rfl⟩
abbrev main_c_7 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_c_8 : Ref sig .tc := ⟨.hbm, 75, rfl⟩
abbrev main_v37 : Ref sig .tc := ⟨.hbm, 76, rfl⟩
abbrev main_v38 : Ref sig .tc := ⟨.hbm, 77, rfl⟩
abbrev main_c_9 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_c_10 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_c_11 : Ref sig .tc := ⟨.hbm, 88, rfl⟩
abbrev main_v47 : Ref sig .tc := ⟨.hbm, 89, rfl⟩
abbrev main_v48 : Ref sig .tc := ⟨.hbm, 90, rfl⟩
abbrev main_cst_12 : Ref sig .tc := ⟨.hbm, 91, rfl⟩
abbrev main_v49 : Ref sig .tc := ⟨.hbm, 92, rfl⟩
abbrev main_v50 : Ref sig .tc := ⟨.hbm, 93, rfl⟩
abbrev main_cst_13 : Ref sig .tc := ⟨.hbm, 94, rfl⟩
abbrev main_v51 : Ref sig .tc := ⟨.hbm, 95, rfl⟩
abbrev main_v52 : Ref sig .tc := ⟨.hbm, 96, rfl⟩
abbrev main_cst_14 : Ref sig .tc := ⟨.hbm, 97, rfl⟩
abbrev main_v53 : Ref sig .tc := ⟨.hbm, 98, rfl⟩
abbrev main_v54 : Ref sig .tc := ⟨.hbm, 99, rfl⟩
abbrev main_cst_15 : Ref sig .tc := ⟨.hbm, 100, rfl⟩
abbrev main_call0_v0 : Ref sig .tc := ⟨.hbm, 101, rfl⟩
abbrev main_call0_v1 : Ref sig .tc := ⟨.hbm, 102, rfl⟩
abbrev main_v55 : Ref sig .tc := ⟨.hbm, 103, rfl⟩
abbrev main_cst_16 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_c_17 : Ref sig .tc := ⟨.hbm, 109, rfl⟩
abbrev main_v60 : Ref sig .tc := ⟨.hbm, 110, rfl⟩
abbrev main_v61 : Ref sig .tc := ⟨.hbm, 111, rfl⟩
abbrev main_c_18 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_c_19 : Ref sig .tc := ⟨.hbm, 118, rfl⟩
abbrev main_v67 : Ref sig .tc := ⟨.hbm, 119, rfl⟩
abbrev main_v68 : Ref sig .tc := ⟨.hbm, 120, rfl⟩
abbrev main_c_20 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_c_21 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_c_22 : Ref sig .tc := ⟨.hbm, 131, rfl⟩
abbrev main_v77 : Ref sig .tc := ⟨.hbm, 132, rfl⟩
abbrev main_v78 : Ref sig .tc := ⟨.hbm, 133, rfl⟩
abbrev main_cst_23 : Ref sig .tc := ⟨.hbm, 134, rfl⟩
abbrev main_v79 : Ref sig .tc := ⟨.hbm, 135, rfl⟩
abbrev main_v80 : Ref sig .tc := ⟨.hbm, 136, rfl⟩
abbrev main_cst_24 : Ref sig .tc := ⟨.hbm, 137, rfl⟩
abbrev main_v81 : Ref sig .tc := ⟨.hbm, 138, rfl⟩
abbrev main_v82 : Ref sig .tc := ⟨.hbm, 139, rfl⟩
abbrev main_cst_25 : Ref sig .tc := ⟨.hbm, 140, rfl⟩
abbrev main_v83 : Ref sig .tc := ⟨.hbm, 141, rfl⟩
abbrev main_v84 : Ref sig .tc := ⟨.hbm, 142, rfl⟩
abbrev main_cst_26 : Ref sig .tc := ⟨.hbm, 143, rfl⟩
abbrev main_call1_v0 : Ref sig .tc := ⟨.hbm, 144, rfl⟩
abbrev main_call1_v1 : Ref sig .tc := ⟨.hbm, 145, rfl⟩
abbrev main_v85 : Ref sig .tc := ⟨.hbm, 146, rfl⟩
abbrev main_cst_27 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_c_28 : Ref sig .tc := ⟨.hbm, 152, rfl⟩
abbrev main_v90 : Ref sig .tc := ⟨.hbm, 153, rfl⟩
abbrev main_v91 : Ref sig .tc := ⟨.hbm, 154, rfl⟩
abbrev main_c_29 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_c_30 : Ref sig .tc := ⟨.hbm, 161, rfl⟩
abbrev main_v97 : Ref sig .tc := ⟨.hbm, 162, rfl⟩
abbrev main_v98 : Ref sig .tc := ⟨.hbm, 163, rfl⟩
abbrev main_c_31 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_cst_32 : Ref sig .tc := ⟨.hbm, 174, rfl⟩
abbrev main_v108 : Ref sig .tc := ⟨.hbm, 175, rfl⟩
abbrev main_v109 : Ref sig .tc := ⟨.hbm, 176, rfl⟩
abbrev main_cst_33 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_cst_34 : Ref sig .tc := ⟨.hbm, 187, rfl⟩
abbrev main_v119 : Ref sig .tc := ⟨.hbm, 188, rfl⟩
abbrev main_v120 : Ref sig .tc := ⟨.hbm, 189, rfl⟩
abbrev main_cst_35 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_v127 : Ref sig .tc := ⟨.hbm, 197, rfl⟩
abbrev main_v128 : Ref sig .tc := ⟨.hbm, 198, rfl⟩
abbrev main_cst_36 : Ref sig .tc := ⟨.hbm, 199, rfl⟩
abbrev main_v129 : Ref sig .tc := ⟨.hbm, 200, rfl⟩
abbrev main_v130 : Ref sig .tc := ⟨.hbm, 201, rfl⟩
abbrev main_cst_37 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_v137 : Ref sig .tc := ⟨.hbm, 209, rfl⟩
abbrev main_v138 : Ref sig .tc := ⟨.hbm, 210, rfl⟩
abbrev main_v139 : Ref sig .tc := ⟨.hbm, 211, rfl⟩
abbrev main_cst_38 : Ref sig .tc := ⟨.hbm, 212, rfl⟩
abbrev main_v140 : Ref sig .tc := ⟨.hbm, 213, rfl⟩
abbrev main_v141 : Ref sig .tc := ⟨.hbm, 214, rfl⟩
abbrev main_cst_39 : Ref sig .tc := ⟨.hbm, 215, rfl⟩
abbrev main_v142 : Ref sig .tc := ⟨.hbm, 216, rfl⟩
abbrev main_v143 : Ref sig .tc := ⟨.hbm, 217, rfl⟩
abbrev main_v144 : Ref sig .tc := ⟨.hbm, 218, rfl⟩
abbrev main_v145 : Ref sig .tc := ⟨.hbm, 219, rfl⟩
abbrev main_v146 : Ref sig .tc := ⟨.hbm, 220, rfl⟩
abbrev main_v147 : Ref sig .tc := ⟨.hbm, 221, rfl⟩
abbrev main_v148 : Ref sig .tc := ⟨.hbm, 222, rfl⟩
abbrev main_v149 : Ref sig .tc := ⟨.hbm, 223, rfl⟩
abbrev main_cst_40 : Ref sig .tc := ⟨.hbm, 224, rfl⟩
abbrev main_v150 : Ref sig .tc := ⟨.hbm, 225, rfl⟩
abbrev main_v151 : Ref sig .tc := ⟨.hbm, 226, rfl⟩
abbrev main_cst_41 : Ref sig .tc := ⟨.hbm, 227, rfl⟩
abbrev main_v152 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_v158 : Ref sig .tc := ⟨.hbm, 234, rfl⟩
abbrev main_v159 : Ref sig .tc := ⟨.hbm, 235, rfl⟩
abbrev main_v160 : Ref sig .tc := ⟨.hbm, 236, rfl⟩
abbrev main_cst_42 : Ref sig .tc := ⟨.hbm, 237, rfl⟩
abbrev main_v161 : Ref sig .tc := ⟨.hbm, 238, rfl⟩
abbrev main_v162 : Ref sig .tc := ⟨.hbm, 239, rfl⟩
abbrev main_cst_43 : Ref sig .tc := ⟨.hbm, 240, rfl⟩
abbrev main_v163 : Ref sig .tc := ⟨.hbm, 241, rfl⟩
abbrev main_v164 : Ref sig .tc := ⟨.hbm, 242, rfl⟩
abbrev main_v165 : Ref sig .tc := ⟨.hbm, 243, rfl⟩
abbrev main_v166 : Ref sig .tc := ⟨.hbm, 244, rfl⟩
abbrev main_v167 : Ref sig .tc := ⟨.hbm, 245, rfl⟩
abbrev main_v168 : Ref sig .tc := ⟨.hbm, 246, rfl⟩
abbrev main_v169 : Ref sig .tc := ⟨.hbm, 247, rfl⟩
abbrev main_v170 : Ref sig .tc := ⟨.hbm, 248, rfl⟩
abbrev main_cst_44 : Ref sig .tc := ⟨.hbm, 249, rfl⟩
abbrev main_v171 : Ref sig .tc := ⟨.hbm, 250, rfl⟩
abbrev main_v172 : Ref sig .tc := ⟨.hbm, 251, rfl⟩
abbrev main_cst_45 : Ref sig .tc := ⟨.hbm, 252, rfl⟩
abbrev main_v173 : Ref sig .tc := ⟨.hbm, 253, rfl⟩
abbrev main_v174 : Ref sig .tc := ⟨.hbm, 254, rfl⟩
abbrev main_v175 : Ref sig .tc := ⟨.hbm, 255, rfl⟩
abbrev main_v176 : Ref sig .tc := ⟨.hbm, 256, rfl⟩
abbrev main_v177 : Ref sig .tc := ⟨.hbm, 257, rfl⟩
abbrev main_v178 : Ref sig .tc := ⟨.hbm, 258, rfl⟩
abbrev main_v179 : Ref sig .tc := ⟨.hbm, 259, rfl⟩
abbrev main_v180 : Ref sig .tc := ⟨.hbm, 260, rfl⟩
abbrev main_v181 : Ref sig .tc := ⟨.hbm, 261, rfl⟩
abbrev main_cst_46 : Ref sig .tc := ⟨.hbm, 262, rfl⟩
abbrev main_v182 : Ref sig .tc := ⟨.hbm, 263, rfl⟩
abbrev main_v183 : Ref sig .tc := ⟨.hbm, 264, rfl⟩
abbrev main_cst_47 : Ref sig .tc := ⟨.hbm, 265, rfl⟩
abbrev main_v184 : Ref sig .tc := ⟨.hbm, 266, rfl⟩
abbrev main_v185 : Ref sig .tc := ⟨.hbm, 267, rfl⟩
abbrev main_v186 : Ref sig .tc := ⟨.hbm, 268, rfl⟩
abbrev main_v187 : Ref sig .tc := ⟨.hbm, 269, rfl⟩
abbrev main_v188 : Ref sig .tc := ⟨.hbm, 270, rfl⟩
abbrev main_v189 : Ref sig .tc := ⟨.hbm, 271, rfl⟩
abbrev main_v190 : Ref sig .tc := ⟨.hbm, 272, rfl⟩
abbrev main_v191 : Ref sig .tc := ⟨.hbm, 273, rfl⟩
abbrev main_cst_48 : Ref sig .tc := ⟨.hbm, 274, rfl⟩
abbrev main_v192 : Ref sig .tc := ⟨.hbm, 275, rfl⟩
abbrev main_v193 : Ref sig .tc := ⟨.hbm, 276, rfl⟩
abbrev main_cst_49 : Ref sig .tc := ⟨.hbm, 277, rfl⟩
abbrev main_v194 : Ref sig .tc := ⟨.hbm, 278, rfl⟩
abbrev main_v195 : Ref sig .tc := ⟨.hbm, 279, rfl⟩
abbrev main_v196 : Ref sig .tc := ⟨.hbm, 280, rfl⟩
abbrev main_v197 : Ref sig .tc := ⟨.hbm, 281, rfl⟩
abbrev main_v198 : Ref sig .tc := ⟨.hbm, 282, rfl⟩
abbrev main_v199 : Ref sig .tc := ⟨.hbm, 283, rfl⟩
abbrev main_v200 : Ref sig .tc := ⟨.hbm, 284, rfl⟩
abbrev main_v201 : Ref sig .tc := ⟨.hbm, 285, rfl⟩
abbrev main_v202 : Ref sig .tc := ⟨.hbm, 286, rfl⟩
abbrev main_cst_50 : Ref sig .tc := ⟨.hbm, 287, rfl⟩
abbrev main_v203 : Ref sig .tc := ⟨.hbm, 288, rfl⟩
abbrev main_v204 : Ref sig .tc := ⟨.hbm, 289, rfl⟩
abbrev main_cst_51 : Ref sig .tc := ⟨.hbm, 290, rfl⟩
abbrev main_v205 : Ref sig .tc := ⟨.hbm, 291, rfl⟩
abbrev main_v206 : Ref sig .tc := ⟨.hbm, 292, rfl⟩
abbrev main_v207 : Ref sig .tc := ⟨.hbm, 293, rfl⟩
abbrev main_v208 : Ref sig .tc := ⟨.hbm, 294, rfl⟩
abbrev main_v209 : Ref sig .tc := ⟨.hbm, 295, rfl⟩
abbrev main_v210 : Ref sig .tc := ⟨.hbm, 296, rfl⟩
abbrev main_v211 : Ref sig .tc := ⟨.hbm, 297, rfl⟩
abbrev main_v212 : Ref sig .tc := ⟨.hbm, 298, rfl⟩
abbrev main_cst_52 : Ref sig .tc := ⟨.hbm, 299, rfl⟩
abbrev main_v213 : Ref sig .tc := ⟨.hbm, 300, rfl⟩
abbrev main_v214 : Ref sig .tc := ⟨.hbm, 301, rfl⟩
abbrev main_cst_53 : Ref sig .tc := ⟨.hbm, 302, rfl⟩
abbrev main_v215 : Ref sig .tc := ⟨.hbm, 303, rfl⟩
abbrev main_v216 : Ref sig .tc := ⟨.hbm, 304, rfl⟩
abbrev main_v217 : Ref sig .tc := ⟨.hbm, 305, rfl⟩
abbrev main_v218 : Ref sig .tc := ⟨.hbm, 306, rfl⟩
abbrev main_v219 : Ref sig .tc := ⟨.hbm, 307, rfl⟩
abbrev main_v220 : Ref sig .tc := ⟨.hbm, 308, rfl⟩
abbrev main_v221 : Ref sig .tc := ⟨.hbm, 309, rfl⟩
abbrev main_v222 : Ref sig .tc := ⟨.hbm, 310, rfl⟩
abbrev main_v223 : Ref sig .tc := ⟨.hbm, 311, rfl⟩
abbrev main_cst_54 : Ref sig .tc := ⟨.hbm, 312, rfl⟩
abbrev main_v224 : Ref sig .tc := ⟨.hbm, 313, rfl⟩
abbrev main_v225 : Ref sig .tc := ⟨.hbm, 314, rfl⟩
abbrev main_cst_55 : Ref sig .tc := ⟨.hbm, 315, rfl⟩
abbrev main_v226 : Ref sig .tc := ⟨.hbm, 316, rfl⟩
abbrev main_v227 : Ref sig .tc := ⟨.hbm, 317, rfl⟩
abbrev main_v228 : Ref sig .tc := ⟨.hbm, 318, rfl⟩
abbrev main_v229 : Ref sig .tc := ⟨.hbm, 319, rfl⟩
abbrev main_v230 : Ref sig .tc := ⟨.hbm, 320, rfl⟩
abbrev main_v231 : Ref sig .tc := ⟨.hbm, 321, rfl⟩
abbrev main_v232 : Ref sig .tc := ⟨.hbm, 322, rfl⟩
abbrev main_v233 : Ref sig .tc := ⟨.hbm, 323, rfl⟩
abbrev main_v234 : Ref sig .tc := ⟨.hbm, 324, rfl⟩
abbrev main_v235 : Ref sig .tc := ⟨.hbm, 325, rfl⟩
abbrev main_v236 : Ref sig .tc := ⟨.hbm, 326, rfl⟩
abbrev main_v237 : Ref sig .tc := ⟨.hbm, 327, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg20_0 : Ref sig .tc := ⟨.vmem, 26, rfl⟩
abbrev cc0_stg21_0 : Ref sig .tc := ⟨.vmem, 27, rfl⟩
abbrev cc0_stg22_0 : Ref sig .tc := ⟨.vmem, 28, rfl⟩
abbrev cc0_stg22_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem19_0 : DmaSem sig := 25
abbrev cc0_sem20_0 : DmaSem sig := 26
abbrev cc0_sem21_0 : DmaSem sig := 27
abbrev cc0_sem22_0 : DmaSem sig := 28
abbrev cc0_sem22_1 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S16x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x1 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x256 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x256 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256x1 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S1024x1 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

class Facts₀ : Prop where
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x128_0_1 : S2000000x1.BroadcastsInDim S2000000x128 (![0, 1] : Fin 2 → Fin S2000000x128.rank)
  bcast_S_S250000x128 : S_.BroadcastsInDim S250000x128 (![] : Fin 0 → Fin S250000x128.rank)
  bcast_S_S8192 : S_.BroadcastsInDim S8192 (![] : Fin 0 → Fin S8192.rank)
  bcast_S8192_S8192x1_0 : S8192.BroadcastsInDim S8192x1 (![0] : Fin 1 → Fin S8192x1.rank)
  bcast_S_S8192x8 : S_.BroadcastsInDim S8192x8 (![] : Fin 0 → Fin S8192x8.rank)
  bcast_S8192x8_S8192x8x1_0_1 : S8192x8.BroadcastsInDim S8192x8x1 (![0, 1] : Fin 2 → Fin S8192x8x1.rank)
  natLt_1_32 : 1 < 32
  reducesTo_S8192x8_S8192_d1 : S8192x8.ReducesTo [1] S8192
  h_S_ : 0 < S_.numel
  reducesTo_S8192x8x128_S8192x128_d1 : S8192x8x128.ReducesTo [1] S8192x128
  bcast_S8192x1_S8192x128_0_1 : S8192x1.BroadcastsInDim S8192x128 (![0, 1] : Fin 2 → Fin S8192x128.rank)
  slices_S2x256x256_S1x256x256_0_0_0 : S2x256x256.Slices ![0, 0, 0] S1x256x256
  shapeCasts_S1x256x256_S256x256 : S1x256x256.ShapeCasts S256x256
  bcast_S_S256x256 : S_.BroadcastsInDim S256x256 (![] : Fin 0 → Fin S256x256.rank)
  transposes_S256x256_S256x256_1_0 : S256x256.Transposes [1, 0] S256x256
  bitsLt_bf16_f32 : FTy.bits .bf16 < FTy.bits .f32
  slices_S2x256_S1x256_0_0 : S2x256.Slices ![0, 0] S1x256
  shapeCasts_S1x256_S256 : S1x256.ShapeCasts S256
  bcast_S_S256 : S_.BroadcastsInDim S256 (![] : Fin 0 → Fin S256.rank)
  shapeCasts_S256_S1x256 : S256.ShapeCasts S1x256
  slices_S2x1x256_S1x1x256_0_0_0 : S2x1x256.Slices ![0, 0, 0] S1x1x256
  shapeCasts_S1x1x256_S1x256 : S1x1x256.ShapeCasts S1x256
  bcast_S_S1x256 : S_.BroadcastsInDim S1x256 (![] : Fin 0 → Fin S1x256.rank)
  transposes_S1x256_S256x1_1_0 : S1x256.Transposes [1, 0] S256x1
  slices_S2x1_S1x1_0_0 : S2x1.Slices ![0, 0] S1x1
  shapeCasts_S1x1_S1 : S1x1.ShapeCasts S1
  bcast_S_S1 : S_.BroadcastsInDim S1 (![] : Fin 0 → Fin S1.rank)
  shapeCasts_S1_S1x1 : S1.ShapeCasts S1x1
  slices_S2x256x256_S1x256x256_1_0_0 : S2x256x256.Slices ![1, 0, 0] S1x256x256
  slices_S2x256_S1x256_1_0 : S2x256.Slices ![1, 0] S1x256
  slices_S2x1x256_S1x1x256_1_0_0 : S2x1x256.Slices ![1, 0, 0] S1x1x256
  slices_S2x1_S1x1_1_0 : S2x1.Slices ![1, 0] S1x1
  transposes_S128x16_S16x128_1_0 : S128x16.Transposes [1, 0] S16x128
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  concatenates_S1024x128_S1024x128_S1024x256_d1 : Shape.Concatenates [S1024x128, S1024x128] S1024x256 1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  broadcasts_S1024x1_S1024x128 : S1024x1.Broadcasts S1024x128
  reduces_S1024x128_S1024 : S1024x128.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S8192x1_S8192 : S8192x1.ShapeCasts S8192
  gather_S250000x128_S2000000x1_S2000000x128_1_0_n_n_0_1_1128_wf : GatherDims.WF S250000x128 S2000000x1 S2000000x128 [1] [0] [] [0] [] 1 ![1, 128]
  scatter_S250000x128_S2000000x1_S2000000x128_1_0_0_1_wf : ScatterDims.WF S250000x128 S2000000x1 S2000000x128 [1] [0] [0] 1
  gather_S250000x128_S8192x1_S8192x128_1_0_n_n_0_1_1128_wf : GatherDims.WF S250000x128 S8192x1 S8192x128 [1] [0] [] [0] [] 1 ![1, 128]
  gather_S50000x8_S8192x1_S8192x8_1_0_n_n_0_1_18_wf : GatherDims.WF S50000x8 S8192x1 S8192x8 [1] [0] [] [0] [] 1 ![1, 8]
  gather_S1001x128_S8192x8x1_S8192x8x128_2_0_n_n_0_2_1128_wf : GatherDims.WF S1001x128 S8192x8x1 S8192x8x128 [2] [0] [] [0] [] 2 ![1, 128]
  gather_S200000x8_S8192x1_S8192x8_1_0_n_n_0_1_18_wf : GatherDims.WF S200000x8 S8192x1 S8192x8 [1] [0] [] [0] [] 1 ![1, 8]
  gather_S50000x16_S8192x1_S8192x16_1_0_n_n_0_1_116_wf : GatherDims.WF S50000x16 S8192x1 S8192x16 [1] [0] [] [0] [] 1 ![1, 16]
  gather_S200000x16_S8192x1_S8192x16_1_0_n_n_0_1_116_wf : GatherDims.WF S200000x16 S8192x1 S8192x16 [1] [0] [] [0] [] 1 ![1, 16]
  dot_S1024x16_S16x128_S1024x128_1_0_0_1_n_n_wf : DotDims.WF S1024x16 S16x128 S1024x128 [1] [0] [0] [1] [] []
  dot_S1024x256_S256x256_S1024x256_1_0_0_1_n_n_wf : DotDims.WF S1024x256 S256x256 S1024x256 [1] [0] [0] [1] [] []
  dot_S1024x256_S256x1_S1024x1_1_0_0_1_n_n_wf : DotDims.WF S1024x256 S256x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S8192x16.size a
  hwx0_2 : ∀ i : grid0.Coords, EltTy.bits .f32 = 32 ∨ (Rect.block (s := S8192x16) S1024x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S8192x128.size a
  hwx0_3 : ∀ i : grid0.Coords, EltTy.bits .f32 = 32 ∨ (Rect.block (s := S8192x128) S1024x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S8192x128.size a
  hwx0_4 : ∀ i : grid0.Coords, EltTy.bits .f32 = 32 ∨ (Rect.block (s := S8192x128) S1024x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x16.size a ≤ S8192x16.size a
  hwx0_5 : ∀ i : grid0.Coords, EltTy.bits .f32 = 32 ∨ (Rect.block (s := S8192x16) S1024x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x128.size a ≤ S16x128.size a
  hwx0_6 : ∀ i : grid0.Coords, EltTy.bits .bf16 = 32 ∨ (Rect.block (s := S16x128) S16x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S16x128.size a ≤ S16x128.size a
  hwx0_8 : ∀ i : grid0.Coords, EltTy.bits .bf16 = 32 ∨ (Rect.block (s := S16x128) S16x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S256x256.size a
  hwx0_10 : ∀ i : grid0.Coords, EltTy.bits .bf16 = 32 ∨ (Rect.block (s := S256x256) S256x256.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x256.size a
  hwx0_11 : ∀ i : grid0.Coords, EltTy.bits .f32 = 32 ∨ (Rect.block (s := S1x256) S1x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x256.size a ≤ S256x256.size a
  hwx0_12 : ∀ i : grid0.Coords, EltTy.bits .bf16 = 32 ∨ (Rect.block (s := S256x256) S256x256.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x256.size a
  hwx0_13 : ∀ i : grid0.Coords, EltTy.bits .f32 = 32 ∨ (Rect.block (s := S1x256) S1x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256x1.size a ≤ S256x1.size a
  hwx0_14 : ∀ i : grid0.Coords, EltTy.bits .bf16 = 32 ∨ (Rect.block (s := S256x1) S256x1.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x1.size a ≤ S1x1.size a
  hwx0_15 : ∀ i : grid0.Coords, EltTy.bits .f32 = 32 ∨ (Rect.block (s := S1x1) S1x1.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S256x256.size a ≤ S256x256.size a
  hwx0_16 : ∀ i : grid0.Coords, EltTy.bits .bf16 = 32 ∨ (Rect.block (s := S256x256) S256x256.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x256.size a ≤ S1x256.size a
  hwx0_17 : ∀ i : grid0.Coords, EltTy.bits .f32 = 32 ∨ (Rect.block (s := S1x256) S1x256.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S256x256.size a ≤ S256x256.size a
  hwx0_18 : ∀ i : grid0.Coords, EltTy.bits .bf16 = 32 ∨ (Rect.block (s := S256x256) S256x256.size (cc0_transform_18 i) (hinb0_18 i)).WholeWords (EltTy.packing .bf16)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x256.size a ≤ S1x256.size a
  hwx0_19 : ∀ i : grid0.Coords, EltTy.bits .f32 = 32 ∨ (Rect.block (s := S1x256) S1x256.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S256x1.size a ≤ S256x1.size a
  hwx0_20 : ∀ i : grid0.Coords, EltTy.bits .bf16 = 32 ∨ (Rect.block (s := S256x1) S256x1.size (cc0_transform_20 i) (hinb0_20 i)).WholeWords (EltTy.packing .bf16)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1x1.size a ≤ S1x1.size a
  hwx0_21 : ∀ i : grid0.Coords, EltTy.bits .f32 = 32 ∨ (Rect.block (s := S1x1) S1x1.size (cc0_transform_21 i) (hinb0_21 i)).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S1024x1.size a ≤ S8192x1.size a
  hwx0_22 : ∀ i : grid0.Coords, EltTy.bits .f32 = 32 ∨ (Rect.block (s := S8192x1) S1024x1.size (cc0_transform_22 i) (hinb0_22 i)).WholeWords (EltTy.packing .f32)

variable [Facts₀]

def gather_S250000x128_S2000000x1_S2000000x128_1_0_n_n_0_1_1128 : GatherDims S250000x128 S2000000x1 S2000000x128 where
  offsetDims := [1]
  collapsedSliceDims := [0]
  operandBatchingDims := []
  startIndicesBatchingDims := []
  startIndexMap := [0]
  indexVectorDim := 1
  sliceSizes := ![1, 128]
  wf := gather_S250000x128_S2000000x1_S2000000x128_1_0_n_n_0_1_1128_wf
def scatter_S250000x128_S2000000x1_S2000000x128_1_0_0_1 : ScatterDims S250000x128 S2000000x1 S2000000x128 where
  updateWindowDims := [1]
  insertedWindowDims := [0]
  scatterDimsToOperandDims := [0]
  indexVectorDim := 1
  wf := scatter_S250000x128_S2000000x1_S2000000x128_1_0_0_1_wf
def gather_S250000x128_S8192x1_S8192x128_1_0_n_n_0_1_1128 : GatherDims S250000x128 S8192x1 S8192x128 where
  offsetDims := [1]
  collapsedSliceDims := [0]
  operandBatchingDims := []
  startIndicesBatchingDims := []
  startIndexMap := [0]
  indexVectorDim := 1
  sliceSizes := ![1, 128]
  wf := gather_S250000x128_S8192x1_S8192x128_1_0_n_n_0_1_1128_wf
def gather_S50000x8_S8192x1_S8192x8_1_0_n_n_0_1_18 : GatherDims S50000x8 S8192x1 S8192x8 where
  offsetDims := [1]
  collapsedSliceDims := [0]
  operandBatchingDims := []
  startIndicesBatchingDims := []
  startIndexMap := [0]
  indexVectorDim := 1
  sliceSizes := ![1, 8]
  wf := gather_S50000x8_S8192x1_S8192x8_1_0_n_n_0_1_18_wf
def gather_S1001x128_S8192x8x1_S8192x8x128_2_0_n_n_0_2_1128 : GatherDims S1001x128 S8192x8x1 S8192x8x128 where
  offsetDims := [2]
  collapsedSliceDims := [0]
  operandBatchingDims := []
  startIndicesBatchingDims := []
  startIndexMap := [0]
  indexVectorDim := 2
  sliceSizes := ![1, 128]
  wf := gather_S1001x128_S8192x8x1_S8192x8x128_2_0_n_n_0_2_1128_wf
def gather_S200000x8_S8192x1_S8192x8_1_0_n_n_0_1_18 : GatherDims S200000x8 S8192x1 S8192x8 where
  offsetDims := [1]
  collapsedSliceDims := [0]
  operandBatchingDims := []
  startIndicesBatchingDims := []
  startIndexMap := [0]
  indexVectorDim := 1
  sliceSizes := ![1, 8]
  wf := gather_S200000x8_S8192x1_S8192x8_1_0_n_n_0_1_18_wf
def gather_S50000x16_S8192x1_S8192x16_1_0_n_n_0_1_116 : GatherDims S50000x16 S8192x1 S8192x16 where
  offsetDims := [1]
  collapsedSliceDims := [0]
  operandBatchingDims := []
  startIndicesBatchingDims := []
  startIndexMap := [0]
  indexVectorDim := 1
  sliceSizes := ![1, 16]
  wf := gather_S50000x16_S8192x1_S8192x16_1_0_n_n_0_1_116_wf
def gather_S200000x16_S8192x1_S8192x16_1_0_n_n_0_1_116 : GatherDims S200000x16 S8192x1 S8192x16 where
  offsetDims := [1]
  collapsedSliceDims := [0]
  operandBatchingDims := []
  startIndicesBatchingDims := []
  startIndexMap := [0]
  indexVectorDim := 1
  sliceSizes := ![1, 16]
  wf := gather_S200000x16_S8192x1_S8192x16_1_0_n_n_0_1_116_wf
def dot_S1024x16_S16x128_S1024x128_1_0_0_1_n_n : DotDims S1024x16 S16x128 S1024x128 where
  lhsContracting := [1]
  rhsContracting := [0]
  lhsNonContracting := [0]
  rhsNonContracting := [1]
  lhsBatch := []
  rhsBatch := []
  wf := dot_S1024x16_S16x128_S1024x128_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x1_S1024x1_1_0_0_1_n_n : DotDims S1024x256 S256x1 S1024x1 where
  lhsContracting := [1]
  rhsContracting := [0]
  lhsNonContracting := [0]
  rhsNonContracting := [1]
  lhsBatch := []
  rhsBatch := []
  wf := dot_S1024x256_S256x1_S1024x1_1_0_0_1_n_n_wf

abbrev win0_0 : Pipeline.Window sig grid0 :=
  Pipeline.Window.ofSpec (Memref.whole main_v22) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v59) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v96) S1024x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v89) S1024x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v103) S1024x16.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v231) S16x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v232) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v234) S16x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v235) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v114) S256x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v124) S1x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v135) S256x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v145) S1x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v156) S256x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v166) S1x1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v177) S256x256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v187) S1x256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v198) S256x256.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v208) S1x256.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v219) S256x1.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v229) S1x1.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v236) S1024x1.size cc0_transform_22 reads0_22 true false 2 stage0_22 sem0_22
    hrank0 hreads0_22 hinb0_22 nbuf0_22 (Memref.isWhole_whole _) hwx0_22 hstage0_22

abbrev win0 : Fin 23 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | ⟨_ + 23, h⟩ => absurd h (Nat.not_lt.2 (Nat.le_add_left _ _))
abbrev spec0 : Fin 23 → Pipeline.WinSpec sig grid0.rank := fun w => (win0 w).toWinSpec

class Facts : Prop extends Facts₀ where

variable [Facts]
-- ==== ReferenceIdeal.lean ====
abbrev S250000x128 : Shape := ⟨2, ![250000, 128]⟩
abbrev S2000000 : Shape := ⟨1, ![2000000]⟩
abbrev S1001x128 : Shape := ⟨2, ![1001, 128]⟩
abbrev S128x16 : Shape := ⟨2, ![128, 16]⟩
abbrev S128 : Shape := ⟨1, ![128]⟩
abbrev S256x256 : Shape := ⟨2, ![256, 256]⟩
abbrev S256 : Shape := ⟨1, ![256]⟩
abbrev S2x256x256 : Shape := ⟨3, ![2, 256, 256]⟩
abbrev S2x256 : Shape := ⟨2, ![2, 256]⟩
abbrev S1x256 : Shape := ⟨2, ![1, 256]⟩
abbrev S1 : Shape := ⟨1, ![1]⟩
abbrev S2x1x256 : Shape := ⟨3, ![2, 1, 256]⟩
abbrev S2x1 : Shape := ⟨2, ![2, 1]⟩
abbrev S50000x16 : Shape := ⟨2, ![50000, 16]⟩
abbrev S200000x16 : Shape := ⟨2, ![200000, 16]⟩
abbrev S50000x8 : Shape := ⟨2, ![50000, 8]⟩
abbrev S200000x8 : Shape := ⟨2, ![200000, 8]⟩
abbrev S8192 : Shape := ⟨1, ![8192]⟩
abbrev S2000000x1 : Shape := ⟨2, ![2000000, 1]⟩
abbrev S_ : Shape := ⟨0, ![]⟩
abbrev S2000000x128 : Shape := ⟨2, ![2000000, 128]⟩
abbrev S8192x1 : Shape := ⟨2, ![8192, 1]⟩
abbrev S8192x8 : Shape := ⟨2, ![8192, 8]⟩
abbrev S8192x16 : Shape := ⟨2, ![8192, 16]⟩
abbrev S8192x128 : Shape := ⟨2, ![8192, 128]⟩
abbrev S8192x8x1 : Shape := ⟨3, ![8192, 8, 1]⟩
abbrev S8192x8x128 : Shape := ⟨3, ![8192, 8, 128]⟩
abbrev S16x128 : Shape := ⟨2, ![16, 128]⟩
abbrev S1x128 : Shape := ⟨2, ![1, 128]⟩
abbrev S8192x256 : Shape := ⟨2, ![8192, 256]⟩
abbrev S1x256x256 : Shape := ⟨3, ![1, 256, 256]⟩
abbrev S1x1x256 : Shape := ⟨3, ![1, 1, 256]⟩
abbrev S256x1 : Shape := ⟨2, ![256, 1]⟩
abbrev S1x1 : Shape := ⟨2, ![1, 1]⟩

abbrev nBuf : Space → Nat
  | .hbm => 399
  | .vmem => 0
  | .smem => 0
  | _ => 0

abbrev hbmTy0_0 (i : Nat) : BufTy := match i % 128 with
  | 0 => ⟨S250000x128, .f32⟩
  | 1 => ⟨S2000000, .f32⟩
  | 2 => ⟨S1001x128, .f32⟩
  | 3 => ⟨S1001x128, .f32⟩
  | 4 => ⟨S128x16, .f32⟩
  | 5 => ⟨S128, .f32⟩
  | 6 => ⟨S128x16, .f32⟩
  | 7 => ⟨S128, .f32⟩
  | 8 => ⟨S256x256, .f32⟩
  | 9 => ⟨S256, .f32⟩
  | 10 => ⟨S2x256x256, .f32⟩
  | 11 => ⟨S2x256, .f32⟩
  | 12 => ⟨S256x256, .f32⟩
  | 13 => ⟨S256, .f32⟩
  | 14 => ⟨S2x256x256, .f32⟩
  | 15 => ⟨S2x256, .f32⟩
  | 16 => ⟨S1x256, .f32⟩
  | 17 => ⟨S1, .f32⟩
  | 18 => ⟨S2x1x256, .f32⟩
  | 19 => ⟨S2x1, .f32⟩
  | 20 => ⟨S50000x16, .f32⟩
  | 21 => ⟨S200000x16, .f32⟩
  | 22 => ⟨S2000000, .i32⟩
  | 23 => ⟨S2000000, .i32⟩
  | 24 => ⟨S50000x8, .i32⟩
  | 25 => ⟨S200000x8, .i32⟩
  | 26 => ⟨S8192, .i32⟩
  | 27 => ⟨S8192, .i32⟩
  | 28 => ⟨S2000000x1, .f32⟩
  | 29 => ⟨S_, .i32⟩
  | 30 => ⟨S2000000, .i32⟩
  | 31 => ⟨S2000000, .i1⟩
  | 32 => ⟨S_, .i32⟩
  | 33 => ⟨S2000000, .i32⟩
  | 34 => ⟨S2000000, .i32⟩
  | 35 => ⟨S2000000, .i32⟩
  | 36 => ⟨S2000000x1, .i32⟩
  | 37 => ⟨S2000000x128, .f32⟩
  | 38 => ⟨S2000000x128, .f32⟩
  | 39 => ⟨S2000000x128, .f32⟩
  | 40 => ⟨S_, .f32⟩
  | 41 => ⟨S250000x128, .f32⟩
  | 42 => ⟨S2000000x1, .i32⟩
  | 43 => ⟨S250000x128, .f32⟩
  | 44 => ⟨S250000x128, .f32⟩
  | 45 => ⟨S_, .i32⟩
  | 46 => ⟨S8192, .i32⟩
  | 47 => ⟨S8192, .i32⟩
  | 48 => ⟨S_, .i32⟩
  | 49 => ⟨S8192, .i32⟩
  | 50 => ⟨S8192, .i1⟩
  | 51 => ⟨S_, .i32⟩
  | 52 => ⟨S8192, .i32⟩
  | 53 => ⟨S8192, .i32⟩
  | 54 => ⟨S8192, .i32⟩
  | 55 => ⟨S8192x1, .i32⟩
  | 56 => ⟨S8192x8, .i32⟩
  | 57 => ⟨S_, .i32⟩
  | 58 => ⟨S8192, .i32⟩
  | 59 => ⟨S8192, .i1⟩
  | 60 => ⟨S_, .i32⟩
  | 61 => ⟨S8192, .i32⟩
  | 62 => ⟨S8192, .i32⟩
  | 63 => ⟨S8192, .i32⟩
  | 64 => ⟨S8192x1, .i32⟩
  | 65 => ⟨S8192x16, .f32⟩
  | 66 => ⟨S_, .i32⟩
  | 67 => ⟨S8192, .i32⟩
  | 68 => ⟨S8192, .i1⟩
  | 69 => ⟨S_, .i32⟩
  | 70 => ⟨S8192, .i32⟩
  | 71 => ⟨S8192, .i32⟩
  | 72 => ⟨S8192, .i32⟩
  | 73 => ⟨S8192x1, .i32⟩
  | 74 => ⟨S8192x128, .f32⟩
  | 75 => ⟨S_, .i32⟩
  | 76 => ⟨S8192x8, .i32⟩
  | 77 => ⟨S8192x8, .i1⟩
  | 78 => ⟨S_, .i32⟩
  | 79 => ⟨S8192x8, .i32⟩
  | 80 => ⟨S8192x8, .i32⟩
  | 81 => ⟨S8192x8, .i32⟩
  | 82 => ⟨S8192x8x1, .i32⟩
  | 83 => ⟨S8192x8x128, .f32⟩
  | 84 => ⟨S_, .i32⟩
  | 85 => ⟨S8192x8, .i32⟩
  | 86 => ⟨S8192x8, .i1⟩
  | 87 => ⟨S8192x8, .i32⟩
  | 88 => ⟨S_, .i32⟩
  | 89 => ⟨S8192, .i32⟩
  | 90 => ⟨S8192, .f32⟩
  | 91 => ⟨S_, .f32⟩
  | 92 => ⟨S8192, .f32⟩
  | 93 => ⟨S8192, .i1⟩
  | 94 => ⟨S_, .f32⟩
  | 95 => ⟨S8192, .f32⟩
  | 96 => ⟨S8192, .f32⟩
  | 97 => ⟨S_, .f32⟩
  | 98 => ⟨S8192, .f32⟩
  | 99 => ⟨S8192, .f32⟩
  | 100 => ⟨S_, .f32⟩
  | 101 => ⟨S_, .f32⟩
  | 102 => ⟨S8192, .f32⟩
  | 103 => ⟨S8192, .f32⟩
  | 104 => ⟨S_, .f32⟩
  | 105 => ⟨S8192x128, .f32⟩
  | 106 => ⟨S8192x1, .f32⟩
  | 107 => ⟨S8192x128, .f32⟩
  | 108 => ⟨S8192x128, .f32⟩
  | 109 => ⟨S16x128, .f32⟩
  | 110 => ⟨S8192x128, .f32⟩
  | 111 => ⟨S1x128, .f32⟩
  | 112 => ⟨S8192x128, .f32⟩
  | 113 => ⟨S8192x128, .f32⟩
  | 114 => ⟨S_, .f32⟩
  | 115 => ⟨S8192x128, .f32⟩
  | 116 => ⟨S8192x128, .f32⟩
  | 117 => ⟨S8192x128, .f32⟩
  | 118 => ⟨S8192x256, .f32⟩
  | 119 => ⟨S1x256x256, .f32⟩
  | 120 => ⟨S256x256, .f32⟩
  | 121 => ⟨S256x256, .f32⟩
  | 122 => ⟨S256x256, .f32⟩
  | 123 => ⟨S_, .f32⟩
  | 124 => ⟨S256x256, .f32⟩
  | 125 => ⟨S256x256, .f32⟩
  | 126 => ⟨S_, .f32⟩
  | 127 => ⟨S256x256, .f32⟩
  | _ => ⟨S250000x128, .f32⟩

abbrev hbmTy0_1 (i : Nat) : BufTy := match i % 128 with
  | 0 => ⟨S256x256, .f32⟩
  | 1 => ⟨S256x256, .f32⟩
  | 2 => ⟨S256x256, .f32⟩
  | 3 => ⟨S8192x256, .f32⟩
  | 4 => ⟨S1x256, .f32⟩
  | 5 => ⟨S256, .f32⟩
  | 6 => ⟨S256, .f32⟩
  | 7 => ⟨S256, .f32⟩
  | 8 => ⟨S_, .f32⟩
  | 9 => ⟨S256, .f32⟩
  | 10 => ⟨S256, .f32⟩
  | 11 => ⟨S_, .f32⟩
  | 12 => ⟨S256, .f32⟩
  | 13 => ⟨S256, .f32⟩
  | 14 => ⟨S256, .f32⟩
  | 15 => ⟨S1x256, .f32⟩
  | 16 => ⟨S8192x256, .f32⟩
  | 17 => ⟨S8192x256, .f32⟩
  | 18 => ⟨S_, .f32⟩
  | 19 => ⟨S8192x256, .f32⟩
  | 20 => ⟨S8192x256, .f32⟩
  | 21 => ⟨S1x256x256, .f32⟩
  | 22 => ⟨S256x256, .f32⟩
  | 23 => ⟨S256x256, .f32⟩
  | 24 => ⟨S256x256, .f32⟩
  | 25 => ⟨S_, .f32⟩
  | 26 => ⟨S256x256, .f32⟩
  | 27 => ⟨S256x256, .f32⟩
  | 28 => ⟨S_, .f32⟩
  | 29 => ⟨S256x256, .f32⟩
  | 30 => ⟨S256x256, .f32⟩
  | 31 => ⟨S256x256, .f32⟩
  | 32 => ⟨S256x256, .f32⟩
  | 33 => ⟨S8192x256, .f32⟩
  | 34 => ⟨S1x256, .f32⟩
  | 35 => ⟨S256, .f32⟩
  | 36 => ⟨S256, .f32⟩
  | 37 => ⟨S256, .f32⟩
  | 38 => ⟨S_, .f32⟩
  | 39 => ⟨S256, .f32⟩
  | 40 => ⟨S256, .f32⟩
  | 41 => ⟨S_, .f32⟩
  | 42 => ⟨S256, .f32⟩
  | 43 => ⟨S256, .f32⟩
  | 44 => ⟨S256, .f32⟩
  | 45 => ⟨S1x256, .f32⟩
  | 46 => ⟨S8192x256, .f32⟩
  | 47 => ⟨S8192x256, .f32⟩
  | 48 => ⟨S_, .f32⟩
  | 49 => ⟨S8192x256, .f32⟩
  | 50 => ⟨S8192x256, .f32⟩
  | 51 => ⟨S1x1x256, .f32⟩
  | 52 => ⟨S1x256, .f32⟩
  | 53 => ⟨S1x256, .f32⟩
  | 54 => ⟨S1x256, .f32⟩
  | 55 => ⟨S_, .f32⟩
  | 56 => ⟨S1x256, .f32⟩
  | 57 => ⟨S1x256, .f32⟩
  | 58 => ⟨S_, .f32⟩
  | 59 => ⟨S1x256, .f32⟩
  | 60 => ⟨S1x256, .f32⟩
  | 61 => ⟨S1x256, .f32⟩
  | 62 => ⟨S256x1, .f32⟩
  | 63 => ⟨S8192x1, .f32⟩
  | 64 => ⟨S1x1, .f32⟩
  | 65 => ⟨S1, .f32⟩
  | 66 => ⟨S1, .f32⟩
  | 67 => ⟨S1, .f32⟩
  | 68 => ⟨S_, .f32⟩
  | 69 => ⟨S1, .f32⟩
  | 70 => ⟨S1, .f32⟩
  | 71 => ⟨S_, .f32⟩
  | 72 => ⟨S1, .f32⟩
  | 73 => ⟨S1, .f32⟩
  | 74 => ⟨S1, .f32⟩
  | 75 => ⟨S1x1, .f32⟩
  | 76 => ⟨S8192x1, .f32⟩
  | 77 => ⟨S8192x1, .f32⟩
  | 78 => ⟨S8192x1, .f32⟩
  | 79 => ⟨S8192x1, .f32⟩
  | 80 => ⟨S_, .f32⟩
  | 81 => ⟨S8192x1, .f32⟩
  | 82 => ⟨S8192x1, .f32⟩
  | 83 => ⟨S_, .f32⟩
  | 84 => ⟨S8192x1, .f32⟩
  | 85 => ⟨S8192x1, .f32⟩
  | 86 => ⟨S8192x128, .f32⟩
  | 87 => ⟨S8192x128, .f32⟩
  | 88 => ⟨S_, .f32⟩
  | 89 => ⟨S8192x1, .f32⟩
  | 90 => ⟨S8192x1, .f32⟩
  | 91 => ⟨S8192x128, .f32⟩
  | 92 => ⟨S8192x128, .f32⟩
  | 93 => ⟨S8192x128, .f32⟩
  | 94 => ⟨S_, .i32⟩
  | 95 => ⟨S8192, .i32⟩
  | 96 => ⟨S8192, .i1⟩
  | 97 => ⟨S_, .i32⟩
  | 98 => ⟨S8192, .i32⟩
  | 99 => ⟨S8192, .i32⟩
  | 100 => ⟨S8192, .i32⟩
  | 101 => ⟨S8192x1, .i32⟩
  | 102 => ⟨S8192x8, .i32⟩
  | 103 => ⟨S_, .i32⟩
  | 104 => ⟨S8192, .i32⟩
  | 105 => ⟨S8192, .i1⟩
  | 106 => ⟨S_, .i32⟩
  | 107 => ⟨S8192, .i32⟩
  | 108 => ⟨S8192, .i32⟩
  | 109 => ⟨S8192, .i32⟩
  | 110 => ⟨S8192x1, .i32⟩
  | 111 => ⟨S8192x16, .f32⟩
  | 112 => ⟨S_, .i32⟩
  | 113 => ⟨S8192, .i32⟩
  | 114 => ⟨S8192, .i1⟩
  | 115 => ⟨S_, .i32⟩
  | 116 => ⟨S8192, .i32⟩
  | 117 => ⟨S8192, .i32⟩
  | 118 => ⟨S8192, .i32⟩
  | 119 => ⟨S8192x1, .i32⟩
  | 120 => ⟨S8192x128, .f32⟩
  | 121 => ⟨S_, .i32⟩
  | 122 => ⟨S8192x8, .i32⟩
  | 123 => ⟨S8192x8, .i1⟩
  | 124 => ⟨S_, .i32⟩
  | 125 => ⟨S8192x8, .i32⟩
  | 126 => ⟨S8192x8, .i32⟩
  | 127 => ⟨S8192x8, .i32⟩
  | _ => ⟨S250000x128, .f32⟩

abbrev hbmTy0_2 (i : Nat) : BufTy := match i % 128 with
  | 0 => ⟨S8192x8x1, .i32⟩
  | 1 => ⟨S8192x8x128, .f32⟩
  | 2 => ⟨S_, .i32⟩
  | 3 => ⟨S8192x8, .i32⟩
  | 4 => ⟨S8192x8, .i1⟩
  | 5 => ⟨S8192x8, .i32⟩
  | 6 => ⟨S_, .i32⟩
  | 7 => ⟨S8192, .i32⟩
  | 8 => ⟨S8192, .f32⟩
  | 9 => ⟨S_, .f32⟩
  | 10 => ⟨S8192, .f32⟩
  | 11 => ⟨S8192, .i1⟩
  | 12 => ⟨S_, .f32⟩
  | 13 => ⟨S8192, .f32⟩
  | 14 => ⟨S8192, .f32⟩
  | 15 => ⟨S_, .f32⟩
  | 16 => ⟨S8192, .f32⟩
  | 17 => ⟨S8192, .f32⟩
  | 18 => ⟨S_, .f32⟩
  | 19 => ⟨S_, .f32⟩
  | 20 => ⟨S8192, .f32⟩
  | 21 => ⟨S8192, .f32⟩
  | 22 => ⟨S_, .f32⟩
  | 23 => ⟨S8192x128, .f32⟩
  | 24 => ⟨S8192x1, .f32⟩
  | 25 => ⟨S8192x128, .f32⟩
  | 26 => ⟨S8192x128, .f32⟩
  | 27 => ⟨S16x128, .f32⟩
  | 28 => ⟨S8192x128, .f32⟩
  | 29 => ⟨S1x128, .f32⟩
  | 30 => ⟨S8192x128, .f32⟩
  | 31 => ⟨S8192x128, .f32⟩
  | 32 => ⟨S_, .f32⟩
  | 33 => ⟨S8192x128, .f32⟩
  | 34 => ⟨S8192x128, .f32⟩
  | 35 => ⟨S8192x128, .f32⟩
  | 36 => ⟨S8192x256, .f32⟩
  | 37 => ⟨S1x256x256, .f32⟩
  | 38 => ⟨S256x256, .f32⟩
  | 39 => ⟨S256x256, .f32⟩
  | 40 => ⟨S256x256, .f32⟩
  | 41 => ⟨S_, .f32⟩
  | 42 => ⟨S256x256, .f32⟩
  | 43 => ⟨S256x256, .f32⟩
  | 44 => ⟨S_, .f32⟩
  | 45 => ⟨S256x256, .f32⟩
  | 46 => ⟨S256x256, .f32⟩
  | 47 => ⟨S256x256, .f32⟩
  | 48 => ⟨S256x256, .f32⟩
  | 49 => ⟨S8192x256, .f32⟩
  | 50 => ⟨S1x256, .f32⟩
  | 51 => ⟨S256, .f32⟩
  | 52 => ⟨S256, .f32⟩
  | 53 => ⟨S256, .f32⟩
  | 54 => ⟨S_, .f32⟩
  | 55 => ⟨S256, .f32⟩
  | 56 => ⟨S256, .f32⟩
  | 57 => ⟨S_, .f32⟩
  | 58 => ⟨S256, .f32⟩
  | 59 => ⟨S256, .f32⟩
  | 60 => ⟨S256, .f32⟩
  | 61 => ⟨S1x256, .f32⟩
  | 62 => ⟨S8192x256, .f32⟩
  | 63 => ⟨S8192x256, .f32⟩
  | 64 => ⟨S_, .f32⟩
  | 65 => ⟨S8192x256, .f32⟩
  | 66 => ⟨S8192x256, .f32⟩
  | 67 => ⟨S1x256x256, .f32⟩
  | 68 => ⟨S256x256, .f32⟩
  | 69 => ⟨S256x256, .f32⟩
  | 70 => ⟨S256x256, .f32⟩
  | 71 => ⟨S_, .f32⟩
  | 72 => ⟨S256x256, .f32⟩
  | 73 => ⟨S256x256, .f32⟩
  | 74 => ⟨S_, .f32⟩
  | 75 => ⟨S256x256, .f32⟩
  | 76 => ⟨S256x256, .f32⟩
  | 77 => ⟨S256x256, .f32⟩
  | 78 => ⟨S256x256, .f32⟩
  | 79 => ⟨S8192x256, .f32⟩
  | 80 => ⟨S1x256, .f32⟩
  | 81 => ⟨S256, .f32⟩
  | 82 => ⟨S256, .f32⟩
  | 83 => ⟨S256, .f32⟩
  | 84 => ⟨S_, .f32⟩
  | 85 => ⟨S256, .f32⟩
  | 86 => ⟨S256, .f32⟩
  | 87 => ⟨S_, .f32⟩
  | 88 => ⟨S256, .f32⟩
  | 89 => ⟨S256, .f32⟩
  | 90 => ⟨S256, .f32⟩
  | 91 => ⟨S1x256, .f32⟩
  | 92 => ⟨S8192x256, .f32⟩
  | 93 => ⟨S8192x256, .f32⟩
  | 94 => ⟨S_, .f32⟩
  | 95 => ⟨S8192x256, .f32⟩
  | 96 => ⟨S8192x256, .f32⟩
  | 97 => ⟨S1x1x256, .f32⟩
  | 98 => ⟨S1x256, .f32⟩
  | 99 => ⟨S1x256, .f32⟩
  | 100 => ⟨S1x256, .f32⟩
  | 101 => ⟨S_, .f32⟩
  | 102 => ⟨S1x256, .f32⟩
  | 103 => ⟨S1x256, .f32⟩
  | 104 => ⟨S_, .f32⟩
  | 105 => ⟨S1x256, .f32⟩
  | 106 => ⟨S1x256, .f32⟩
  | 107 => ⟨S1x256, .f32⟩
  | 108 => ⟨S256x1, .f32⟩
  | 109 => ⟨S8192x1, .f32⟩
  | 110 => ⟨S1x1, .f32⟩
  | 111 => ⟨S1, .f32⟩
  | 112 => ⟨S1, .f32⟩
  | 113 => ⟨S1, .f32⟩
  | 114 => ⟨S_, .f32⟩
  | 115 => ⟨S1, .f32⟩
  | 116 => ⟨S1, .f32⟩
  | 117 => ⟨S_, .f32⟩
  | 118 => ⟨S1, .f32⟩
  | 119 => ⟨S1, .f32⟩
  | 120 => ⟨S1, .f32⟩
  | 121 => ⟨S1x1, .f32⟩
  | 122 => ⟨S8192x1, .f32⟩
  | 123 => ⟨S8192x1, .f32⟩
  | 124 => ⟨S8192x1, .f32⟩
  | 125 => ⟨S8192x1, .f32⟩
  | 126 => ⟨S_, .f32⟩
  | 127 => ⟨S8192x1, .f32⟩
  | _ => ⟨S250000x128, .f32⟩

abbrev hbmTy0_3 (i : Nat) : BufTy := match i % 128 with
  | 0 => ⟨S8192x1, .f32⟩
  | 1 => ⟨S_, .f32⟩
  | 2 => ⟨S8192x1, .f32⟩
  | 3 => ⟨S8192x1, .f32⟩
  | 4 => ⟨S8192x128, .f32⟩
  | 5 => ⟨S8192x128, .f32⟩
  | 6 => ⟨S_, .f32⟩
  | 7 => ⟨S8192x1, .f32⟩
  | 8 => ⟨S8192x1, .f32⟩
  | 9 => ⟨S8192x128, .f32⟩
  | 10 => ⟨S8192x128, .f32⟩
  | 11 => ⟨S8192x128, .f32⟩
  | 12 => ⟨S8192x128, .f32⟩
  | 13 => ⟨S_, .f32⟩
  | 14 => ⟨S8192, .f32⟩
  | _ => ⟨S250000x128, .f32⟩

abbrev hbmTy (i : Nat) : BufTy := match i / 128 with
  | 0 => hbmTy0_0 i
  | 1 => hbmTy0_1 i
  | 2 => hbmTy0_2 i
  | 3 => hbmTy0_3 i
  | _ => ⟨S250000x128, .f32⟩

abbrev bufTy : (tb : Table) → Fin (tcTables nBuf tb) → BufTy
  | .hbm, ⟨i, _⟩ => hbmTy i
  | _, _ => ⟨S250000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_c : Ref sig .tc := ⟨.hbm, 29, rfl⟩
abbrev main_v1 : Ref sig .tc := ⟨.hbm, 30, rfl⟩
abbrev main_v2 : Ref sig .tc := ⟨.hbm, 31, rfl⟩
abbrev main_c_0 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_cst : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_c_1 : Ref sig .tc := ⟨.hbm, 45, rfl⟩
abbrev main_v14 : Ref sig .tc := ⟨.hbm, 46, rfl⟩
abbrev main_v15 : Ref sig .tc := ⟨.hbm, 47, rfl⟩
abbrev main_c_2 : Ref sig .tc := ⟨.hbm, 48, rfl⟩
abbrev main_v16 : Ref sig .tc := ⟨.hbm, 49, rfl⟩
abbrev main_v17 : Ref sig .tc := ⟨.hbm, 50, rfl⟩
abbrev main_c_3 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_c_4 : Ref sig .tc := ⟨.hbm, 57, rfl⟩
abbrev main_v23 : Ref sig .tc := ⟨.hbm, 58, rfl⟩
abbrev main_v24 : Ref sig .tc := ⟨.hbm, 59, rfl⟩
abbrev main_c_5 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_c_6 : Ref sig .tc := ⟨.hbm, 66, rfl⟩
abbrev main_v30 : Ref sig .tc := ⟨.hbm, 67, rfl⟩
abbrev main_v31 : Ref sig .tc := ⟨.hbm, 68, rfl⟩
abbrev main_c_7 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_c_8 : Ref sig .tc := ⟨.hbm, 75, rfl⟩
abbrev main_v37 : Ref sig .tc := ⟨.hbm, 76, rfl⟩
abbrev main_v38 : Ref sig .tc := ⟨.hbm, 77, rfl⟩
abbrev main_c_9 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_c_10 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_c_11 : Ref sig .tc := ⟨.hbm, 88, rfl⟩
abbrev main_v47 : Ref sig .tc := ⟨.hbm, 89, rfl⟩
abbrev main_v48 : Ref sig .tc := ⟨.hbm, 90, rfl⟩
abbrev main_cst_12 : Ref sig .tc := ⟨.hbm, 91, rfl⟩
abbrev main_v49 : Ref sig .tc := ⟨.hbm, 92, rfl⟩
abbrev main_v50 : Ref sig .tc := ⟨.hbm, 93, rfl⟩
abbrev main_cst_13 : Ref sig .tc := ⟨.hbm, 94, rfl⟩
abbrev main_v51 : Ref sig .tc := ⟨.hbm, 95, rfl⟩
abbrev main_v52 : Ref sig .tc := ⟨.hbm, 96, rfl⟩
abbrev main_cst_14 : Ref sig .tc := ⟨.hbm, 97, rfl⟩
abbrev main_v53 : Ref sig .tc := ⟨.hbm, 98, rfl⟩
abbrev main_v54 : Ref sig .tc := ⟨.hbm, 99, rfl⟩
abbrev main_cst_15 : Ref sig .tc := ⟨.hbm, 100, rfl⟩
abbrev main_call0_v0 : Ref sig .tc := ⟨.hbm, 101, rfl⟩
abbrev main_call0_v1 : Ref sig .tc := ⟨.hbm, 102, rfl⟩
abbrev main_v55 : Ref sig .tc := ⟨.hbm, 103, rfl⟩
abbrev main_cst_16 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_call1_cst : Ref sig .tc := ⟨.hbm, 114, rfl⟩
abbrev main_call1_v0 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_cst_17 : Ref sig .tc := ⟨.hbm, 123, rfl⟩
abbrev main_v72 : Ref sig .tc := ⟨.hbm, 124, rfl⟩
abbrev main_v73 : Ref sig .tc := ⟨.hbm, 125, rfl⟩
abbrev main_cst_18 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_cst_19 : Ref sig .tc := ⟨.hbm, 136, rfl⟩
abbrev main_v83 : Ref sig .tc := ⟨.hbm, 137, rfl⟩
abbrev main_v84 : Ref sig .tc := ⟨.hbm, 138, rfl⟩
abbrev main_cst_20 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_call2_cst : Ref sig .tc := ⟨.hbm, 146, rfl⟩
abbrev main_call2_v0 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_cst_21 : Ref sig .tc := ⟨.hbm, 153, rfl⟩
abbrev main_v96 : Ref sig .tc := ⟨.hbm, 154, rfl⟩
abbrev main_v97 : Ref sig .tc := ⟨.hbm, 155, rfl⟩
abbrev main_cst_22 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_cst_23 : Ref sig .tc := ⟨.hbm, 166, rfl⟩
abbrev main_v107 : Ref sig .tc := ⟨.hbm, 167, rfl⟩
abbrev main_v108 : Ref sig .tc := ⟨.hbm, 168, rfl⟩
abbrev main_cst_24 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_call3_cst : Ref sig .tc := ⟨.hbm, 176, rfl⟩
abbrev main_call3_v0 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_cst_25 : Ref sig .tc := ⟨.hbm, 183, rfl⟩
abbrev main_v120 : Ref sig .tc := ⟨.hbm, 184, rfl⟩
abbrev main_v121 : Ref sig .tc := ⟨.hbm, 185, rfl⟩
abbrev main_cst_26 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_cst_27 : Ref sig .tc := ⟨.hbm, 196, rfl⟩
abbrev main_v131 : Ref sig .tc := ⟨.hbm, 197, rfl⟩
abbrev main_v132 : Ref sig .tc := ⟨.hbm, 198, rfl⟩
abbrev main_cst_28 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_cst_29 : Ref sig .tc := ⟨.hbm, 208, rfl⟩
abbrev main_v141 : Ref sig .tc := ⟨.hbm, 209, rfl⟩
abbrev main_v142 : Ref sig .tc := ⟨.hbm, 210, rfl⟩
abbrev main_cst_30 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩
abbrev main_cst_31 : Ref sig .tc := ⟨.hbm, 216, rfl⟩
abbrev main_v147 : Ref sig .tc := ⟨.hbm, 217, rfl⟩
abbrev main_v148 : Ref sig .tc := ⟨.hbm, 218, rfl⟩
abbrev main_v149 : Ref sig .tc := ⟨.hbm, 219, rfl⟩
abbrev main_v150 : Ref sig .tc := ⟨.hbm, 220, rfl⟩
abbrev main_v151 : Ref sig .tc := ⟨.hbm, 221, rfl⟩
abbrev main_c_32 : Ref sig .tc := ⟨.hbm, 222, rfl⟩
abbrev main_v152 : Ref sig .tc := ⟨.hbm, 223, rfl⟩
abbrev main_v153 : Ref sig .tc := ⟨.hbm, 224, rfl⟩
abbrev main_c_33 : Ref sig .tc := ⟨.hbm, 225, rfl⟩
abbrev main_v154 : Ref sig .tc := ⟨.hbm, 226, rfl⟩
abbrev main_v155 : Ref sig .tc := ⟨.hbm, 227, rfl⟩
abbrev main_v156 : Ref sig .tc := ⟨.hbm, 228, rfl⟩
abbrev main_v157 : Ref sig .tc := ⟨.hbm, 229, rfl⟩
abbrev main_v158 : Ref sig .tc := ⟨.hbm, 230, rfl⟩
abbrev main_c_34 : Ref sig .tc := ⟨.hbm, 231, rfl⟩
abbrev main_v159 : Ref sig .tc := ⟨.hbm, 232, rfl⟩
abbrev main_v160 : Ref sig .tc := ⟨.hbm, 233, rfl⟩
abbrev main_c_35 : Ref sig .tc := ⟨.hbm, 234, rfl⟩
abbrev main_v161 : Ref sig .tc := ⟨.hbm, 235, rfl⟩
abbrev main_v162 : Ref sig .tc := ⟨.hbm, 236, rfl⟩
abbrev main_v163 : Ref sig .tc := ⟨.hbm, 237, rfl⟩
abbrev main_v164 : Ref sig .tc := ⟨.hbm, 238, rfl⟩
abbrev main_v165 : Ref sig .tc := ⟨.hbm, 239, rfl⟩
abbrev main_c_36 : Ref sig .tc := ⟨.hbm, 240, rfl⟩
abbrev main_v166 : Ref sig .tc := ⟨.hbm, 241, rfl⟩
abbrev main_v167 : Ref sig .tc := ⟨.hbm, 242, rfl⟩
abbrev main_c_37 : Ref sig .tc := ⟨.hbm, 243, rfl⟩
abbrev main_v168 : Ref sig .tc := ⟨.hbm, 244, rfl⟩
abbrev main_v169 : Ref sig .tc := ⟨.hbm, 245, rfl⟩
abbrev main_v170 : Ref sig .tc := ⟨.hbm, 246, rfl⟩
abbrev main_v171 : Ref sig .tc := ⟨.hbm, 247, rfl⟩
abbrev main_v172 : Ref sig .tc := ⟨.hbm, 248, rfl⟩
abbrev main_c_38 : Ref sig .tc := ⟨.hbm, 249, rfl⟩
abbrev main_v173 : Ref sig .tc := ⟨.hbm, 250, rfl⟩
abbrev main_v174 : Ref sig .tc := ⟨.hbm, 251, rfl⟩
abbrev main_c_39 : Ref sig .tc := ⟨.hbm, 252, rfl⟩
abbrev main_v175 : Ref sig .tc := ⟨.hbm, 253, rfl⟩
abbrev main_v176 : Ref sig .tc := ⟨.hbm, 254, rfl⟩
abbrev main_v177 : Ref sig .tc := ⟨.hbm, 255, rfl⟩
abbrev main_v178 : Ref sig .tc := ⟨.hbm, 256, rfl⟩
abbrev main_v179 : Ref sig .tc := ⟨.hbm, 257, rfl⟩
abbrev main_c_40 : Ref sig .tc := ⟨.hbm, 258, rfl⟩
abbrev main_v180 : Ref sig .tc := ⟨.hbm, 259, rfl⟩
abbrev main_v181 : Ref sig .tc := ⟨.hbm, 260, rfl⟩
abbrev main_v182 : Ref sig .tc := ⟨.hbm, 261, rfl⟩
abbrev main_c_41 : Ref sig .tc := ⟨.hbm, 262, rfl⟩
abbrev main_v183 : Ref sig .tc := ⟨.hbm, 263, rfl⟩
abbrev main_v184 : Ref sig .tc := ⟨.hbm, 264, rfl⟩
abbrev main_cst_42 : Ref sig .tc := ⟨.hbm, 265, rfl⟩
abbrev main_v185 : Ref sig .tc := ⟨.hbm, 266, rfl⟩
abbrev main_v186 : Ref sig .tc := ⟨.hbm, 267, rfl⟩
abbrev main_cst_43 : Ref sig .tc := ⟨.hbm, 268, rfl⟩
abbrev main_v187 : Ref sig .tc := ⟨.hbm, 269, rfl⟩
abbrev main_v188 : Ref sig .tc := ⟨.hbm, 270, rfl⟩
abbrev main_cst_44 : Ref sig .tc := ⟨.hbm, 271, rfl⟩
abbrev main_v189 : Ref sig .tc := ⟨.hbm, 272, rfl⟩
abbrev main_v190 : Ref sig .tc := ⟨.hbm, 273, rfl⟩
abbrev main_cst_45 : Ref sig .tc := ⟨.hbm, 274, rfl⟩
abbrev main_call4_v0 : Ref sig .tc := ⟨.hbm, 275, rfl⟩
abbrev main_call4_v1 : Ref sig .tc := ⟨.hbm, 276, rfl⟩
abbrev main_v191 : Ref sig .tc := ⟨.hbm, 277, rfl⟩
abbrev main_cst_46 : Ref sig .tc := ⟨.hbm, 278, rfl⟩
abbrev main_v192 : Ref sig .tc := ⟨.hbm, 279, rfl⟩
abbrev main_v193 : Ref sig .tc := ⟨.hbm, 280, rfl⟩
abbrev main_v194 : Ref sig .tc := ⟨.hbm, 281, rfl⟩
abbrev main_v195 : Ref sig .tc := ⟨.hbm, 282, rfl⟩
abbrev main_v196 : Ref sig .tc := ⟨.hbm, 283, rfl⟩
abbrev main_v197 : Ref sig .tc := ⟨.hbm, 284, rfl⟩
abbrev main_v198 : Ref sig .tc := ⟨.hbm, 285, rfl⟩
abbrev main_v199 : Ref sig .tc := ⟨.hbm, 286, rfl⟩
abbrev main_v200 : Ref sig .tc := ⟨.hbm, 287, rfl⟩
abbrev main_call5_cst : Ref sig .tc := ⟨.hbm, 288, rfl⟩
abbrev main_call5_v0 : Ref sig .tc := ⟨.hbm, 289, rfl⟩
abbrev main_v201 : Ref sig .tc := ⟨.hbm, 290, rfl⟩
abbrev main_v202 : Ref sig .tc := ⟨.hbm, 291, rfl⟩
abbrev main_v203 : Ref sig .tc := ⟨.hbm, 292, rfl⟩
abbrev main_v204 : Ref sig .tc := ⟨.hbm, 293, rfl⟩
abbrev main_v205 : Ref sig .tc := ⟨.hbm, 294, rfl⟩
abbrev main_v206 : Ref sig .tc := ⟨.hbm, 295, rfl⟩
abbrev main_v207 : Ref sig .tc := ⟨.hbm, 296, rfl⟩
abbrev main_cst_47 : Ref sig .tc := ⟨.hbm, 297, rfl⟩
abbrev main_v208 : Ref sig .tc := ⟨.hbm, 298, rfl⟩
abbrev main_v209 : Ref sig .tc := ⟨.hbm, 299, rfl⟩
abbrev main_cst_48 : Ref sig .tc := ⟨.hbm, 300, rfl⟩
abbrev main_v210 : Ref sig .tc := ⟨.hbm, 301, rfl⟩
abbrev main_v211 : Ref sig .tc := ⟨.hbm, 302, rfl⟩
abbrev main_v212 : Ref sig .tc := ⟨.hbm, 303, rfl⟩
abbrev main_v213 : Ref sig .tc := ⟨.hbm, 304, rfl⟩
abbrev main_v214 : Ref sig .tc := ⟨.hbm, 305, rfl⟩
abbrev main_v215 : Ref sig .tc := ⟨.hbm, 306, rfl⟩
abbrev main_v216 : Ref sig .tc := ⟨.hbm, 307, rfl⟩
abbrev main_v217 : Ref sig .tc := ⟨.hbm, 308, rfl⟩
abbrev main_v218 : Ref sig .tc := ⟨.hbm, 309, rfl⟩
abbrev main_cst_49 : Ref sig .tc := ⟨.hbm, 310, rfl⟩
abbrev main_v219 : Ref sig .tc := ⟨.hbm, 311, rfl⟩
abbrev main_v220 : Ref sig .tc := ⟨.hbm, 312, rfl⟩
abbrev main_cst_50 : Ref sig .tc := ⟨.hbm, 313, rfl⟩
abbrev main_v221 : Ref sig .tc := ⟨.hbm, 314, rfl⟩
abbrev main_v222 : Ref sig .tc := ⟨.hbm, 315, rfl⟩
abbrev main_v223 : Ref sig .tc := ⟨.hbm, 316, rfl⟩
abbrev main_v224 : Ref sig .tc := ⟨.hbm, 317, rfl⟩
abbrev main_v225 : Ref sig .tc := ⟨.hbm, 318, rfl⟩
abbrev main_v226 : Ref sig .tc := ⟨.hbm, 319, rfl⟩
abbrev main_call6_cst : Ref sig .tc := ⟨.hbm, 320, rfl⟩
abbrev main_call6_v0 : Ref sig .tc := ⟨.hbm, 321, rfl⟩
abbrev main_v227 : Ref sig .tc := ⟨.hbm, 322, rfl⟩
abbrev main_v228 : Ref sig .tc := ⟨.hbm, 323, rfl⟩
abbrev main_v229 : Ref sig .tc := ⟨.hbm, 324, rfl⟩
abbrev main_v230 : Ref sig .tc := ⟨.hbm, 325, rfl⟩
abbrev main_v231 : Ref sig .tc := ⟨.hbm, 326, rfl⟩
abbrev main_cst_51 : Ref sig .tc := ⟨.hbm, 327, rfl⟩
abbrev main_v232 : Ref sig .tc := ⟨.hbm, 328, rfl⟩
abbrev main_v233 : Ref sig .tc := ⟨.hbm, 329, rfl⟩
abbrev main_cst_52 : Ref sig .tc := ⟨.hbm, 330, rfl⟩
abbrev main_v234 : Ref sig .tc := ⟨.hbm, 331, rfl⟩
abbrev main_v235 : Ref sig .tc := ⟨.hbm, 332, rfl⟩
abbrev main_v236 : Ref sig .tc := ⟨.hbm, 333, rfl⟩
abbrev main_v237 : Ref sig .tc := ⟨.hbm, 334, rfl⟩
abbrev main_v238 : Ref sig .tc := ⟨.hbm, 335, rfl⟩
abbrev main_v239 : Ref sig .tc := ⟨.hbm, 336, rfl⟩
abbrev main_v240 : Ref sig .tc := ⟨.hbm, 337, rfl⟩
abbrev main_v241 : Ref sig .tc := ⟨.hbm, 338, rfl⟩
abbrev main_v242 : Ref sig .tc := ⟨.hbm, 339, rfl⟩
abbrev main_cst_53 : Ref sig .tc := ⟨.hbm, 340, rfl⟩
abbrev main_v243 : Ref sig .tc := ⟨.hbm, 341, rfl⟩
abbrev main_v244 : Ref sig .tc := ⟨.hbm, 342, rfl⟩
abbrev main_cst_54 : Ref sig .tc := ⟨.hbm, 343, rfl⟩
abbrev main_v245 : Ref sig .tc := ⟨.hbm, 344, rfl⟩
abbrev main_v246 : Ref sig .tc := ⟨.hbm, 345, rfl⟩
abbrev main_v247 : Ref sig .tc := ⟨.hbm, 346, rfl⟩
abbrev main_v248 : Ref sig .tc := ⟨.hbm, 347, rfl⟩
abbrev main_v249 : Ref sig .tc := ⟨.hbm, 348, rfl⟩
abbrev main_v250 : Ref sig .tc := ⟨.hbm, 349, rfl⟩
abbrev main_call7_cst : Ref sig .tc := ⟨.hbm, 350, rfl⟩
abbrev main_call7_v0 : Ref sig .tc := ⟨.hbm, 351, rfl⟩
abbrev main_v251 : Ref sig .tc := ⟨.hbm, 352, rfl⟩
abbrev main_v252 : Ref sig .tc := ⟨.hbm, 353, rfl⟩
abbrev main_v253 : Ref sig .tc := ⟨.hbm, 354, rfl⟩
abbrev main_v254 : Ref sig .tc := ⟨.hbm, 355, rfl⟩
abbrev main_v255 : Ref sig .tc := ⟨.hbm, 356, rfl⟩
abbrev main_cst_55 : Ref sig .tc := ⟨.hbm, 357, rfl⟩
abbrev main_v256 : Ref sig .tc := ⟨.hbm, 358, rfl⟩
abbrev main_v257 : Ref sig .tc := ⟨.hbm, 359, rfl⟩
abbrev main_cst_56 : Ref sig .tc := ⟨.hbm, 360, rfl⟩
abbrev main_v258 : Ref sig .tc := ⟨.hbm, 361, rfl⟩
abbrev main_v259 : Ref sig .tc := ⟨.hbm, 362, rfl⟩
abbrev main_v260 : Ref sig .tc := ⟨.hbm, 363, rfl⟩
abbrev main_v261 : Ref sig .tc := ⟨.hbm, 364, rfl⟩
abbrev main_v262 : Ref sig .tc := ⟨.hbm, 365, rfl⟩
abbrev main_v263 : Ref sig .tc := ⟨.hbm, 366, rfl⟩
abbrev main_v264 : Ref sig .tc := ⟨.hbm, 367, rfl⟩
abbrev main_v265 : Ref sig .tc := ⟨.hbm, 368, rfl⟩
abbrev main_v266 : Ref sig .tc := ⟨.hbm, 369, rfl⟩
abbrev main_cst_57 : Ref sig .tc := ⟨.hbm, 370, rfl⟩
abbrev main_v267 : Ref sig .tc := ⟨.hbm, 371, rfl⟩
abbrev main_v268 : Ref sig .tc := ⟨.hbm, 372, rfl⟩
abbrev main_cst_58 : Ref sig .tc := ⟨.hbm, 373, rfl⟩
abbrev main_v269 : Ref sig .tc := ⟨.hbm, 374, rfl⟩
abbrev main_v270 : Ref sig .tc := ⟨.hbm, 375, rfl⟩
abbrev main_v271 : Ref sig .tc := ⟨.hbm, 376, rfl⟩
abbrev main_v272 : Ref sig .tc := ⟨.hbm, 377, rfl⟩
abbrev main_v273 : Ref sig .tc := ⟨.hbm, 378, rfl⟩
abbrev main_v274 : Ref sig .tc := ⟨.hbm, 379, rfl⟩
abbrev main_v275 : Ref sig .tc := ⟨.hbm, 380, rfl⟩
abbrev main_v276 : Ref sig .tc := ⟨.hbm, 381, rfl⟩
abbrev main_cst_59 : Ref sig .tc := ⟨.hbm, 382, rfl⟩
abbrev main_v277 : Ref sig .tc := ⟨.hbm, 383, rfl⟩
abbrev main_v278 : Ref sig .tc := ⟨.hbm, 384, rfl⟩
abbrev main_cst_60 : Ref sig .tc := ⟨.hbm, 385, rfl⟩
abbrev main_v279 : Ref sig .tc := ⟨.hbm, 386, rfl⟩
abbrev main_v280 : Ref sig .tc := ⟨.hbm, 387, rfl⟩
abbrev main_v281 : Ref sig .tc := ⟨.hbm, 388, rfl⟩
abbrev main_v282 : Ref sig .tc := ⟨.hbm, 389, rfl⟩
abbrev main_cst_61 : Ref sig .tc := ⟨.hbm, 390, rfl⟩
abbrev main_v283 : Ref sig .tc := ⟨.hbm, 391, rfl⟩
abbrev main_v284 : Ref sig .tc := ⟨.hbm, 392, rfl⟩
abbrev main_v285 : Ref sig .tc := ⟨.hbm, 393, rfl⟩
abbrev main_v286 : Ref sig .tc := ⟨.hbm, 394, rfl⟩
abbrev main_v287 : Ref sig .tc := ⟨.hbm, 395, rfl⟩
abbrev main_v288 : Ref sig .tc := ⟨.hbm, 396, rfl⟩
abbrev main_cst_62 : Ref sig .tc := ⟨.hbm, 397, rfl⟩
abbrev main_v289 : Ref sig .tc := ⟨.hbm, 398, rfl⟩

abbrev nD : Nat := 1
abbrev τ : Topo := Topo.v7x

variable {F : FTy → Type} [FloatOps F]

class Facts₀ : Prop where
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x128_0_1 : S2000000x1.BroadcastsInDim S2000000x128 (![0, 1] : Fin 2 → Fin S2000000x128.rank)
  bcast_S_S250000x128 : S_.BroadcastsInDim S250000x128 (![] : Fin 0 → Fin S250000x128.rank)
  bcast_S_S8192 : S_.BroadcastsInDim S8192 (![] : Fin 0 → Fin S8192.rank)
  bcast_S8192_S8192x1_0 : S8192.BroadcastsInDim S8192x1 (![0] : Fin 1 → Fin S8192x1.rank)
  bcast_S_S8192x8 : S_.BroadcastsInDim S8192x8 (![] : Fin 0 → Fin S8192x8.rank)
  bcast_S8192x8_S8192x8x1_0_1 : S8192x8.BroadcastsInDim S8192x8x1 (![0, 1] : Fin 2 → Fin S8192x8x1.rank)
  natLt_1_32 : 1 < 32
  reducesTo_S8192x8_S8192_d1 : S8192x8.ReducesTo [1] S8192
  h_S_ : 0 < S_.numel
  reducesTo_S8192x8x128_S8192x128_d1 : S8192x8x128.ReducesTo [1] S8192x128
  bcast_S8192x1_S8192x128_0_1 : S8192x1.BroadcastsInDim S8192x128 (![0, 1] : Fin 2 → Fin S8192x128.rank)
  transposes_S128x16_S16x128_1_0 : S128x16.Transposes [1, 0] S16x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  concatenates_S8192x128_S8192x128_S8192x256_d1 : Shape.Concatenates [S8192x128, S8192x128] S8192x256 1
  slices_S2x256x256_S1x256x256_0_0_0 : S2x256x256.Slices ![0, 0, 0] S1x256x256
  shapeCasts_S1x256x256_S256x256 : S1x256x256.ShapeCasts S256x256
  bcast_S_S256x256 : S_.BroadcastsInDim S256x256 (![] : Fin 0 → Fin S256x256.rank)
  transposes_S256x256_S256x256_1_0 : S256x256.Transposes [1, 0] S256x256
  slices_S2x256_S1x256_0_0 : S2x256.Slices ![0, 0] S1x256
  shapeCasts_S1x256_S256 : S1x256.ShapeCasts S256
  bcast_S_S256 : S_.BroadcastsInDim S256 (![] : Fin 0 → Fin S256.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  slices_S2x1x256_S1x1x256_0_0_0 : S2x1x256.Slices ![0, 0, 0] S1x1x256
  shapeCasts_S1x1x256_S1x256 : S1x1x256.ShapeCasts S1x256
  bcast_S_S1x256 : S_.BroadcastsInDim S1x256 (![] : Fin 0 → Fin S1x256.rank)
  transposes_S1x256_S256x1_1_0 : S1x256.Transposes [1, 0] S256x1
  slices_S2x1_S1x1_0_0 : S2x1.Slices ![0, 0] S1x1
  shapeCasts_S1x1_S1 : S1x1.ShapeCasts S1
  bcast_S_S1 : S_.BroadcastsInDim S1 (![] : Fin 0 → Fin S1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  bcast_S_S8192x1 : S_.BroadcastsInDim S8192x1 (![] : Fin 0 → Fin S8192x1.rank)
  slices_S2x256x256_S1x256x256_1_0_0 : S2x256x256.Slices ![1, 0, 0] S1x256x256
  slices_S2x256_S1x256_1_0 : S2x256.Slices ![1, 0] S1x256
  slices_S2x1x256_S1x1x256_1_0_0 : S2x1x256.Slices ![1, 0, 0] S1x1x256
  slices_S2x1_S1x1_1_0 : S2x1.Slices ![1, 0] S1x1
  reducesTo_S8192x128_S8192_d1 : S8192x128.ReducesTo [1] S8192
  gather_S250000x128_S2000000x1_S2000000x128_1_0_n_n_0_1_1128_wf : GatherDims.WF S250000x128 S2000000x1 S2000000x128 [1] [0] [] [0] [] 1 ![1, 128]
  scatter_S250000x128_S2000000x1_S2000000x128_1_0_0_1_wf : ScatterDims.WF S250000x128 S2000000x1 S2000000x128 [1] [0] [0] 1
  gather_S50000x8_S8192x1_S8192x8_1_0_n_n_0_1_18_wf : GatherDims.WF S50000x8 S8192x1 S8192x8 [1] [0] [] [0] [] 1 ![1, 8]
  gather_S50000x16_S8192x1_S8192x16_1_0_n_n_0_1_116_wf : GatherDims.WF S50000x16 S8192x1 S8192x16 [1] [0] [] [0] [] 1 ![1, 16]
  gather_S250000x128_S8192x1_S8192x128_1_0_n_n_0_1_1128_wf : GatherDims.WF S250000x128 S8192x1 S8192x128 [1] [0] [] [0] [] 1 ![1, 128]
  gather_S1001x128_S8192x8x1_S8192x8x128_2_0_n_n_0_2_1128_wf : GatherDims.WF S1001x128 S8192x8x1 S8192x8x128 [2] [0] [] [0] [] 2 ![1, 128]
  dot_S8192x16_S16x128_S8192x128_1_0_0_1_n_n_wf : DotDims.WF S8192x16 S16x128 S8192x128 [1] [0] [0] [1] [] []
  dot_S8192x256_S256x256_S8192x256_1_0_0_1_n_n_wf : DotDims.WF S8192x256 S256x256 S8192x256 [1] [0] [0] [1] [] []
  dot_S8192x256_S256x1_S8192x1_1_0_0_1_n_n_wf : DotDims.WF S8192x256 S256x1 S8192x1 [1] [0] [0] [1] [] []
  gather_S200000x8_S8192x1_S8192x8_1_0_n_n_0_1_18_wf : GatherDims.WF S200000x8 S8192x1 S8192x8 [1] [0] [] [0] [] 1 ![1, 8]
  gather_S200000x16_S8192x1_S8192x16_1_0_n_n_0_1_116_wf : GatherDims.WF S200000x16 S8192x1 S8192x16 [1] [0] [] [0] [] 1 ![1, 16]

variable [Facts₀]

def gather_S250000x128_S2000000x1_S2000000x128_1_0_n_n_0_1_1128 : GatherDims S250000x128 S2000000x1 S2000000x128 where
  offsetDims := [1]
  collapsedSliceDims := [0]
  operandBatchingDims := []
  startIndicesBatchingDims := []
  startIndexMap := [0]
  indexVectorDim := 1
  sliceSizes := ![1, 128]
  wf := gather_S250000x128_S2000000x1_S2000000x128_1_0_n_n_0_1_1128_wf
def scatter_S250000x128_S2000000x1_S2000000x128_1_0_0_1 : ScatterDims S250000x128 S2000000x1 S2000000x128 where
  updateWindowDims := [1]
  insertedWindowDims := [0]
  scatterDimsToOperandDims := [0]
  indexVectorDim := 1
  wf := scatter_S250000x128_S2000000x1_S2000000x128_1_0_0_1_wf
def gather_S50000x8_S8192x1_S8192x8_1_0_n_n_0_1_18 : GatherDims S50000x8 S8192x1 S8192x8 where
  offsetDims := [1]
  collapsedSliceDims := [0]
  operandBatchingDims := []
  startIndicesBatchingDims := []
  startIndexMap := [0]
  indexVectorDim := 1
  sliceSizes := ![1, 8]
  wf := gather_S50000x8_S8192x1_S8192x8_1_0_n_n_0_1_18_wf
def gather_S50000x16_S8192x1_S8192x16_1_0_n_n_0_1_116 : GatherDims S50000x16 S8192x1 S8192x16 where
  offsetDims := [1]
  collapsedSliceDims := [0]
  operandBatchingDims := []
  startIndicesBatchingDims := []
  startIndexMap := [0]
  indexVectorDim := 1
  sliceSizes := ![1, 16]
  wf := gather_S50000x16_S8192x1_S8192x16_1_0_n_n_0_1_116_wf
def gather_S250000x128_S8192x1_S8192x128_1_0_n_n_0_1_1128 : GatherDims S250000x128 S8192x1 S8192x128 where
  offsetDims := [1]
  collapsedSliceDims := [0]
  operandBatchingDims := []
  startIndicesBatchingDims := []
  startIndexMap := [0]
  indexVectorDim := 1
  sliceSizes := ![1, 128]
  wf := gather_S250000x128_S8192x1_S8192x128_1_0_n_n_0_1_1128_wf
def gather_S1001x128_S8192x8x1_S8192x8x128_2_0_n_n_0_2_1128 : GatherDims S1001x128 S8192x8x1 S8192x8x128 where
  offsetDims := [2]
  collapsedSliceDims := [0]
  operandBatchingDims := []
  startIndicesBatchingDims := []
  startIndexMap := [0]
  indexVectorDim := 2
  sliceSizes := ![1, 128]
  wf := gather_S1001x128_S8192x8x1_S8192x8x128_2_0_n_n_0_2_1128_wf
def dot_S8192x16_S16x128_S8192x128_1_0_0_1_n_n : DotDims S8192x16 S16x128 S8192x128 where
  lhsContracting := [1]
  rhsContracting := [0]
  lhsNonContracting := [0]
  rhsNonContracting := [1]
  lhsBatch := []
  rhsBatch := []
  wf := dot_S8192x16_S16x128_S8192x128_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf
def gather_S200000x8_S8192x1_S8192x8_1_0_n_n_0_1_18 : GatherDims S200000x8 S8192x1 S8192x8 where
  offsetDims := [1]
  collapsedSliceDims := [0]
  operandBatchingDims := []
  startIndicesBatchingDims := []
  startIndexMap := [0]
  indexVectorDim := 1
  sliceSizes := ![1, 8]
  wf := gather_S200000x8_S8192x1_S8192x8_1_0_n_n_0_1_18_wf
def gather_S200000x16_S8192x1_S8192x16_1_0_n_n_0_1_116 : GatherDims S200000x16 S8192x1 S8192x16 where
  offsetDims := [1]
  collapsedSliceDims := [0]
  operandBatchingDims := []
  startIndicesBatchingDims := []
  startIndexMap := [0]
  indexVectorDim := 1
  sliceSizes := ![1, 16]
  wf := gather_S200000x16_S8192x1_S8192x16_1_0_n_n_0_1_116_wf

class Facts : Prop extends Facts₀ where

variable [Facts]
-- ==== Proof.Spec.lean ====
/-
  One batch row of the recommender's scoring head, written once over the extended reals.

  A row carries, for each of the two sides (user, item), a propagated embedding `e`, a category
  mean `c` (both of width 128) and sixteen numeric features `n`.  The side's feature vector is
  `c + relu (n · Nw + nb)`; the gate is the logistic of a three-layer perceptron applied to the
  256-wide row `[e, feat]` (two hidden layers of width 256 with relu, one output), every layer a
  sum of products plus a bias; the side's output is `g · e + (1 - g) · feat`, and the row's score
  is the inner product of the two sides' outputs.  Nothing here needs the entries to be finite: only
  the definitions of sum, product, maximum and the logistic on the extended reals are used.
-/
import Idealize.ShloMosaic.PureOps.Ideal
import Idealize.ShloMosaic.PureOps.Ideal.Laws
import Idealize.ShloMosaic.Lib.IdealHost

noncomputable section

namespace Cert.RowSpec

open Idealize.ShloMosaic

/-- An affine layer at output coordinate `o`: the sum over the inputs of input times weight, plus the bias. -/
def lin {K N : Nat} (x : Fin K → EReal) (W : Fin K → Fin N → EReal) (b : Fin N → EReal) (o : Fin N) : EReal :=
  (∑ k : Fin K, x k * W k o) + b o

/-- The positive part. -/
def relu (a : EReal) : EReal := max a 0

/-- A side's feature vector: the category mean plus the positive part of the affine image of the numeric features. -/
def feat (c : Fin 128 → EReal) (n : Fin 16 → EReal) (Nw : Fin 16 → Fin 128 → EReal) (nb : Fin 128 → EReal)
    (d : Fin 128) : EReal :=
  c d + relu (lin n Nw nb d)

/-- Two rows of width 128 laid end to end. -/
def join (e f : Fin 128 → EReal) (j : Fin 256) : EReal :=
  if h : j.val < 128 then e ⟨j.val, h⟩ else f ⟨j.val - 128, by have := j.isLt; omega⟩

/-- The second hidden layer before its relu, from the joined row. -/
def hidden (x : Fin 256 → EReal) (W0 : Fin 256 → Fin 256 → EReal) (b0 : Fin 256 → EReal)
    (W1 : Fin 256 → Fin 256 → EReal) (b1 : Fin 256 → EReal) (o : Fin 256) : EReal :=
  lin (fun j => relu (lin x W0 b0 j)) W1 b1 o

/-- The gate from the second hidden layer (before its relu): logistic of the one-output affine layer. -/
def gateOf (h1 : Fin 256 → EReal) (W2 : Fin 256 → Fin 1 → EReal) (b2 : Fin 1 → EReal) : EReal :=
  Ideal.logistic (lin (fun j => relu (h1 j)) W2 b2 0)

/-- A side's output at coordinate `d` from its gate. -/
def mix (g : EReal) (e f : Fin 128 → EReal) (d : Fin 128) : EReal :=
  g * e d + (1 - g) * f d

/-- A side's output: embedding and features mixed by the gate of the joined row. -/
def tower (e c : Fin 128 → EReal) (n : Fin 16 → EReal) (Nw : Fin 16 → Fin 128 → EReal) (nb : Fin 128 → EReal)
    (W0 : Fin 256 → Fin 256 → EReal) (b0 : Fin 256 → EReal) (W1 : Fin 256 → Fin 256 → EReal) (b1 : Fin 256 → EReal)
    (W2 : Fin 256 → Fin 1 → EReal) (b2 : Fin 1 → EReal) (d : Fin 128) : EReal :=
  mix (gateOf (hidden (join e (feat c n Nw nb)) W0 b0 W1 b1) W2 b2) e (feat c n Nw nb) d

/-- The row's score: the inner product of the two sides' outputs. -/
def score (u i : Fin 128 → EReal) : EReal := ∑ d : Fin 128, u d * i d

end Cert.RowSpec

end
-- ==== Proof.KernelOps.lean ====
/-
  The kernel body's vector operations read at one row of a [1024, ·] block.

  Each lemma takes blocks as variables of the literal vector types and states one operation of the body — a matrix
  product into a zero accumulator plus a broadcast bias, a relu, the joining of two 128-wide blocks, the gate's
  mixing of embedding and features, the lane sum that ends the body — at row `p`, in the terms of the row
  specification (`Cert.RowSpec`).
-/
import proofs.«109762_j70643622084958_2_alg».proof.Proof.Gen.KernelIdeal.Skeleton
import proofs.«109762_j70643622084958_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RowOps

open Cert.KernelIdeal Cert.KernelIdeal.Facts₀ Idealize.ShloMosaic Idealize.ShloMosaic.ValueIdx Cert.RowSpec

/-- The matrix product of a [1024, 16] block and a [16, 128] block into a zero accumulator, at row `p` and column `o`:
    the sum over the 16 contracted positions of the products. -/
theorem mm16 (l : FVec Ideal S1024x16 .bf16) (r : FVec Ideal S16x128 .bf16) (p : Fin 1024) (o : Fin 128) :
    matmul dot_S1024x16_S16x128_S1024x128_1_0_0_1_n_n none l r (constant S1024x128 .f32 0x00000000#32) (ix2 p o)
      = ∑ k : Fin 16, l (ix2 p k) * r (ix2 k o) := by
  simp only [matmul]
  rw [Ideal.matmul_constant_zero_apply, ← Equiv.sum_comp (ValueIdx.contrEquiv1 dot_S1024x16_S16x128_S1024x128_1_0_0_1_n_n 16 rfl rfl).symm]
  refine Finset.sum_congr rfl fun k _ => ?_
  have hk := ValueIdx.contrEquiv1_symm_val dot_S1024x16_S16x128_S1024x128_1_0_0_1_n_n 16 rfl rfl k
  have el : dot_S1024x16_S16x128_S1024x128_1_0_0_1_n_n.lhsIdx (ix2 p o) ((ValueIdx.contrEquiv1 dot_S1024x16_S16x128_S1024x128_1_0_0_1_n_n 16 rfl rfl).symm k) = ix2 p k := funext fun a => Fin.ext (by
    match a with
    | ⟨0, _⟩ =>
      show (dot_S1024x16_S16x128_S1024x128_1_0_0_1_n_n.lhsIdx (ix2 p o) _ 0).val = p.val
      unfold DotDims.lhsIdx
      rw [dif_neg (show ¬(0 : Fin S1024x16.rank) ∈ dot_S1024x16_S16x128_S1024x128_1_0_0_1_n_n.lhsBatch by decide), dif_pos (show (0 : Fin S1024x16.rank) ∈ dot_S1024x16_S16x128_S1024x128_1_0_0_1_n_n.lhsNonContracting by decide)]
      rfl
    | ⟨1, _⟩ => exact (dot_S1024x16_S16x128_S1024x128_1_0_0_1_n_n.lhsIdx_val_of_single rfl _ _).trans hk)
  have er : dot_S1024x16_S16x128_S1024x128_1_0_0_1_n_n.rhsIdx (ix2 p o) ((ValueIdx.contrEquiv1 dot_S1024x16_S16x128_S1024x128_1_0_0_1_n_n 16 rfl rfl).symm k) = ix2 k o := funext fun a => Fin.ext (by
    match a with
    | ⟨0, _⟩ => exact (dot_S1024x16_S16x128_S1024x128_1_0_0_1_n_n.rhsIdx_val_of_single rfl _ _).trans hk
    | ⟨1, _⟩ =>
      show (dot_S1024x16_S16x128_S1024x128_1_0_0_1_n_n.rhsIdx (ix2 p o) _ 1).val = o.val
      unfold DotDims.rhsIdx
      rw [dif_neg (show ¬(1 : Fin S16x128.rank) ∈ dot_S1024x16_S16x128_S1024x128_1_0_0_1_n_n.rhsBatch by decide), dif_pos (show (1 : Fin S16x128.rank) ∈ dot_S1024x16_S16x128_S1024x128_1_0_0_1_n_n.rhsNonContracting by decide)]
      rfl)
  rw [el, er]

/-- The matrix product of a [1024, 256] block and a [256, 256] block into a zero accumulator, at row `p` and column `o`:
    the sum over the 256 contracted positions of the products. -/
theorem mm256 (l : FVec Ideal S1024x256 .bf16) (r : FVec Ideal S256x256 .bf16) (p : Fin 1024) (o : Fin 256) :
    matmul dot_S1024x256_S256x256_S1024x256_1_0_0_1_n_n none l r (constant S1024x256 .f32 0x00000000#32) (ix2 p o)
      = ∑ k : Fin 256, l (ix2 p k) * r (ix2 k o) := by
  simp only [matmul]
  rw [Ideal.matmul_constant_zero_apply, ← Equiv.sum_comp (ValueIdx.contrEquiv1 dot_S1024x256_S256x256_S1024x256_1_0_0_1_n_n 256 rfl rfl).symm]
  refine Finset.sum_congr rfl fun k _ => ?_
  have hk := ValueIdx.contrEquiv1_symm_val dot_S1024x256_S256x256_S1024x256_1_0_0_1_n_n 256 rfl rfl k
  have el : dot_S1024x256_S256x256_S1024x256_1_0_0_1_n_n.lhsIdx (ix2 p o) ((ValueIdx.contrEquiv1 dot_S1024x256_S256x256_S1024x256_1_0_0_1_n_n 256 rfl rfl).symm k) = ix2 p k := funext fun a => Fin.ext (by
    match a with
    | ⟨0, _⟩ =>
      show (dot_S1024x256_S256x256_S1024x256_1_0_0_1_n_n.lhsIdx (ix2 p o) _ 0).val = p.val
      unfold DotDims.lhsIdx
      rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
      rfl
    | ⟨1, _⟩ => exact (dot_S1024x256_S256x256_S1024x256_1_0_0_1_n_n.lhsIdx_val_of_single rfl _ _).trans hk)
  have er : dot_S1024x256_S256x256_S1024x256_1_0_0_1_n_n.rhsIdx (ix2 p o) ((ValueIdx.contrEquiv1 dot_S1024x256_S256x256_S1024x256_1_0_0_1_n_n 256 rfl rfl).symm k) = ix2 k o := funext fun a => Fin.ext (by
    match a with
    | ⟨0, _⟩ => exact (dot_S1024x256_S256x256_S1024x256_1_0_0_1_n_n.rhsIdx_val_of_single rfl _ _).trans hk
    | ⟨1, _⟩ =>
      show (dot_S1024x256_S256x256_S1024x256_1_0_0_1_n_n.rhsIdx (ix2 p o) _ 1).val = o.val
      unfold DotDims.rhsIdx
      rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
      rfl)
  rw [el, er]

/-- The matrix product of a [1024, 256] block and a [256, 1] block into a zero accumulator, at row `p` and column `o`:
    the sum over the 256 contracted positions of the products. -/
theorem mm1 (l : FVec Ideal S1024x256 .bf16) (r : FVec Ideal S256x1 .bf16) (p : Fin 1024) (o : Fin 1) :
    matmul dot_S1024x256_S256x1_S1024x1_1_0_0_1_n_n none l r (constant S1024x1 .f32 0x00000000#32) (ix2 p o)
      = ∑ k : Fin 256, l (ix2 p k) * r (ix2 k o) := by
  simp only [matmul]
  rw [Ideal.matmul_constant_zero_apply, ← Equiv.sum_comp (ValueIdx.contrEquiv1 dot_S1024x256_S256x1_S1024x1_1_0_0_1_n_n 256 rfl rfl).symm]
  refine Finset.sum_congr rfl fun k _ => ?_
  have hk := ValueIdx.contrEquiv1_symm_val dot_S1024x256_S256x1_S1024x1_1_0_0_1_n_n 256 rfl rfl k
  have el : dot_S1024x256_S256x1_S1024x1_1_0_0_1_n_n.lhsIdx (ix2 p o) ((ValueIdx.contrEquiv1 dot_S1024x256_S256x1_S1024x1_1_0_0_1_n_n 256 rfl rfl).symm k) = ix2 p k := funext fun a => Fin.ext (by
    match a with
    | ⟨0, _⟩ =>
      show (dot_S1024x256_S256x1_S1024x1_1_0_0_1_n_n.lhsIdx (ix2 p o) _ 0).val = p.val
      unfold DotDims.lhsIdx
      rw [dif_neg (show ¬(0 : Fin S1024x256.rank) ∈ dot_S1024x256_S256x1_S1024x1_1_0_0_1_n_n.lhsBatch by decide), dif_pos (show (0 : Fin S1024x256.rank) ∈ dot_S1024x256_S256x1_S1024x1_1_0_0_1_n_n.lhsNonContracting by decide)]
      rfl
    | ⟨1, _⟩ => exact (dot_S1024x256_S256x1_S1024x1_1_0_0_1_n_n.lhsIdx_val_of_single rfl _ _).trans hk)
  have er : dot_S1024x256_S256x1_S1024x1_1_0_0_1_n_n.rhsIdx (ix2 p o) ((ValueIdx.contrEquiv1 dot_S1024x256_S256x1_S1024x1_1_0_0_1_n_n 256 rfl rfl).symm k) = ix2 k o := funext fun a => Fin.ext (by
    match a with
    | ⟨0, _⟩ => exact (dot_S1024x256_S256x1_S1024x1_1_0_0_1_n_n.rhsIdx_val_of_single rfl _ _).trans hk
    | ⟨1, _⟩ =>
      show (dot_S1024x256_S256x1_S1024x1_1_0_0_1_n_n.rhsIdx (ix2 p o) _ 1).val = o.val
      unfold DotDims.rhsIdx
      rw [dif_neg (show ¬(1 : Fin S256x1.rank) ∈ dot_S1024x256_S256x1_S1024x1_1_0_0_1_n_n.rhsBatch by decide), dif_pos (show (1 : Fin S256x1.rank) ∈ dot_S1024x256_S256x1_S1024x1_1_0_0_1_n_n.rhsNonContracting by decide)]
      rfl)
  rw [el, er]

/-- A [1, 128] row repeated down 1024 rows, read at `(p, o)`: the row's entry `o`. -/
theorem bias128 (b : FVec Ideal S1x128 .f32) (p : Fin 1024) (o : Fin 128) :
    broadcastTo S1024x128 b broadcasts_S1x128_S1024x128 (ix2 p o) = b (ix2 0 o) :=
  broadcastTo_apply b broadcasts_S1x128_S1024x128 (ix2 p o) (ix2 0 o) (fun a => by
    match a with
    | ⟨0, _⟩ => show (0 : Nat) = if (1 : Nat) = 1 then 0 else _; rw [if_pos rfl]
    | ⟨1, _⟩ => show o.val = if (128 : Nat) = 1 then 0 else o.val; rw [if_neg (by decide)])

/-- A [1, 256] row repeated down 1024 rows, read at `(p, o)`: the row's entry `o`. -/
theorem bias256 (b : FVec Ideal S1x256 .f32) (p : Fin 1024) (o : Fin 256) :
    broadcastTo S1024x256 b broadcasts_S1x256_S1024x256 (ix2 p o) = b (ix2 0 o) :=
  broadcastTo_apply b broadcasts_S1x256_S1024x256 (ix2 p o) (ix2 0 o) (fun a => by
    match a with
    | ⟨0, _⟩ => show (0 : Nat) = if (1 : Nat) = 1 then 0 else _; rw [if_pos rfl]
    | ⟨1, _⟩ => show o.val = if (256 : Nat) = 1 then 0 else o.val; rw [if_neg (by decide)])

/-- A [1, 1] row repeated down 1024 rows, read at `(p, o)`: the row's entry `o`. -/
theorem bias1 (b : FVec Ideal S1x1 .f32) (p : Fin 1024) (o : Fin 1) :
    broadcastTo S1024x1 b broadcasts_S1x1_S1024x1 (ix2 p o) = b (ix2 0 o) :=
  broadcastTo_apply b broadcasts_S1x1_S1024x1 (ix2 p o) (ix2 0 o) (fun a => by
    match a with
    | ⟨0, _⟩ => show (0 : Nat) = if (1 : Nat) = 1 then 0 else _; rw [if_pos rfl]
    | ⟨1, _⟩ => show o.val = if (1 : Nat) = 1 then 0 else _; rw [if_pos rfl]; have := o.isLt; omega)

/-- A [1024, 1] column repeated across 128 lanes, read at `(p, d)`: the column's entry `p`. -/
theorem lanes128 (w : FVec Ideal S1024x1 .f32) (p : Fin 1024) (d : Fin 128) :
    broadcastTo S1024x128 w broadcasts_S1024x1_S1024x128 (ix2 p d) = w (ix2 p 0) :=
  broadcastTo_apply w broadcasts_S1024x1_S1024x128 (ix2 p d) (ix2 p 0) (fun a => by
    match a with
    | ⟨0, _⟩ => show p.val = if (1024 : Nat) = 1 then 0 else p.val; rw [if_neg (by decide)]
    | ⟨1, _⟩ => show (0 : Nat) = if (1 : Nat) = 1 then 0 else _; rw [if_pos rfl])

end Cert.KernelIdeal.RowOps

end
-- ==== Proof.KernelRow.lean ====
/-
  The kernel body's value at one row of its [1024, 1] output block.

  The body's arithmetic is a composition of pure payloads; each lemma reads one payload at row `p` of the blocks it is
  given, in the terms of the row specification: the feature vector, the second hidden layer, a side's mixed output,
  and the stored column — the row's score, the inner product of the two sides' outputs.
-/
import proofs.«109762_j70643622084958_2_alg».proof.Proof.KernelOps

noncomputable section

namespace Cert.KernelIdeal.RowOps

open Cert.KernelIdeal Cert.KernelIdeal.Facts₀ Idealize.ShloMosaic Idealize.ShloMosaic.ValueIdx Cert.RowSpec

/-- The scalar zero the body splats for its relus is the extended real zero. -/
theorem zeroLit : (Scalar.ofBits .f32 0x00000000#32 : Ideal .f32) = 0 := Ideal.ofBits_zero_f32
/-- The scalar one the body splats for `1 - gate` is the extended real one. -/
theorem oneLit : (Scalar.ofBits .f32 0x3F800000#32 : Ideal .f32) = 1 := Ideal.ofBits_one_f32

/-- Two [1024, 128] blocks joined along the lanes, at row `p` and lane `j`: the row of the first then the row of the second. -/
theorem cat_apply (a b : FVec Ideal S1024x128 .f32) (p : Fin 1024) (j : Fin 256) :
    concatenate S1024x256 1 [⟨S1024x128, a⟩, ⟨S1024x128, b⟩] concatenates_S1024x128_S1024x128_S1024x256_d1 (ix2 p j)
      = join (fun d => a (ix2 p d)) (fun d => b (ix2 p d)) j := by
  unfold join
  by_cases h : j.val < 128
  · rw [dif_pos h]
    exact concatenate_pair_apply_left (1 : Fin 2) a b concatenates_S1024x128_S1024x128_S1024x256_d1 (ix2 p j) rfl
      (ix2 p ⟨j.val, h⟩) (fun c => match c with | ⟨0, _⟩ => rfl | ⟨1, _⟩ => rfl)
  · rw [dif_neg h]
    exact concatenate_pair_apply_right (1 : Fin 2) a b concatenates_S1024x128_S1024x128_S1024x256_d1 (ix2 p j) rfl rfl
      (ix2 p ⟨j.val - 128, by have := j.isLt; omega⟩)
      (fun c hc => match c, hc with | ⟨0, _⟩, _ => rfl | ⟨1, _⟩, hc => absurd rfl hc)
      (by show j.val - 128 + 128 = j.val; omega)

/-- The lane sum of a [1024, 128] block kept as a [1024, 1] column, at row `p`: the sum over the row's 128 lanes. -/
theorem rowsum_apply (v : FVec Ideal S1024x128 .f32) (p : Fin 1024) :
    shapeCast S1024x1 (multiReduction .add [1] S1024 v 0x00000000#32 reduces_S1024x128_S1024 (.inl rfl) rfl) shapeCasts_S1024_S1024x1 (ix2 p 0)
      = ∑ d : Fin 128, v (ix2 p d) := by
  refine (shapeCast_apply _ shapeCasts_S1024_S1024x1 (ix2 p 0) (ix1 p) (by
    rw [Shape.rowMajor_val_two, Shape.rowMajor_val_one]; show p.val = p.val * 1 + 0; omega)).trans ?_
  refine (Ideal.multiReduction_add_single v 0x00000000#32 reduces_S1024x128_S1024 (.inl rfl) rfl (ix1 p)).trans ?_
  refine Finset.sum_congr rfl fun d _ => congrArg v ?_
  funext a
  match a with
  | ⟨0, _⟩ => rfl
  | ⟨1, _⟩ => rfl

/-- The feature block at row `p`: the category mean plus the positive part of the numeric features' affine image. -/
theorem pay3_apply (v2 : Vec Ideal S1024x128 .f32) (v4 : Vec Ideal S1024x16 .f32) (v6 : Vec Ideal S16x128 .bf16) (v8 : Vec Ideal S1x128 .f32)
    (p : Fin 1024) (d : Fin 128) :
    Gen.k0_pay3 v2 v4 v6 v8 (ix2 p d)
      = feat (fun d => v2 (ix2 p d)) (fun k => v4 (ix2 p k)) (fun k d => v6 (ix2 k d)) (fun d => v8 (ix2 0 d)) d := by
  unfold Gen.k0_pay3
  simp only [shapeCast_self, addf_apply, maximumf_apply, truncf_apply, broadcast_apply, mm16, bias128, zeroLit]
  rfl

/-- The lane-wise logistic of a block at an index. -/
theorem logistic_apply {s : Shape} (x : FVec Ideal s .f32) (i : s.Idx) : logistic x i = Ideal.logistic (x i) := rfl

/-- The other side's feature block at row `p` (the same operations on the other side's blocks). -/
theorem pay7_apply (v56 : Vec Ideal S1024x128 .f32) (v58 : Vec Ideal S1024x16 .f32) (v60 : Vec Ideal S16x128 .bf16) (v62 : Vec Ideal S1x128 .f32)
    (p : Fin 1024) (d : Fin 128) :
    Gen.k0_pay7 v56 v58 v60 v62 (ix2 p d)
      = feat (fun d => v56 (ix2 p d)) (fun k => v58 (ix2 p k)) (fun k d => v60 (ix2 k d)) (fun d => v62 (ix2 0 d)) d := by
  unfold Gen.k0_pay7
  simp only [shapeCast_self, addf_apply, maximumf_apply, truncf_apply, broadcast_apply, mm16, bias128, zeroLit]
  rfl

/-- The second hidden layer (before its relu) at row `p`: two affine layers over the joined row, a relu between them. -/
theorem pay4_apply (v0 v2 : Vec Ideal S1024x128 .f32) (v4 : Vec Ideal S1024x16 .f32) (v6 : Vec Ideal S16x128 .bf16) (v8 : Vec Ideal S1x128 .f32)
    (v18 : Vec Ideal S256x256 .bf16) (v20 : Vec Ideal S1x256 .f32) (v28 : Vec Ideal S256x256 .bf16) (v30 : Vec Ideal S1x256 .f32)
    (p : Fin 1024) (o : Fin 256) :
    Gen.k0_pay4 v0 v2 v4 v6 v8 v18 v20 v28 v30 (ix2 p o)
      = hidden (join (fun d => v0 (ix2 p d)) (feat (fun d => v2 (ix2 p d)) (fun k => v4 (ix2 p k)) (fun k d => v6 (ix2 k d)) (fun d => v8 (ix2 0 d))))
          (fun j o => v18 (ix2 j o)) (fun o => v20 (ix2 0 o)) (fun j o => v28 (ix2 j o)) (fun o => v30 (ix2 0 o)) o := by
  unfold Gen.k0_pay4 Gen.k0_pay2
  simp only [shapeCast_self, addf_apply, maximumf_apply, truncf_apply, broadcast_apply, mm256, bias256, zeroLit, cat_apply, pay3_apply]
  rfl

/-- The joined row of the other side at row `p`. -/
theorem pay8_apply (v54 v56 : Vec Ideal S1024x128 .f32) (v58 : Vec Ideal S1024x16 .f32) (v60 : Vec Ideal S16x128 .bf16) (v62 : Vec Ideal S1x128 .f32)
    (p : Fin 1024) (j : Fin 256) :
    Gen.k0_pay8 v54 v56 v58 v60 v62 (ix2 p j)
      = join (fun d => v54 (ix2 p d)) (feat (fun d => v56 (ix2 p d)) (fun k => v58 (ix2 p k)) (fun k d => v60 (ix2 k d)) (fun d => v62 (ix2 0 d))) j := by
  unfold Gen.k0_pay8 Gen.k0_pay6
  simp only [shapeCast_self, cat_apply, pay7_apply]

/-- A side's mixed output at row `p`, from its embedding block, its feature block and its second hidden layer. -/
theorem pay5_apply (v1 v16 : FVec Ideal S1024x128 .f32) (v35 : FVec Ideal S1024x256 .f32) (v38 : Vec Ideal S256x1 .bf16) (v40 : Vec Ideal S1x1 .f32)
    (p : Fin 1024) (d : Fin 128) :
    Gen.k0_pay5 v1 v16 v35 v38 v40 (ix2 p d)
      = mix (gateOf (fun j => v35 (ix2 p j)) (fun j o => v38 (ix2 j o)) (fun o => v40 (ix2 0 o))) (fun d => v1 (ix2 p d)) (fun d => v16 (ix2 p d)) d := by
  unfold Gen.k0_pay5
  simp only [shapeCast_self, addf_apply, mulf_apply, subf_apply, maximumf_apply, truncf_apply, broadcast_apply, logistic_apply,
    lanes128, mm1, bias1, zeroLit, oneLit]
  rfl

/-- The stored column at row `p`: the inner product of the first side's output with the second side's, the second side's
    hidden layers, gate and mixing computed here from its joined row. -/
theorem pay1_apply (v53 v55 v70 : FVec Ideal S1024x128 .f32) (v71 : FVec Ideal S1024x256 .f32) (v73 : FVec Ideal S256x256 .bf16)
    (v74 : Vec Ideal S1x256 .f32) (v82 : Vec Ideal S256x256 .bf16) (v84 : Vec Ideal S1x256 .f32) (v92 : Vec Ideal S256x1 .bf16)
    (v94 : Vec Ideal S1x1 .f32) (p : Fin 1024) :
    Gen.k0_pay1 v53 v55 v70 v71 v73 v74 v82 v84 v92 v94 (ix2 p 0)
      = score (fun d => v53 (ix2 p d))
          (mix (gateOf (hidden (fun j => v71 (ix2 p j)) (fun j o => v73 (ix2 j o)) (fun o => v74 (ix2 0 o)) (fun j o => v82 (ix2 j o)) (fun o => v84 (ix2 0 o)))
            (fun j o => v92 (ix2 j o)) (fun o => v94 (ix2 0 o))) (fun d => v55 (ix2 p d)) (fun d => v70 (ix2 p d))) := by
  unfold Gen.k0_pay1
  simp only [shapeCast_self]
  refine (rowsum_apply _ p).trans ?_
  simp only [addf_apply, mulf_apply, subf_apply, maximumf_apply, truncf_apply, broadcast_apply, logistic_apply,
    lanes128, mm1, mm256, bias1, bias256, zeroLit, oneLit]
  rfl

end Cert.KernelIdeal.RowOps

end
-- ==== Proof.KernelBlocksA.lean ====
/-
  The batch windows' blocks: at grid point `t`, each of the six batch windows holds rows `1024 t … 1024 t + 1023` of its array.
-/
import proofs.«109762_j70643622084958_2_alg».proof.Proof.Gen.KernelIdeal.Frame
import Idealize.ShloMosaic.Lib.Pipeline.Value
import Idealize.ShloMosaic.Lib.ValueIdx

noncomputable section

namespace Cert.KernelIdeal.RowValue

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- Window 0's block at point `t`, at row `p`: row `1024 t + p` of its array as the region finds it. -/
theorem iblk0_apply (c : Dev nD) (t : Fin cfg0.N) (p : Fin 1024) (d : Fin 128) :
    (iblk m c 0 t : Vec Ideal S1024x128 .f32) (ix2 p d)
      = (V m c main_v22 : S8192x128.Idx → EReal) (ix2 (⟨1024 * t.val + p.val, by have := t.isLt; have hN : cfg0.N = 8 := N_0; have := p.isLt; omega⟩ : Fin 8192) d) := by
  have hi : win0_0.index t 0 = t.val ∧ win0_0.index t 1 = 0 := (by decide +kernel : ∀ t : Fin grid0.N, win0_0.index t 0 = t.val ∧ win0_0.index t 1 = 0) t
  unfold iblk
  rw [View.read_apply]
  show V m c main_v22 _ = V m c main_v22 _
  congr 1
  funext a
  apply Fin.ext
  match a with
  | ⟨0, _⟩ => show win0_0.index t 0 * 1024 + 1 * p.val = 1024 * t.val + p.val; rw [hi.1]; omega
  | ⟨1, _⟩ => show win0_0.index t 1 * 128 + 1 * d.val = d.val; rw [hi.2]; omega

/-- Window 1's block at point `t`, at row `p`: row `1024 t + p` of its array as the region finds it. -/
theorem iblk1_apply (c : Dev nD) (t : Fin cfg0.N) (p : Fin 1024) (d : Fin 128) :
    (iblk m c 1 t : Vec Ideal S1024x128 .f32) (ix2 p d)
      = (V m c main_v59 : S8192x128.Idx → EReal) (ix2 (⟨1024 * t.val + p.val, by have := t.isLt; have hN : cfg0.N = 8 := N_0; have := p.isLt; omega⟩ : Fin 8192) d) := by
  have hi : win0_1.index t 0 = t.val ∧ win0_1.index t 1 = 0 := (by decide +kernel : ∀ t : Fin grid0.N, win0_1.index t 0 = t.val ∧ win0_1.index t 1 = 0) t
  unfold iblk
  rw [View.read_apply]
  show V m c main_v59 _ = V m c main_v59 _
  congr 1
  funext a
  apply Fin.ext
  match a with
  | ⟨0, _⟩ => show win0_1.index t 0 * 1024 + 1 * p.val = 1024 * t.val + p.val; rw [hi.1]; omega
  | ⟨1, _⟩ => show win0_1.index t 1 * 128 + 1 * d.val = d.val; rw [hi.2]; omega

/-- Window 2's block at point `t`, at row `p`: row `1024 t + p` of its array as the region finds it. -/
theorem iblk2_apply (c : Dev nD) (t : Fin cfg0.N) (p : Fin 1024) (d : Fin 16) :
    (iblk m c 2 t : Vec Ideal S1024x16 .f32) (ix2 p d)
      = (V m c main_v96 : S8192x16.Idx → EReal) (ix2 (⟨1024 * t.val + p.val, by have := t.isLt; have hN : cfg0.N = 8 := N_0; have := p.isLt; omega⟩ : Fin 8192) d) := by
  have hi : win0_2.index t 0 = t.val ∧ win0_2.index t 1 = 0 := (by decide +kernel : ∀ t : Fin grid0.N, win0_2.index t 0 = t.val ∧ win0_2.index t 1 = 0) t
  unfold iblk
  rw [View.read_apply]
  show V m c main_v96 _ = V m c main_v96 _
  congr 1
  funext a
  apply Fin.ext
  match a with
  | ⟨0, _⟩ => show win0_2.index t 0 * 1024 + 1 * p.val = 1024 * t.val + p.val; rw [hi.1]; omega
  | ⟨1, _⟩ => show win0_2.index t 1 * 16 + 1 * d.val = d.val; rw [hi.2]; omega

/-- Window 3's block at point `t`, at row `p`: row `1024 t + p` of its array as the region finds it. -/
theorem iblk3_apply (c : Dev nD) (t : Fin cfg0.N) (p : Fin 1024) (d : Fin 128) :
    (iblk m c 3 t : Vec Ideal S1024x128 .f32) (ix2 p d)
      = (V m c main_v29 : S8192x128.Idx → EReal) (ix2 (⟨1024 * t.val + p.val, by have := t.isLt; have hN : cfg0.N = 8 := N_0; have := p.isLt; omega⟩ : Fin 8192) d) := by
  have hi : win0_3.index t 0 = t.val ∧ win0_3.index t 1 = 0 := (by decide +kernel : ∀ t : Fin grid0.N, win0_3.index t 0 = t.val ∧ win0_3.index t 1 = 0) t
  unfold iblk
  rw [View.read_apply]
  show V m c main_v29 _ = V m c main_v29 _
  congr 1
  funext a
  apply Fin.ext
  match a with
  | ⟨0, _⟩ => show win0_3.index t 0 * 1024 + 1 * p.val = 1024 * t.val + p.val; rw [hi.1]; omega
  | ⟨1, _⟩ => show win0_3.index t 1 * 128 + 1 * d.val = d.val; rw [hi.2]; omega

/-- Window 4's block at point `t`, at row `p`: row `1024 t + p` of its array as the region finds it. -/
theorem iblk4_apply (c : Dev nD) (t : Fin cfg0.N) (p : Fin 1024) (d : Fin 128) :
    (iblk m c 4 t : Vec Ideal S1024x128 .f32) (ix2 p d)
      = (V m c main_v89 : S8192x128.Idx → EReal) (ix2 (⟨1024 * t.val + p.val, by have := t.isLt; have hN : cfg0.N = 8 := N_0; have := p.isLt; omega⟩ : Fin 8192) d) := by
  have hi : win0_4.index t 0 = t.val ∧ win0_4.index t 1 = 0 := (by decide +kernel : ∀ t : Fin grid0.N, win0_4.index t 0 = t.val ∧ win0_4.index t 1 = 0) t
  unfold iblk
  rw [View.read_apply]
  show V m c main_v89 _ = V m c main_v89 _
  congr 1
  funext a
  apply Fin.ext
  match a with
  | ⟨0, _⟩ => show win0_4.index t 0 * 1024 + 1 * p.val = 1024 * t.val + p.val; rw [hi.1]; omega
  | ⟨1, _⟩ => show win0_4.index t 1 * 128 + 1 * d.val = d.val; rw [hi.2]; omega

/-- Window 5's block at point `t`, at row `p`: row `1024 t + p` of its array as the region finds it. -/
theorem iblk5_apply (c : Dev nD) (t : Fin cfg0.N) (p : Fin 1024) (d : Fin 16) :
    (iblk m c 5 t : Vec Ideal S1024x16 .f32) (ix2 p d)
      = (V m c main_v103 : S8192x16.Idx → EReal) (ix2 (⟨1024 * t.val + p.val, by have := t.isLt; have hN : cfg0.N = 8 := N_0; have := p.isLt; omega⟩ : Fin 8192) d) := by
  have hi : win0_5.index t 0 = t.val ∧ win0_5.index t 1 = 0 := (by decide +kernel : ∀ t : Fin grid0.N, win0_5.index t 0 = t.val ∧ win0_5.index t 1 = 0) t
  unfold iblk
  rw [View.read_apply]
  show V m c main_v103 _ = V m c main_v103 _
  congr 1
  funext a
  apply Fin.ext
  match a with
  | ⟨0, _⟩ => show win0_5.index t 0 * 1024 + 1 * p.val = 1024 * t.val + p.val; rw [hi.1]; omega
  | ⟨1, _⟩ => show win0_5.index t 1 * 16 + 1 * d.val = d.val; rw [hi.2]; omega

end Cert.KernelIdeal.RowValue

end
-- ==== Proof.KernelBlocksB.lean ====
/-
  The weight windows' blocks: at every grid point each of the sixteen weight windows holds its whole array.
-/
import proofs.«109762_j70643622084958_2_alg».proof.Proof.Gen.KernelIdeal.Frame
import Idealize.ShloMosaic.Lib.Pipeline.Value
import Idealize.ShloMosaic.Lib.ValueIdx

noncomputable section

namespace Cert.KernelIdeal.RowValue

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- Window 6's block at any point is its whole array as the region finds it. -/
theorem iblk6_apply (c : Dev nD) (t : Fin cfg0.N) (a : Fin 16) (b : Fin 128) :
    (iblk m c 6 t : Vec Ideal S16x128 .bf16) (ix2 a b) = (V m c main_v231 : S16x128.Idx → EReal) (ix2 a b) := by
  have hi : win0_6.index t 0 = 0 ∧ win0_6.index t 1 = 0 := (by decide +kernel : ∀ t : Fin grid0.N, win0_6.index t 0 = 0 ∧ win0_6.index t 1 = 0) t
  unfold iblk
  rw [View.read_apply]
  show V m c main_v231 _ = V m c main_v231 _
  congr 1
  funext x
  apply Fin.ext
  match x with
  | ⟨0, _⟩ => show win0_6.index t 0 * 16 + 1 * a.val = a.val; rw [hi.1]; omega
  | ⟨1, _⟩ => show win0_6.index t 1 * 128 + 1 * b.val = b.val; rw [hi.2]; omega

/-- Window 7's block at any point is its whole array as the region finds it. -/
theorem iblk7_apply (c : Dev nD) (t : Fin cfg0.N) (a : Fin 1) (b : Fin 128) :
    (iblk m c 7 t : Vec Ideal S1x128 .f32) (ix2 a b) = (V m c main_v232 : S1x128.Idx → EReal) (ix2 a b) := by
  have hi : win0_7.index t 0 = 0 ∧ win0_7.index t 1 = 0 := (by decide +kernel : ∀ t : Fin grid0.N, win0_7.index t 0 = 0 ∧ win0_7.index t 1 = 0) t
  unfold iblk
  rw [View.read_apply]
  show V m c main_v232 _ = V m c main_v232 _
  congr 1
  funext x
  apply Fin.ext
  match x with
  | ⟨0, _⟩ => show win0_7.index t 0 * 1 + 1 * a.val = a.val; rw [hi.1]; omega
  | ⟨1, _⟩ => show win0_7.index t 1 * 128 + 1 * b.val = b.val; rw [hi.2]; omega

/-- Window 8's block at any point is its whole array as the region finds it. -/
theorem iblk8_apply (c : Dev nD) (t : Fin cfg0.N) (a : Fin 16) (b : Fin 128) :
    (iblk m c 8 t : Vec Ideal S16x128 .bf16) (ix2 a b) = (V m c main_v234 : S16x128.Idx → EReal) (ix2 a b) := by
  have hi : win0_8.index t 0 = 0 ∧ win0_8.index t 1 = 0 := (by decide +kernel : ∀ t : Fin grid0.N, win0_8.index t 0 = 0 ∧ win0_8.index t 1 = 0) t
  unfold iblk
  rw [View.read_apply]
  show V m c main_v234 _ = V m c main_v234 _
  congr 1
  funext x
  apply Fin.ext
  match x with
  | ⟨0, _⟩ => show win0_8.index t 0 * 16 + 1 * a.val = a.val; rw [hi.1]; omega
  | ⟨1, _⟩ => show win0_8.index t 1 * 128 + 1 * b.val = b.val; rw [hi.2]; omega

/-- Window 9's block at any point is its whole array as the region finds it. -/
theorem iblk9_apply (c : Dev nD) (t : Fin cfg0.N) (a : Fin 1) (b : Fin 128) :
    (iblk m c 9 t : Vec Ideal S1x128 .f32) (ix2 a b) = (V m c main_v235 : S1x128.Idx → EReal) (ix2 a b) := by
  have hi : win0_9.index t 0 = 0 ∧ win0_9.index t 1 = 0 := (by decide +kernel : ∀ t : Fin grid0.N, win0_9.index t 0 = 0 ∧ win0_9.index t 1 = 0) t
  unfold iblk
  rw [View.read_apply]
  show V m c main_v235 _ = V m c main_v235 _
  congr 1
  funext x
  apply Fin.ext
  match x with
  | ⟨0, _⟩ => show win0_9.index t 0 * 1 + 1 * a.val = a.val; rw [hi.1]; omega
  | ⟨1, _⟩ => show win0_9.index t 1 * 128 + 1 * b.val = b.val; rw [hi.2]; omega

/-- Window 10's block at any point is its whole array as the region finds it. -/
theorem iblk10_apply (c : Dev nD) (t : Fin cfg0.N) (a : Fin 256) (b : Fin 256) :
    (iblk m c 10 t : Vec Ideal S256x256 .bf16) (ix2 a b) = (V m c main_v114 : S256x256.Idx → EReal) (ix2 a b) := by
  have hi : win0_10.index t 0 = 0 ∧ win0_10.index t 1 = 0 := (by decide +kernel : ∀ t : Fin grid0.N, win0_10.index t 0 = 0 ∧ win0_10.index t 1 = 0) t
  unfold iblk
  rw [View.read_apply]
  show V m c main_v114 _ = V m c main_v114 _
  congr 1
  funext x
  apply Fin.ext
  match x with
  | ⟨0, _⟩ => show win0_10.index t 0 * 256 + 1 * a.val = a.val; rw [hi.1]; omega
  | ⟨1, _⟩ => show win0_10.index t 1 * 256 + 1 * b.val = b.val; rw [hi.2]; omega

/-- Window 11's block at any point is its whole array as the region finds it. -/
theorem iblk11_apply (c : Dev nD) (t : Fin cfg0.N) (a : Fin 1) (b : Fin 256) :
    (iblk m c 11 t : Vec Ideal S1x256 .f32) (ix2 a b) = (V m c main_v124 : S1x256.Idx → EReal) (ix2 a b) := by
  have hi : win0_11.index t 0 = 0 ∧ win0_11.index t 1 = 0 := (by decide +kernel : ∀ t : Fin grid0.N, win0_11.index t 0 = 0 ∧ win0_11.index t 1 = 0) t
  unfold iblk
  rw [View.read_apply]
  show V m c main_v124 _ = V m c main_v124 _
  congr 1
  funext x
  apply Fin.ext
  match x with
  | ⟨0, _⟩ => show win0_11.index t 0 * 1 + 1 * a.val = a.val; rw [hi.1]; omega
  | ⟨1, _⟩ => show win0_11.index t 1 * 256 + 1 * b.val = b.val; rw [hi.2]; omega

/-- Window 12's block at any point is its whole array as the region finds it. -/
theorem iblk12_apply (c : Dev nD) (t : Fin cfg0.N) (a : Fin 256) (b : Fin 256) :
    (iblk m c 12 t : Vec Ideal S256x256 .bf16) (ix2 a b) = (V m c main_v135 : S256x256.Idx → EReal) (ix2 a b) := by
  have hi : win0_12.index t 0 = 0 ∧ win0_12.index t 1 = 0 := (by decide +kernel : ∀ t : Fin grid0.N, win0_12.index t 0 = 0 ∧ win0_12.index t 1 = 0) t
  unfold iblk
  rw [View.read_apply]
  show V m c main_v135 _ = V m c main_v135 _
  congr 1
  funext x
  apply Fin.ext
  match x with
  | ⟨0, _⟩ => show win0_12.index t 0 * 256 + 1 * a.val = a.val; rw [hi.1]; omega
  | ⟨1, _⟩ => show win0_12.index t 1 * 256 + 1 * b.val = b.val; rw [hi.2]; omega

/-- Window 13's block at any point is its whole array as the region finds it. -/
theorem iblk13_apply (c : Dev nD) (t : Fin cfg0.N) (a : Fin 1) (b : Fin 256) :
    (iblk m c 13 t : Vec Ideal S1x256 .f32) (ix2 a b) = (V m c main_v145 : S1x256.Idx → EReal) (ix2 a b) := by
  have hi : win0_13.index t 0 = 0 ∧ win0_13.index t 1 = 0 := (by decide +kernel : ∀ t : Fin grid0.N, win0_13.index t 0 = 0 ∧ win0_13.index t 1 = 0) t
  unfold iblk
  rw [View.read_apply]
  show V m c main_v145 _ = V m c main_v145 _
  congr 1
  funext x
  apply Fin.ext
  match x with
  | ⟨0, _⟩ => show win0_13.index t 0 * 1 + 1 * a.val = a.val; rw [hi.1]; omega
  | ⟨1, _⟩ => show win0_13.index t 1 * 256 + 1 * b.val = b.val; rw [hi.2]; omega

end Cert.KernelIdeal.RowValue

end
-- ==== Proof.KernelBlocksC.lean ====
/-
  The weight windows' blocks: at every grid point each of the sixteen weight windows holds its whole array.
-/
import proofs.«109762_j70643622084958_2_alg».proof.Proof.Gen.KernelIdeal.Frame
import Idealize.ShloMosaic.Lib.Pipeline.Value
import Idealize.ShloMosaic.Lib.ValueIdx

noncomputable section

namespace Cert.KernelIdeal.RowValue

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- Window 14's block at any point is its whole array as the region finds it. -/
theorem iblk14_apply (c : Dev nD) (t : Fin cfg0.N) (a : Fin 256) (b : Fin 1) :
    (iblk m c 14 t : Vec Ideal S256x1 .bf16) (ix2 a b) = (V m c main_v156 : S256x1.Idx → EReal) (ix2 a b) := by
  have hi : win0_14.index t 0 = 0 ∧ win0_14.index t 1 = 0 := (by decide +kernel : ∀ t : Fin grid0.N, win0_14.index t 0 = 0 ∧ win0_14.index t 1 = 0) t
  unfold iblk
  rw [View.read_apply]
  show V m c main_v156 _ = V m c main_v156 _
  congr 1
  funext x
  apply Fin.ext
  match x with
  | ⟨0, _⟩ => show win0_14.index t 0 * 256 + 1 * a.val = a.val; rw [hi.1]; omega
  | ⟨1, _⟩ => show win0_14.index t 1 * 1 + 1 * b.val = b.val; rw [hi.2]; omega

/-- Window 15's block at any point is its whole array as the region finds it. -/
theorem iblk15_apply (c : Dev nD) (t : Fin cfg0.N) (a : Fin 1) (b : Fin 1) :
    (iblk m c 15 t : Vec Ideal S1x1 .f32) (ix2 a b) = (V m c main_v166 : S1x1.Idx → EReal) (ix2 a b) := by
  have hi : win0_15.index t 0 = 0 ∧ win0_15.index t 1 = 0 := (by decide +kernel : ∀ t : Fin grid0.N, win0_15.index t 0 = 0 ∧ win0_15.index t 1 = 0) t
  unfold iblk
  rw [View.read_apply]
  show V m c main_v166 _ = V m c main_v166 _
  congr 1
  funext x
  apply Fin.ext
  match x with
  | ⟨0, _⟩ => show win0_15.index t 0 * 1 + 1 * a.val = a.val; rw [hi.1]; omega
  | ⟨1, _⟩ => show win0_15.index t 1 * 1 + 1 * b.val = b.val; rw [hi.2]; omega

/-- Window 16's block at any point is its whole array as the region finds it. -/
theorem iblk16_apply (c : Dev nD) (t : Fin cfg0.N) (a : Fin 256) (b : Fin 256) :
    (iblk m c 16 t : Vec Ideal S256x256 .bf16) (ix2 a b) = (V m c main_v177 : S256x256.Idx → EReal) (ix2 a b) := by
  have hi : win0_16.index t 0 = 0 ∧ win0_16.index t 1 = 0 := (by decide +kernel : ∀ t : Fin grid0.N, win0_16.index t 0 = 0 ∧ win0_16.index t 1 = 0) t
  unfold iblk
  rw [View.read_apply]
  show V m c main_v177 _ = V m c main_v177 _
  congr 1
  funext x
  apply Fin.ext
  match x with
  | ⟨0, _⟩ => show win0_16.index t 0 * 256 + 1 * a.val = a.val; rw [hi.1]; omega
  | ⟨1, _⟩ => show win0_16.index t 1 * 256 + 1 * b.val = b.val; rw [hi.2]; omega

/-- Window 17's block at any point is its whole array as the region finds it. -/
theorem iblk17_apply (c : Dev nD) (t : Fin cfg0.N) (a : Fin 1) (b : Fin 256) :
    (iblk m c 17 t : Vec Ideal S1x256 .f32) (ix2 a b) = (V m c main_v187 : S1x256.Idx → EReal) (ix2 a b) := by
  have hi : win0_17.index t 0 = 0 ∧ win0_17.index t 1 = 0 := (by decide +kernel : ∀ t : Fin grid0.N, win0_17.index t 0 = 0 ∧ win0_17.index t 1 = 0) t
  unfold iblk
  rw [View.read_apply]
  show V m c main_v187 _ = V m c main_v187 _
  congr 1
  funext x
  apply Fin.ext
  match x with
  | ⟨0, _⟩ => show win0_17.index t 0 * 1 + 1 * a.val = a.val; rw [hi.1]; omega
  | ⟨1, _⟩ => show win0_17.index t 1 * 256 + 1 * b.val = b.val; rw [hi.2]; omega

/-- Window 18's block at any point is its whole array as the region finds it. -/
theorem iblk18_apply (c : Dev nD) (t : Fin cfg0.N) (a : Fin 256) (b : Fin 256) :
    (iblk m c 18 t : Vec Ideal S256x256 .bf16) (ix2 a b) = (V m c main_v198 : S256x256.Idx → EReal) (ix2 a b) := by
  have hi : win0_18.index t 0 = 0 ∧ win0_18.index t 1 = 0 := (by decide +kernel : ∀ t : Fin grid0.N, win0_18.index t 0 = 0 ∧ win0_18.index t 1 = 0) t
  unfold iblk
  rw [View.read_apply]
  show V m c main_v198 _ = V m c main_v198 _
  congr 1
  funext x
  apply Fin.ext
  match x with
  | ⟨0, _⟩ => show win0_18.index t 0 * 256 + 1 * a.val = a.val; rw [hi.1]; omega
  | ⟨1, _⟩ => show win0_18.index t 1 * 256 + 1 * b.val = b.val; rw [hi.2]; omega

/-- Window 19's block at any point is its whole array as the region finds it. -/
theorem iblk19_apply (c : Dev nD) (t : Fin cfg0.N) (a : Fin 1) (b : Fin 256) :
    (iblk m c 19 t : Vec Ideal S1x256 .f32) (ix2 a b) = (V m c main_v208 : S1x256.Idx → EReal) (ix2 a b) := by
  have hi : win0_19.index t 0 = 0 ∧ win0_19.index t 1 = 0 := (by decide +kernel : ∀ t : Fin grid0.N, win0_19.index t 0 = 0 ∧ win0_19.index t 1 = 0) t
  unfold iblk
  rw [View.read_apply]
  show V m c main_v208 _ = V m c main_v208 _
  congr 1
  funext x
  apply Fin.ext
  match x with
  | ⟨0, _⟩ => show win0_19.index t 0 * 1 + 1 * a.val = a.val; rw [hi.1]; omega
  | ⟨1, _⟩ => show win0_19.index t 1 * 256 + 1 * b.val = b.val; rw [hi.2]; omega

/-- Window 20's block at any point is its whole array as the region finds it. -/
theorem iblk20_apply (c : Dev nD) (t : Fin cfg0.N) (a : Fin 256) (b : Fin 1) :
    (iblk m c 20 t : Vec Ideal S256x1 .bf16) (ix2 a b) = (V m c main_v219 : S256x1.Idx → EReal) (ix2 a b) := by
  have hi : win0_20.index t 0 = 0 ∧ win0_20.index t 1 = 0 := (by decide +kernel : ∀ t : Fin grid0.N, win0_20.index t 0 = 0 ∧ win0_20.index t 1 = 0) t
  unfold iblk
  rw [View.read_apply]
  show V m c main_v219 _ = V m c main_v219 _
  congr 1
  funext x
  apply Fin.ext
  match x with
  | ⟨0, _⟩ => show win0_20.index t 0 * 256 + 1 * a.val = a.val; rw [hi.1]; omega
  | ⟨1, _⟩ => show win0_20.index t 1 * 1 + 1 * b.val = b.val; rw [hi.2]; omega

/-- Window 21's block at any point is its whole array as the region finds it. -/
theorem iblk21_apply (c : Dev nD) (t : Fin cfg0.N) (a : Fin 1) (b : Fin 1) :
    (iblk m c 21 t : Vec Ideal S1x1 .f32) (ix2 a b) = (V m c main_v229 : S1x1.Idx → EReal) (ix2 a b) := by
  have hi : win0_21.index t 0 = 0 ∧ win0_21.index t 1 = 0 := (by decide +kernel : ∀ t : Fin grid0.N, win0_21.index t 0 = 0 ∧ win0_21.index t 1 = 0) t
  unfold iblk
  rw [View.read_apply]
  show V m c main_v229 _ = V m c main_v229 _
  congr 1
  funext x
  apply Fin.ext
  match x with
  | ⟨0, _⟩ => show win0_21.index t 0 * 1 + 1 * a.val = a.val; rw [hi.1]; omega
  | ⟨1, _⟩ => show win0_21.index t 1 * 1 + 1 * b.val = b.val; rw [hi.2]; omega

end Cert.KernelIdeal.RowValue

end
-- ==== Proof.KernelValue.lean ====
/-
  The kernel's output array after the run, row by row.

  Every grid point `t` stores a [1024, 1] column whose entry `p` is the score of row `1024 t + p`: the batch windows'
  blocks at `t` are rows `1024 t … 1024 t + 1023` of their arrays and the weight windows' blocks are their whole arrays,
  so the stored entry is the row specification applied to row `1024 t + p` of the arrays the region finds. The eight
  columns tile the [8192, 1] result, which therefore ends holding every row's score.
-/
import proofs.«109762_j70643622084958_2_alg».proof.Proof.Gen.KernelIdeal.Frame
import proofs.«109762_j70643622084958_2_alg».proof.Proof.KernelRow
import proofs.«109762_j70643622084958_2_alg».proof.Proof.KernelBlocksA
import proofs.«109762_j70643622084958_2_alg».proof.Proof.KernelBlocksB
import proofs.«109762_j70643622084958_2_alg».proof.Proof.KernelBlocksC
import Idealize.ShloMosaic.Lib.Pipeline.Value

noncomputable section

namespace Cert.KernelIdeal.RowValue

open Cert.KernelIdeal Cert.KernelIdeal.Gen Cert.KernelIdeal.RowOps Idealize.ShloMosaic Idealize.ShloMosaic.TcCoe Idealize.ShloMosaic.ValueIdx Idealize.SL.Sem Cert.RowSpec
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The body's stored column at row `p`, from the 22 input blocks: the score of the row's two sides. -/
theorem out_row (x0 : Vec Ideal S1024x128 .f32) (x1 : Vec Ideal S1024x128 .f32) (x2 : Vec Ideal S1024x16 .f32) (x3 : Vec Ideal S1024x128 .f32) (x4 : Vec Ideal S1024x128 .f32) (x5 : Vec Ideal S1024x16 .f32) (x6 : Vec Ideal S16x128 .bf16) (x7 : Vec Ideal S1x128 .f32) (x8 : Vec Ideal S16x128 .bf16) (x9 : Vec Ideal S1x128 .f32) (x10 : Vec Ideal S256x256 .bf16) (x11 : Vec Ideal S1x256 .f32) (x12 : Vec Ideal S256x256 .bf16) (x13 : Vec Ideal S1x256 .f32) (x14 : Vec Ideal S256x1 .bf16) (x15 : Vec Ideal S1x1 .f32) (x16 : Vec Ideal S256x256 .bf16) (x17 : Vec Ideal S1x256 .f32) (x18 : Vec Ideal S256x256 .bf16) (x19 : Vec Ideal S1x256 .f32) (x20 : Vec Ideal S256x1 .bf16) (x21 : Vec Ideal S1x1 .f32) (p : Fin 1024) :
    out0_22 x0 x1 x2 x3 x4 x5 x6 x7 x8 x9 x10 x11 x12 x13 x14 x15 x16 x17 x18 x19 x20 x21 (ix2 p 0)
      = score (tower (fun d => x0 (ix2 p d)) (fun d => x1 (ix2 p d)) (fun k => x2 (ix2 p k)) (fun k d => x6 (ix2 k d)) (fun d => x7 (ix2 0 d))
        (fun j o => x10 (ix2 j o)) (fun o => x11 (ix2 0 o)) (fun j o => x12 (ix2 j o)) (fun o => x13 (ix2 0 o)) (fun j o => x14 (ix2 j o)) (fun o => x15 (ix2 0 o)))
          (tower (fun d => x3 (ix2 p d)) (fun d => x4 (ix2 p d)) (fun k => x5 (ix2 p k)) (fun k d => x8 (ix2 k d)) (fun d => x9 (ix2 0 d))
        (fun j o => x16 (ix2 j o)) (fun o => x17 (ix2 0 o)) (fun j o => x18 (ix2 j o)) (fun o => x19 (ix2 0 o)) (fun j o => x20 (ix2 j o)) (fun o => x21 (ix2 0 o))) := by
  unfold out0_22
  rw [View.canon_unit_zero hz]
  simp only [View.ld_unit_zero (S := S1024x128) hz, View.ld_unit_zero (S := S1024x16) hz, View.ld_unit_zero (S := S16x128) hz, View.ld_unit_zero (S := S1x128) hz, View.ld_unit_zero (S := S256x256) hz, View.ld_unit_zero (S := S1x256) hz, View.ld_unit_zero (S := S256x1) hz, View.ld_unit_zero (S := S1x1) hz]
  refine (pay1_apply _ _ _ _ _ _ _ _ _ _ p).trans ?_
  unfold k0_pay2 k0_pay6 k0_pay9
  simp only [shapeCast_self, pay5_apply, pay4_apply, pay7_apply, pay8_apply, pay3_apply]
  rfl

/-- The score of batch row `r`, from the arrays the region finds in its 22 input windows. -/
def rowK (c : Dev nD) (r : Fin 8192) : EReal :=
  score (tower (fun d => (V m c main_v22 : S8192x128.Idx → EReal) (ix2 r d)) (fun d => (V m c main_v59 : S8192x128.Idx → EReal) (ix2 r d)) (fun k => (V m c main_v96 : S8192x16.Idx → EReal) (ix2 r k))
      (fun k d => (V m c main_v231 : S16x128.Idx → EReal) (ix2 k d)) (fun d => (V m c main_v232 : S1x128.Idx → EReal) (ix2 0 d))
      (fun j o => (V m c main_v114 : S256x256.Idx → EReal) (ix2 j o)) (fun o => (V m c main_v124 : S1x256.Idx → EReal) (ix2 0 o)) (fun j o => (V m c main_v135 : S256x256.Idx → EReal) (ix2 j o)) (fun o => (V m c main_v145 : S1x256.Idx → EReal) (ix2 0 o))
      (fun j o => (V m c main_v156 : S256x1.Idx → EReal) (ix2 j o)) (fun o => (V m c main_v166 : S1x1.Idx → EReal) (ix2 0 o)))
    (tower (fun d => (V m c main_v29 : S8192x128.Idx → EReal) (ix2 r d)) (fun d => (V m c main_v89 : S8192x128.Idx → EReal) (ix2 r d)) (fun k => (V m c main_v103 : S8192x16.Idx → EReal) (ix2 r k))
      (fun k d => (V m c main_v234 : S16x128.Idx → EReal) (ix2 k d)) (fun d => (V m c main_v235 : S1x128.Idx → EReal) (ix2 0 d))
      (fun j o => (V m c main_v177 : S256x256.Idx → EReal) (ix2 j o)) (fun o => (V m c main_v187 : S1x256.Idx → EReal) (ix2 0 o)) (fun j o => (V m c main_v198 : S256x256.Idx → EReal) (ix2 j o)) (fun o => (V m c main_v208 : S1x256.Idx → EReal) (ix2 0 o))
      (fun j o => (V m c main_v219 : S256x1.Idx → EReal) (ix2 j o)) (fun o => (V m c main_v229 : S1x1.Idx → EReal) (ix2 0 o)))

/-- The [8192, 1] array of every row's score. -/
def Gout (c : Dev nD) : S8192x1.Idx → EReal := fun i => rowK m c ⟨(i 0).val, (i 0).isLt⟩

/-- The output window's block index at point `t` is `(t, 0)`. -/
theorem idx22 : ∀ t : Fin cfg0.N, win0_22.index t 0 = t.val ∧ win0_22.index t 1 = 0 :=
  (by decide +kernel : ∀ t : Fin grid0.N, win0_22.index t 0 = t.val ∧ win0_22.index t 1 = 0)

/-- What point `t` writes back is block `t` of the score array: entry `p` of its column is the score of row `1024 t + p`. -/
theorem flushed_eq (c : Dev nD) (t : Fin cfg0.N) :
    (dats m 0 c).flushed 22 t = ((cfg0.win 22).blk t).view.read (Elt Ideal) (Gout m c) := by
  have hi := idx22 t
  have hN : cfg0.N = 8 := N_0
  show (cfg0.win 22).cut (grid0.coords t) ((dats m 0 c).after 22 t) = _
  rw [after0_22]
  funext y
  obtain ⟨p, q, rfl⟩ : ∃ (p : Fin 1024) (q : Fin 1), (y : S1024x1.Idx) = ix2 p q := ⟨y 0, y 1, eq_ix2 y⟩
  obtain rfl : q = 0 := Subsingleton.elim _ _
  have hlt : 1024 * t.val + p.val < 8192 := by have := t.isLt; have := p.isLt; omega
  have key : out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (ix2 p 0) = rowK m c ⟨1024 * t.val + p.val, hlt⟩ := by
    refine (out_row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) p).trans ?_
    unfold rowK
    simp only [iblk0_apply m c t, iblk1_apply m c t, iblk2_apply m c t, iblk3_apply m c t, iblk4_apply m c t, iblk5_apply m c t, iblk6_apply m c t, iblk7_apply m c t, iblk8_apply m c t, iblk9_apply m c t, iblk10_apply m c t, iblk11_apply m c t, iblk12_apply m c t, iblk13_apply m c t, iblk14_apply m c t, iblk15_apply m c t, iblk16_apply m c t, iblk17_apply m c t, iblk18_apply m c t, iblk19_apply m c t, iblk20_apply m c t, iblk21_apply m c t]
  have hG : Gout m c (((cfg0.win 22).blk t).view.emb (ix2 p 0)) = rowK m c ⟨1024 * t.val + p.val, hlt⟩ :=
    congrArg (rowK m c) (Fin.ext (by
      show win0_22.index t 0 * 1024 + 1 * p.val = 1024 * t.val + p.val
      rw [hi.1]; omega))
  exact key.trans hG.symm

/-- An index of the score array is in point `t`'s block iff each coordinate is in the block's range on its axis. -/
theorem mem_blk (t : Fin cfg0.N) (i : S8192x1.Idx) :
    i ∈ ((cfg0.win 22).blk t).view.set ↔ ∀ a : Fin 2, win0_22.index t a * S1024x1.size a ≤ (i a).val ∧ (i a).val < win0_22.index t a * S1024x1.size a + S1024x1.size a := by
  show i ∈ ((View.whole main_v236).slice (win0_22.rect t)).set ↔ _
  rw [View.set_slice_whole, Rect.mem_set_unit]
  exact Iff.rfl

/-- The eight columns tile the score array: row `r` lies in the block of point `r / 1024`. -/
theorem cover (i : S8192x1.Idx) :
    ∃ t : Fin cfg0.N, (cfg0.win 22).flush t = true ∧ i ∈ ((cfg0.win 22).blk t).view.set := by
  have h0 : (i 0).val < 8192 := (i 0).isLt
  have h1 : (i 1).val < 1 := (i 1).isLt
  have hN : cfg0.N = 8 := N_0
  have hi := idx22 ⟨(i 0).val / 1024, by omega⟩
  refine ⟨⟨(i 0).val / 1024, by omega⟩, flush0_22 _, ?_⟩
  rw [mem_blk]
  intro a
  match a with
  | ⟨0, _⟩ =>
    show win0_22.index ⟨(i 0).val / 1024, _⟩ 0 * 1024 ≤ (i 0).val ∧ (i 0).val < win0_22.index ⟨(i 0).val / 1024, _⟩ 0 * 1024 + 1024
    rw [hi.1]; show (i 0).val / 1024 * 1024 ≤ (i 0).val ∧ (i 0).val < (i 0).val / 1024 * 1024 + 1024; omega
  | ⟨1, _⟩ =>
    show win0_22.index ⟨(i 0).val / 1024, _⟩ 1 * 1 ≤ (i 1).val ∧ (i 1).val < win0_22.index ⟨(i 0).val / 1024, _⟩ 1 * 1 + 1
    rw [hi.2]; omega

/-- So the score array ends holding every row's score. -/
theorem final (c : Dev nD) : (dats m 0 c).arrAt 22 cfg0.N = Gout m c :=
  (dats m 0 c).arrAt_eq_of_cover 22 (Gout m c) (fun t _ => flushed_eq m c t) cover

end Cert.KernelIdeal.RowValue

end
-- ==== Proof.KernelHostA.lean ====
/-
  The arrays the kernel's windows stage, as functions of the program's arguments: the six batch arrays.

  The host operations in front of the region are the reference's own operations (the sparse propagation, the row gathers, the
  category means, the masked weights), in another order; each staged array is therefore one of the reference's stages of the
  same arguments, a masked weight after a change of float format that is the identity on the extended reals, a bias laid as a row.
-/
import proofs.«109762_j70643622084958_2_alg».proof.Proof.Gen.KernelIdeal.Frame
import proofs.«109762_j70643622084958_2_alg».proof.Proof.ReadP
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.HostSide

open Cert.KernelIdeal Cert.KernelIdeal.Gen Idealize.ShloMosaic Idealize.ShloMosaic.TcCoe Idealize.ShloMosaic.ValueIdx Idealize.SL.Sem Idealize.ShloMosaic.StableHlo

variable (m : (ℓ : Loc nD τ sig) → Buf (Elt Ideal) ℓ)

set_option maxHeartbeats 4000000 in
/-- The array window 0 stages, as the host operations before the region leave it. -/
theorem V0_eq (c : Dev nD) : (V m c main_v22 : S8192x128.Idx → EReal) = (Cert.ReferenceIdeal.ReadP.val_main_v36 (F := Ideal) (m ((c : Thread nD τ).loc main_arg0)) (m ((c : Thread nD τ).loc main_arg1)) (m ((c : Thread nD τ).loc main_arg22)) (m ((c : Thread nD τ).loc main_arg23)) (m ((c : Thread nD τ).loc main_arg26))) := by
  dsimp only [V, V0]
  simp only [hostOps0, hostOps0_1, hostOps0_2, hostOps0_3, hostOps0_4, List.flatten_cons, List.flatten_nil, List.append_nil, List.cons_append, List.nil_append]
  after_results_simp
  rfl

set_option maxHeartbeats 4000000 in
/-- The array window 1 stages, as the host operations before the region leave it. -/
theorem V1_eq (c : Dev nD) : (V m c main_v59 : S8192x128.Idx → EReal) = (Cert.ReferenceIdeal.ReadP.val_main_v59 (F := Ideal) (m ((c : Thread nD τ).loc main_arg2)) (m ((c : Thread nD τ).loc main_arg24)) (m ((c : Thread nD τ).loc main_arg26))) := by
  dsimp only [V, V0]
  simp only [hostOps0, hostOps0_1, hostOps0_2, hostOps0_3, hostOps0_4, List.flatten_cons, List.flatten_nil, List.append_nil, List.cons_append, List.nil_append]
  after_results_simp
  rfl

set_option maxHeartbeats 4000000 in
/-- The array window 2 stages, as the host operations before the region leave it. -/
theorem V2_eq (c : Dev nD) : (V m c main_v96 : S8192x16.Idx → EReal) = (Cert.ReferenceIdeal.ReadP.val_main_v29 (F := Ideal) (m ((c : Thread nD τ).loc main_arg20)) (m ((c : Thread nD τ).loc main_arg26))) := by
  dsimp only [V, V0]
  simp only [hostOps0, hostOps0_1, hostOps0_2, hostOps0_3, hostOps0_4, List.flatten_cons, List.flatten_nil, List.append_nil, List.cons_append, List.nil_append]
  after_results_simp
  rfl

set_option maxHeartbeats 4000000 in
/-- The array window 3 stages, as the host operations before the region leave it. -/
theorem V3_eq (c : Dev nD) : (V m c main_v29 : S8192x128.Idx → EReal) = (Cert.ReferenceIdeal.ReadP.val_main_v172 (F := Ideal) (m ((c : Thread nD τ).loc main_arg0)) (m ((c : Thread nD τ).loc main_arg1)) (m ((c : Thread nD τ).loc main_arg22)) (m ((c : Thread nD τ).loc main_arg23)) (m ((c : Thread nD τ).loc main_arg27))) := by
  dsimp only [V, V0]
  simp only [hostOps0, hostOps0_1, hostOps0_2, hostOps0_3, hostOps0_4, List.flatten_cons, List.flatten_nil, List.append_nil, List.cons_append, List.nil_append]
  after_results_simp
  rfl

set_option maxHeartbeats 4000000 in
/-- The array window 4 stages, as the host operations before the region leave it. -/
theorem V4_eq (c : Dev nD) : (V m c main_v89 : S8192x128.Idx → EReal) = (Cert.ReferenceIdeal.ReadP.val_main_v195 (F := Ideal) (m ((c : Thread nD τ).loc main_arg3)) (m ((c : Thread nD τ).loc main_arg25)) (m ((c : Thread nD τ).loc main_arg27))) := by
  dsimp only [V, V0]
  simp only [hostOps0, hostOps0_1, hostOps0_2, hostOps0_3, hostOps0_4, List.flatten_cons, List.flatten_nil, List.append_nil, List.cons_append, List.nil_append]
  after_results_simp
  rfl

set_option maxHeartbeats 4000000 in
/-- The array window 5 stages, as the host operations before the region leave it. -/
theorem V5_eq (c : Dev nD) : (V m c main_v103 : S8192x16.Idx → EReal) = (Cert.ReferenceIdeal.ReadP.val_main_v165 (F := Ideal) (m ((c : Thread nD τ).loc main_arg21)) (m ((c : Thread nD τ).loc main_arg27))) := by
  dsimp only [V, V0]
  simp only [hostOps0, hostOps0_1, hostOps0_2, hostOps0_3, hostOps0_4, List.flatten_cons, List.flatten_nil, List.append_nil, List.cons_append, List.nil_append]
  after_results_simp
  rfl

end Cert.KernelIdeal.HostSide

end
-- ==== Proof.KernelHostB.lean ====
/-
  The arrays the kernel's windows stage, as functions of the program's arguments: the first side's weights.

  The host operations in front of the region are the reference's own operations (the sparse propagation, the row gathers, the
  category means, the masked weights), in another order; each staged array is therefore one of the reference's stages of the
  same arguments, a masked weight after a change of float format that is the identity on the extended reals, a bias laid as a row.
-/
import proofs.«109762_j70643622084958_2_alg».proof.Proof.Gen.KernelIdeal.Frame
import proofs.«109762_j70643622084958_2_alg».proof.Proof.ReadP
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.HostSide

open Cert.KernelIdeal Cert.KernelIdeal.Gen Idealize.ShloMosaic Idealize.ShloMosaic.TcCoe Idealize.ShloMosaic.ValueIdx Idealize.SL.Sem Idealize.ShloMosaic.StableHlo

variable (m : (ℓ : Loc nD τ sig) → Buf (Elt Ideal) ℓ)

set_option maxHeartbeats 4000000 in
/-- The array window 6 stages, as the host operations before the region leave it (the change of float format is the identity on the extended reals). -/
theorem V6_eq (c : Dev nD) : (V m c main_v231 : S16x128.Idx → EReal) = (Cert.ReferenceIdeal.ReadP.val_main_v60 (F := Ideal) (m ((c : Thread nD τ).loc main_arg4))) := by
  dsimp only [V, V0]
  simp only [hostOps0, hostOps0_1, hostOps0_2, hostOps0_3, hostOps0_4, List.flatten_cons, List.flatten_nil, List.append_nil, List.cons_append, List.nil_append]
  after_results_simp
  rfl

set_option maxHeartbeats 4000000 in
/-- The row window 7 stages: the length-128 bias argument laid as a [1, 128] row. -/
theorem V7_eq (c : Dev nD) (o : Fin 128) : (V m c main_v232 : S1x128.Idx → EReal) (ix2 0 o) = ((m ((c : Thread nD τ).loc main_arg5)) : S128.Idx → EReal) (ix1 o) := by
  have e : (V m c main_v232 : S1x128.Idx → EReal) = shapeCast S1x128 ((m ((c : Thread nD τ).loc main_arg5)) : S128.Idx → EReal) shapeCasts_S128_S1x128 := by
    dsimp only [V, V0]
    simp only [hostOps0, hostOps0_1, hostOps0_2, hostOps0_3, hostOps0_4, List.flatten_cons, List.flatten_nil, List.append_nil, List.cons_append, List.nil_append]
    after_results_simp
    rfl
  rw [e]
  exact shapeCast_a_1a_apply _ _ 0 o

set_option maxHeartbeats 4000000 in
/-- The array window 10 stages, as the host operations before the region leave it (the change of float format is the identity on the extended reals). -/
theorem V10_eq (c : Dev nD) : (V m c main_v114 : S256x256.Idx → EReal) = (Cert.ReferenceIdeal.ReadP.val_main_v77 (F := Ideal) (m ((c : Thread nD τ).loc main_arg8)) (m ((c : Thread nD τ).loc main_arg10))) := by
  dsimp only [V, V0]
  simp only [hostOps0, hostOps0_1, hostOps0_2, hostOps0_3, hostOps0_4, List.flatten_cons, List.flatten_nil, List.append_nil, List.cons_append, List.nil_append]
  after_results_simp
  rfl

set_option maxHeartbeats 4000000 in
/-- The row window 11 stages: the length-256 bias laid as a [1, 256] row. -/
theorem V11_eq (c : Dev nD) (o : Fin 256) : (V m c main_v124 : S1x256.Idx → EReal) (ix2 0 o) = (Cert.ReferenceIdeal.ReadP.val_main_v87 (F := Ideal) (m ((c : Thread nD τ).loc main_arg9)) (m ((c : Thread nD τ).loc main_arg11))) (ix1 o) := by
  have e : (V m c main_v124 : S1x256.Idx → EReal) = shapeCast S1x256 (Cert.ReferenceIdeal.ReadP.val_main_v87 (F := Ideal) (m ((c : Thread nD τ).loc main_arg9)) (m ((c : Thread nD τ).loc main_arg11))) shapeCasts_S256_S1x256 := by
    dsimp only [V, V0]
    simp only [hostOps0, hostOps0_1, hostOps0_2, hostOps0_3, hostOps0_4, List.flatten_cons, List.flatten_nil, List.append_nil, List.cons_append, List.nil_append]
    after_results_simp
    rfl
  rw [e]
  exact shapeCast_a_1a_apply _ _ 0 o

set_option maxHeartbeats 4000000 in
/-- The array window 12 stages, as the host operations before the region leave it (the change of float format is the identity on the extended reals). -/
theorem V12_eq (c : Dev nD) : (V m c main_v135 : S256x256.Idx → EReal) = (Cert.ReferenceIdeal.ReadP.val_main_v101 (F := Ideal) (m ((c : Thread nD τ).loc main_arg12)) (m ((c : Thread nD τ).loc main_arg14))) := by
  dsimp only [V, V0]
  simp only [hostOps0, hostOps0_1, hostOps0_2, hostOps0_3, hostOps0_4, List.flatten_cons, List.flatten_nil, List.append_nil, List.cons_append, List.nil_append]
  after_results_simp
  rfl

set_option maxHeartbeats 4000000 in
/-- The row window 13 stages: the length-256 bias laid as a [1, 256] row. -/
theorem V13_eq (c : Dev nD) (o : Fin 256) : (V m c main_v145 : S1x256.Idx → EReal) (ix2 0 o) = (Cert.ReferenceIdeal.ReadP.val_main_v111 (F := Ideal) (m ((c : Thread nD τ).loc main_arg13)) (m ((c : Thread nD τ).loc main_arg15))) (ix1 o) := by
  have e : (V m c main_v145 : S1x256.Idx → EReal) = shapeCast S1x256 (Cert.ReferenceIdeal.ReadP.val_main_v111 (F := Ideal) (m ((c : Thread nD τ).loc main_arg13)) (m ((c : Thread nD τ).loc main_arg15))) shapeCasts_S256_S1x256 := by
    dsimp only [V, V0]
    simp only [hostOps0, hostOps0_1, hostOps0_2, hostOps0_3, hostOps0_4, List.flatten_cons, List.flatten_nil, List.append_nil, List.cons_append, List.nil_append]
    after_results_simp
    rfl
  rw [e]
  exact shapeCast_a_1a_apply _ _ 0 o

set_option maxHeartbeats 4000000 in
/-- The array window 14 stages, as the host operations before the region leave it (the change of float format is the identity on the extended reals). -/
theorem V14_eq (c : Dev nD) : (V m c main_v156 : S256x1.Idx → EReal) = (Cert.ReferenceIdeal.ReadP.val_main_v125 (F := Ideal) (m ((c : Thread nD τ).loc main_arg16)) (m ((c : Thread nD τ).loc main_arg18))) := by
  dsimp only [V, V0]
  simp only [hostOps0, hostOps0_1, hostOps0_2, hostOps0_3, hostOps0_4, List.flatten_cons, List.flatten_nil, List.append_nil, List.cons_append, List.nil_append]
  after_results_simp
  rfl

set_option maxHeartbeats 4000000 in
/-- The row window 15 stages: the length-1 bias laid as a [1, 1] row. -/
theorem V15_eq (c : Dev nD) (o : Fin 1) : (V m c main_v166 : S1x1.Idx → EReal) (ix2 0 o) = (Cert.ReferenceIdeal.ReadP.val_main_v135 (F := Ideal) (m ((c : Thread nD τ).loc main_arg17)) (m ((c : Thread nD τ).loc main_arg19))) (ix1 o) := by
  have e : (V m c main_v166 : S1x1.Idx → EReal) = shapeCast S1x1 (Cert.ReferenceIdeal.ReadP.val_main_v135 (F := Ideal) (m ((c : Thread nD τ).loc main_arg17)) (m ((c : Thread nD τ).loc main_arg19))) shapeCasts_S1_S1x1 := by
    dsimp only [V, V0]
    simp only [hostOps0, hostOps0_1, hostOps0_2, hostOps0_3, hostOps0_4, List.flatten_cons, List.flatten_nil, List.append_nil, List.cons_append, List.nil_append]
    after_results_simp
    rfl
  rw [e]
  exact shapeCast_a_1a_apply _ _ 0 o

end Cert.KernelIdeal.HostSide

end
-- ==== Proof.KernelHostC.lean ====
/-
  The arrays the kernel's windows stage, as functions of the program's arguments: the second side's weights.

  The host operations in front of the region are the reference's own operations (the sparse propagation, the row gathers, the
  category means, the masked weights), in another order; each staged array is therefore one of the reference's stages of the
  same arguments, a masked weight after a change of float format that is the identity on the extended reals, a bias laid as a row.
-/
import proofs.«109762_j70643622084958_2_alg».proof.Proof.Gen.KernelIdeal.Frame
import proofs.«109762_j70643622084958_2_alg».proof.Proof.ReadP
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.HostSide

open Cert.KernelIdeal Cert.KernelIdeal.Gen Idealize.ShloMosaic Idealize.ShloMosaic.TcCoe Idealize.ShloMosaic.ValueIdx Idealize.SL.Sem Idealize.ShloMosaic.StableHlo

variable (m : (ℓ : Loc nD τ sig) → Buf (Elt Ideal) ℓ)

set_option maxHeartbeats 4000000 in
/-- The array window 8 stages, as the host operations before the region leave it (the change of float format is the identity on the extended reals). -/
theorem V8_eq (c : Dev nD) : (V m c main_v234 : S16x128.Idx → EReal) = (Cert.ReferenceIdeal.ReadP.val_main_v196 (F := Ideal) (m ((c : Thread nD τ).loc main_arg6))) := by
  dsimp only [V, V0]
  simp only [hostOps0, hostOps0_1, hostOps0_2, hostOps0_3, hostOps0_4, List.flatten_cons, List.flatten_nil, List.append_nil, List.cons_append, List.nil_append]
  after_results_simp
  rfl

set_option maxHeartbeats 4000000 in
/-- The row window 9 stages: the length-128 bias argument laid as a [1, 128] row. -/
theorem V9_eq (c : Dev nD) (o : Fin 128) : (V m c main_v235 : S1x128.Idx → EReal) (ix2 0 o) = ((m ((c : Thread nD τ).loc main_arg7)) : S128.Idx → EReal) (ix1 o) := by
  have e : (V m c main_v235 : S1x128.Idx → EReal) = shapeCast S1x128 ((m ((c : Thread nD τ).loc main_arg7)) : S128.Idx → EReal) shapeCasts_S128_S1x128 := by
    dsimp only [V, V0]
    simp only [hostOps0, hostOps0_1, hostOps0_2, hostOps0_3, hostOps0_4, List.flatten_cons, List.flatten_nil, List.append_nil, List.cons_append, List.nil_append]
    after_results_simp
    rfl
  rw [e]
  exact shapeCast_a_1a_apply _ _ 0 o

set_option maxHeartbeats 4000000 in
/-- The array window 16 stages, as the host operations before the region leave it (the change of float format is the identity on the extended reals). -/
theorem V16_eq (c : Dev nD) : (V m c main_v177 : S256x256.Idx → EReal) = (Cert.ReferenceIdeal.ReadP.val_main_v213 (F := Ideal) (m ((c : Thread nD τ).loc main_arg8)) (m ((c : Thread nD τ).loc main_arg10))) := by
  dsimp only [V, V0]
  simp only [hostOps0, hostOps0_1, hostOps0_2, hostOps0_3, hostOps0_4, List.flatten_cons, List.flatten_nil, List.append_nil, List.cons_append, List.nil_append]
  after_results_simp
  rfl

set_option maxHeartbeats 4000000 in
/-- The row window 17 stages: the length-256 bias laid as a [1, 256] row. -/
theorem V17_eq (c : Dev nD) (o : Fin 256) : (V m c main_v187 : S1x256.Idx → EReal) (ix2 0 o) = (Cert.ReferenceIdeal.ReadP.val_main_v223 (F := Ideal) (m ((c : Thread nD τ).loc main_arg9)) (m ((c : Thread nD τ).loc main_arg11))) (ix1 o) := by
  have e : (V m c main_v187 : S1x256.Idx → EReal) = shapeCast S1x256 (Cert.ReferenceIdeal.ReadP.val_main_v223 (F := Ideal) (m ((c : Thread nD τ).loc main_arg9)) (m ((c : Thread nD τ).loc main_arg11))) shapeCasts_S256_S1x256 := by
    dsimp only [V, V0]
    simp only [hostOps0, hostOps0_1, hostOps0_2, hostOps0_3, hostOps0_4, List.flatten_cons, List.flatten_nil, List.append_nil, List.cons_append, List.nil_append]
    after_results_simp
    rfl
  rw [e]
  exact shapeCast_a_1a_apply _ _ 0 o

set_option maxHeartbeats 4000000 in
/-- The array window 18 stages, as the host operations before the region leave it (the change of float format is the identity on the extended reals). -/
theorem V18_eq (c : Dev nD) : (V m c main_v198 : S256x256.Idx → EReal) = (Cert.ReferenceIdeal.ReadP.val_main_v237 (F := Ideal) (m ((c : Thread nD τ).loc main_arg12)) (m ((c : Thread nD τ).loc main_arg14))) := by
  dsimp only [V, V0]
  simp only [hostOps0, hostOps0_1, hostOps0_2, hostOps0_3, hostOps0_4, List.flatten_cons, List.flatten_nil, List.append_nil, List.cons_append, List.nil_append]
  after_results_simp
  rfl

set_option maxHeartbeats 4000000 in
/-- The row window 19 stages: the length-256 bias laid as a [1, 256] row. -/
theorem V19_eq (c : Dev nD) (o : Fin 256) : (V m c main_v208 : S1x256.Idx → EReal) (ix2 0 o) = (Cert.ReferenceIdeal.ReadP.val_main_v247 (F := Ideal) (m ((c : Thread nD τ).loc main_arg13)) (m ((c : Thread nD τ).loc main_arg15))) (ix1 o) := by
  have e : (V m c main_v208 : S1x256.Idx → EReal) = shapeCast S1x256 (Cert.ReferenceIdeal.ReadP.val_main_v247 (F := Ideal) (m ((c : Thread nD τ).loc main_arg13)) (m ((c : Thread nD τ).loc main_arg15))) shapeCasts_S256_S1x256 := by
    dsimp only [V, V0]
    simp only [hostOps0, hostOps0_1, hostOps0_2, hostOps0_3, hostOps0_4, List.flatten_cons, List.flatten_nil, List.append_nil, List.cons_append, List.nil_append]
    after_results_simp
    rfl
  rw [e]
  exact shapeCast_a_1a_apply _ _ 0 o

set_option maxHeartbeats 4000000 in
/-- The array window 20 stages, as the host operations before the region leave it (the change of float format is the identity on the extended reals). -/
theorem V20_eq (c : Dev nD) : (V m c main_v219 : S256x1.Idx → EReal) = (Cert.ReferenceIdeal.ReadP.val_main_v261 (F := Ideal) (m ((c : Thread nD τ).loc main_arg16)) (m ((c : Thread nD τ).loc main_arg18))) := by
  dsimp only [V, V0]
  simp only [hostOps0, hostOps0_1, hostOps0_2, hostOps0_3, hostOps0_4, List.flatten_cons, List.flatten_nil, List.append_nil, List.cons_append, List.nil_append]
  after_results_simp
  rfl

set_option maxHeartbeats 4000000 in
/-- The row window 21 stages: the length-1 bias laid as a [1, 1] row. -/
theorem V21_eq (c : Dev nD) (o : Fin 1) : (V m c main_v229 : S1x1.Idx → EReal) (ix2 0 o) = (Cert.ReferenceIdeal.ReadP.val_main_v271 (F := Ideal) (m ((c : Thread nD τ).loc main_arg17)) (m ((c : Thread nD τ).loc main_arg19))) (ix1 o) := by
  have e : (V m c main_v229 : S1x1.Idx → EReal) = shapeCast S1x1 (Cert.ReferenceIdeal.ReadP.val_main_v271 (F := Ideal) (m ((c : Thread nD τ).loc main_arg17)) (m ((c : Thread nD τ).loc main_arg19))) shapeCasts_S1_S1x1 := by
    dsimp only [V, V0]
    simp only [hostOps0, hostOps0_1, hostOps0_2, hostOps0_3, hostOps0_4, List.flatten_cons, List.flatten_nil, List.append_nil, List.cons_append, List.nil_append]
    after_results_simp
    rfl
  rw [e]
  exact shapeCast_a_1a_apply _ _ 0 o

end Cert.KernelIdeal.HostSide

end
-- ==== Proof.KernelRun.lean ====
/-
  The kernel's run, read: its result is every row's score, each row's score written over the reference's own stages.

  The score array the region leaves is reshaped to a vector by the one host operation after the region; the arrays the
  region's windows stage are the reference's stages of the same arguments, so row `r` of the result is the row
  specification applied to row `r` of those stages.
-/
import proofs.«109762_j70643622084958_2_alg».proof.Proof.KernelValue
import proofs.«109762_j70643622084958_2_alg».proof.Proof.KernelHostA
import proofs.«109762_j70643622084958_2_alg».proof.Proof.KernelHostB
import proofs.«109762_j70643622084958_2_alg».proof.Proof.KernelHostC

noncomputable section

namespace Cert.KernelIdeal.RowValue

open Cert.KernelIdeal Cert.KernelIdeal.Gen Cert.KernelIdeal.HostSide Idealize.ShloMosaic Idealize.ShloMosaic.TcCoe Idealize.ShloMosaic.ValueIdx Idealize.SL.Sem Idealize.ShloMosaic.StableHlo Cert.RowSpec

variable (m : (ℓ : Loc nD τ sig) → Buf (Elt Ideal) ℓ) (ρ : Dev nD → PrngReg)

/-- The score of batch row `r` over the reference's stages of the kernel's arguments. -/
def rowR (c : Dev nD) (r : Fin 8192) : EReal :=
  score (tower (fun d => (Cert.ReferenceIdeal.ReadP.val_main_v36 (F := Ideal) (m ((c : Thread nD τ).loc main_arg0)) (m ((c : Thread nD τ).loc main_arg1)) (m ((c : Thread nD τ).loc main_arg22)) (m ((c : Thread nD τ).loc main_arg23)) (m ((c : Thread nD τ).loc main_arg26))) (ix2 r d)) (fun d => (Cert.ReferenceIdeal.ReadP.val_main_v59 (F := Ideal) (m ((c : Thread nD τ).loc main_arg2)) (m ((c : Thread nD τ).loc main_arg24)) (m ((c : Thread nD τ).loc main_arg26))) (ix2 r d)) (fun k => (Cert.ReferenceIdeal.ReadP.val_main_v29 (F := Ideal) (m ((c : Thread nD τ).loc main_arg20)) (m ((c : Thread nD τ).loc main_arg26))) (ix2 r k))
      (fun k d => (Cert.ReferenceIdeal.ReadP.val_main_v60 (F := Ideal) (m ((c : Thread nD τ).loc main_arg4))) (ix2 k d)) (fun d => ((m ((c : Thread nD τ).loc main_arg5)) : S128.Idx → EReal) (ix1 d))
      (fun j o => (Cert.ReferenceIdeal.ReadP.val_main_v77 (F := Ideal) (m ((c : Thread nD τ).loc main_arg8)) (m ((c : Thread nD τ).loc main_arg10))) (ix2 j o)) (fun o => (Cert.ReferenceIdeal.ReadP.val_main_v87 (F := Ideal) (m ((c : Thread nD τ).loc main_arg9)) (m ((c : Thread nD τ).loc main_arg11))) (ix1 o)) (fun j o => (Cert.ReferenceIdeal.ReadP.val_main_v101 (F := Ideal) (m ((c : Thread nD τ).loc main_arg12)) (m ((c : Thread nD τ).loc main_arg14))) (ix2 j o)) (fun o => (Cert.ReferenceIdeal.ReadP.val_main_v111 (F := Ideal) (m ((c : Thread nD τ).loc main_arg13)) (m ((c : Thread nD τ).loc main_arg15))) (ix1 o))
      (fun j o => (Cert.ReferenceIdeal.ReadP.val_main_v125 (F := Ideal) (m ((c : Thread nD τ).loc main_arg16)) (m ((c : Thread nD τ).loc main_arg18))) (ix2 j o)) (fun o => (Cert.ReferenceIdeal.ReadP.val_main_v135 (F := Ideal) (m ((c : Thread nD τ).loc main_arg17)) (m ((c : Thread nD τ).loc main_arg19))) (ix1 o)))
    (tower (fun d => (Cert.ReferenceIdeal.ReadP.val_main_v172 (F := Ideal) (m ((c : Thread nD τ).loc main_arg0)) (m ((c : Thread nD τ).loc main_arg1)) (m ((c : Thread nD τ).loc main_arg22)) (m ((c : Thread nD τ).loc main_arg23)) (m ((c : Thread nD τ).loc main_arg27))) (ix2 r d)) (fun d => (Cert.ReferenceIdeal.ReadP.val_main_v195 (F := Ideal) (m ((c : Thread nD τ).loc main_arg3)) (m ((c : Thread nD τ).loc main_arg25)) (m ((c : Thread nD τ).loc main_arg27))) (ix2 r d)) (fun k => (Cert.ReferenceIdeal.ReadP.val_main_v165 (F := Ideal) (m ((c : Thread nD τ).loc main_arg21)) (m ((c : Thread nD τ).loc main_arg27))) (ix2 r k))
      (fun k d => (Cert.ReferenceIdeal.ReadP.val_main_v196 (F := Ideal) (m ((c : Thread nD τ).loc main_arg6))) (ix2 k d)) (fun d => ((m ((c : Thread nD τ).loc main_arg7)) : S128.Idx → EReal) (ix1 d))
      (fun j o => (Cert.ReferenceIdeal.ReadP.val_main_v213 (F := Ideal) (m ((c : Thread nD τ).loc main_arg8)) (m ((c : Thread nD τ).loc main_arg10))) (ix2 j o)) (fun o => (Cert.ReferenceIdeal.ReadP.val_main_v223 (F := Ideal) (m ((c : Thread nD τ).loc main_arg9)) (m ((c : Thread nD τ).loc main_arg11))) (ix1 o)) (fun j o => (Cert.ReferenceIdeal.ReadP.val_main_v237 (F := Ideal) (m ((c : Thread nD τ).loc main_arg12)) (m ((c : Thread nD τ).loc main_arg14))) (ix2 j o)) (fun o => (Cert.ReferenceIdeal.ReadP.val_main_v247 (F := Ideal) (m ((c : Thread nD τ).loc main_arg13)) (m ((c : Thread nD τ).loc main_arg15))) (ix1 o))
      (fun j o => (Cert.ReferenceIdeal.ReadP.val_main_v261 (F := Ideal) (m ((c : Thread nD τ).loc main_arg16)) (m ((c : Thread nD τ).loc main_arg18))) (ix2 j o)) (fun o => (Cert.ReferenceIdeal.ReadP.val_main_v271 (F := Ideal) (m ((c : Thread nD τ).loc main_arg17)) (m ((c : Thread nD τ).loc main_arg19))) (ix1 o)))

/-- The arrays the region finds are the reference's stages: a row's score over the one is its score over the other. -/
theorem rowK_eq (c : Dev nD) (r : Fin 8192) : rowK m c r = rowR m c r := by
  unfold rowK rowR
  rw [V0_eq m c, V1_eq m c, V2_eq m c, V3_eq m c, V4_eq m c, V5_eq m c, V6_eq m c, V8_eq m c, V10_eq m c, V12_eq m c, V14_eq m c, V16_eq m c, V18_eq m c, V20_eq m c]
  simp only [V7_eq m c, V9_eq m c, V11_eq m c, V13_eq m c, V15_eq m c, V17_eq m c, V19_eq m c, V21_eq m c]

/-- The program's result after the host's closing reshape: entry `r` is the score of row `r`. -/
theorem tail_eq (c : Dev nD) :
    (Pipeline.afterTail₀ cfgs (dats m) 0 (V0 m) [hostOps1] c main_v237 : S8192.Idx → EReal)
      = fun i => rowR m c ⟨(i 0).val, (i 0).isLt⟩ := by
  funext i
  obtain ⟨r, rfl⟩ : ∃ r : Fin 8192, i = ix1 r := ⟨i 0, eq_ix1 i⟩
  show _ = rowR m c r
  rw [← rowK_eq m c r]
  unfold Pipeline.afterTail₀
  show StableHlo.after hostOps1 _ (Proc.devRef .tc main_v237) (ix1 r) = _
  after_results
  show shapeCast S8192 (Pipeline.withArrays (cfgs 0).spec c (V0 m c) (fun w => (dats m 0 c).arrAt w (cfgs 0).N) (Proc.tc.devRef main_v236)) shapeCasts_S8192x1_S8192 (ix1 r) = _
  refine (shapeCast_apply _ shapeCasts_S8192x1_S8192 (ix1 r) (ix2 r 0) (by
    rw [Shape.rowMajor_val_two, Shape.rowMajor_val_one]; show r.val * 1 + 0 = r.val; omega)).trans ?_
  have hw := Pipeline.withArrays_arr spec0 launch0.win.arr_inj c (V0 m c) (fun w => (dats m 0 c).arrAt w cfg0.N) 22
  exact (congrFun hw (ix2 r 0)).trans (congrFun (final m c) (ix2 r 0))

set_option maxHeartbeats 1680000 in
/-- The run, read: the result vector at every row's score, the arguments unchanged. -/
theorem run : θ_run defs (onTc (τ := τ) (main (F := Ideal))) ⟨m, fun _ => 0, ρ⟩ (fun r => ∀ c : Dev nD,
      r.2.mem ((c.tc : Thread nD τ).loc main_v237) = (fun i : S8192.Idx => rowR m c ⟨(i 0).val, (i 0).isLt⟩)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun r h c => ⟨((h c).2 main_v237 (Pipeline.mem_restRefs_of main_v237 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c)),
      (((h c).2 main_arg15 (Pipeline.mem_restRefs_of main_arg15 (by decide) (by decide))).trans (W_main_arg15 m (dats m) c)),
      (((h c).2 main_arg16 (Pipeline.mem_restRefs_of main_arg16 (by decide) (by decide))).trans (W_main_arg16 m (dats m) c)),
      (((h c).2 main_arg17 (Pipeline.mem_restRefs_of main_arg17 (by decide) (by decide))).trans (W_main_arg17 m (dats m) c)),
      (((h c).2 main_arg18 (Pipeline.mem_restRefs_of main_arg18 (by decide) (by decide))).trans (W_main_arg18 m (dats m) c)),
      (((h c).2 main_arg19 (Pipeline.mem_restRefs_of main_arg19 (by decide) (by decide))).trans (W_main_arg19 m (dats m) c)),
      (((h c).2 main_arg20 (Pipeline.mem_restRefs_of main_arg20 (by decide) (by decide))).trans (W_main_arg20 m (dats m) c)),
      (((h c).2 main_arg21 (Pipeline.mem_restRefs_of main_arg21 (by decide) (by decide))).trans (W_main_arg21 m (dats m) c)),
      (((h c).2 main_arg22 (Pipeline.mem_restRefs_of main_arg22 (by decide) (by decide))).trans (W_main_arg22 m (dats m) c)),
      (((h c).2 main_arg23 (Pipeline.mem_restRefs_of main_arg23 (by decide) (by decide))).trans (W_main_arg23 m (dats m) c)),
      (((h c).2 main_arg24 (Pipeline.mem_restRefs_of main_arg24 (by decide) (by decide))).trans (W_main_arg24 m (dats m) c)),
      (((h c).2 main_arg25 (Pipeline.mem_restRefs_of main_arg25 (by decide) (by decide))).trans (W_main_arg25 m (dats m) c)),
      (((h c).2 main_arg26 (Pipeline.mem_restRefs_of main_arg26 (by decide) (by decide))).trans (W_main_arg26 m (dats m) c)),
      (((h c).2 main_arg27 (Pipeline.mem_restRefs_of main_arg27 (by decide) (by decide))).trans (W_main_arg27 m (dats m) c))⟩) (run_main m ρ)

end Cert.KernelIdeal.RowValue

end
-- ==== Proof.RefOps.lean ====
/-
  The reference's array operations read at one row of an [8192, ·] array.

  The reference computes the whole batch at once; each definition below names one stretch of its operations over whole
  arrays (a side's feature array, its two hidden layers, its gate, its mixed output, the final row sums), and each
  lemma reads that stretch at row `r` in the terms of the row specification (`Cert.RowSpec`). The host's logistic is
  spelt `1 / (1 + exp (-z))`; on the extended reals that is the logistic function itself.
-/
import proofs.«109762_j70643622084958_2_alg».proof.ReferenceIdeal
import proofs.«109762_j70643622084958_2_alg».proof.Proof.Gen.ReferenceIdeal
import proofs.«109762_j70643622084958_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RowOps

open Cert.ReferenceIdeal Cert.ReferenceIdeal.Facts₀ Idealize.ShloMosaic Idealize.ShloMosaic.ValueIdx Cert.RowSpec

/-- The host's product of an [8192, 16] array and a [16, 128] array at row `r` and column `o`: the sum over the 16
    contracted positions of the products. -/
theorem dg16 (l : FVec Ideal S8192x16 .f32) (w : FVec Ideal S16x128 .f32) (r : Fin 8192) (o : Fin 128) :
    Host.dotGeneral dot_S8192x16_S16x128_S8192x128_1_0_0_1_n_n none l w (ix2 r o) = ∑ k : Fin 16, l (ix2 r k) * w (ix2 k o) := by
  simp only [Host.dotGeneral]
  rw [Ideal.dotGeneral_apply, ← Equiv.sum_comp (ValueIdx.contrEquiv1 dot_S8192x16_S16x128_S8192x128_1_0_0_1_n_n 16 rfl rfl).symm]
  refine Finset.sum_congr rfl fun k _ => ?_
  have hk := ValueIdx.contrEquiv1_symm_val dot_S8192x16_S16x128_S8192x128_1_0_0_1_n_n 16 rfl rfl k
  have el : dot_S8192x16_S16x128_S8192x128_1_0_0_1_n_n.lhsIdx (ix2 r o) ((ValueIdx.contrEquiv1 dot_S8192x16_S16x128_S8192x128_1_0_0_1_n_n 16 rfl rfl).symm k) = ix2 r k := funext fun a => Fin.ext (by
    match a with
    | ⟨0, _⟩ =>
      show (dot_S8192x16_S16x128_S8192x128_1_0_0_1_n_n.lhsIdx (ix2 r o) _ 0).val = r.val
      unfold DotDims.lhsIdx
      rw [dif_neg (show ¬(0 : Fin S8192x16.rank) ∈ dot_S8192x16_S16x128_S8192x128_1_0_0_1_n_n.lhsBatch by decide), dif_pos (show (0 : Fin S8192x16.rank) ∈ dot_S8192x16_S16x128_S8192x128_1_0_0_1_n_n.lhsNonContracting by decide)]
      rfl
    | ⟨1, _⟩ => exact (dot_S8192x16_S16x128_S8192x128_1_0_0_1_n_n.lhsIdx_val_of_single rfl _ _).trans hk)
  have er : dot_S8192x16_S16x128_S8192x128_1_0_0_1_n_n.rhsIdx (ix2 r o) ((ValueIdx.contrEquiv1 dot_S8192x16_S16x128_S8192x128_1_0_0_1_n_n 16 rfl rfl).symm k) = ix2 k o := funext fun a => Fin.ext (by
    match a with
    | ⟨0, _⟩ => exact (dot_S8192x16_S16x128_S8192x128_1_0_0_1_n_n.rhsIdx_val_of_single rfl _ _).trans hk
    | ⟨1, _⟩ =>
      show (dot_S8192x16_S16x128_S8192x128_1_0_0_1_n_n.rhsIdx (ix2 r o) _ 1).val = o.val
      unfold DotDims.rhsIdx
      rw [dif_neg (show ¬(1 : Fin S16x128.rank) ∈ dot_S8192x16_S16x128_S8192x128_1_0_0_1_n_n.rhsBatch by decide), dif_pos (show (1 : Fin S16x128.rank) ∈ dot_S8192x16_S16x128_S8192x128_1_0_0_1_n_n.rhsNonContracting by decide)]
      rfl)
  rw [el, er]

/-- The host's product of an [8192, 256] array and a [256, 256] array at row `r` and column `o`: the sum over the 256
    contracted positions of the products. -/
theorem dg256 (l : FVec Ideal S8192x256 .f32) (w : FVec Ideal S256x256 .f32) (r : Fin 8192) (o : Fin 256) :
    Host.dotGeneral dot_S8192x256_S256x256_S8192x256_1_0_0_1_n_n none l w (ix2 r o) = ∑ k : Fin 256, l (ix2 r k) * w (ix2 k o) := by
  simp only [Host.dotGeneral]
  rw [Ideal.dotGeneral_apply, ← Equiv.sum_comp (ValueIdx.contrEquiv1 dot_S8192x256_S256x256_S8192x256_1_0_0_1_n_n 256 rfl rfl).symm]
  refine Finset.sum_congr rfl fun k _ => ?_
  have hk := ValueIdx.contrEquiv1_symm_val dot_S8192x256_S256x256_S8192x256_1_0_0_1_n_n 256 rfl rfl k
  have el : dot_S8192x256_S256x256_S8192x256_1_0_0_1_n_n.lhsIdx (ix2 r o) ((ValueIdx.contrEquiv1 dot_S8192x256_S256x256_S8192x256_1_0_0_1_n_n 256 rfl rfl).symm k) = ix2 r k := funext fun a => Fin.ext (by
    match a with
    | ⟨0, _⟩ =>
      show (dot_S8192x256_S256x256_S8192x256_1_0_0_1_n_n.lhsIdx (ix2 r o) _ 0).val = r.val
      unfold DotDims.lhsIdx
      rw [dif_neg (show ¬(0 : Fin S8192x256.rank) ∈ dot_S8192x256_S256x256_S8192x256_1_0_0_1_n_n.lhsBatch by decide), dif_pos (show (0 : Fin S8192x256.rank) ∈ dot_S8192x256_S256x256_S8192x256_1_0_0_1_n_n.lhsNonContracting by decide)]
      rfl
    | ⟨1, _⟩ => exact (dot_S8192x256_S256x256_S8192x256_1_0_0_1_n_n.lhsIdx_val_of_single rfl _ _).trans hk)
  have er : dot_S8192x256_S256x256_S8192x256_1_0_0_1_n_n.rhsIdx (ix2 r o) ((ValueIdx.contrEquiv1 dot_S8192x256_S256x256_S8192x256_1_0_0_1_n_n 256 rfl rfl).symm k) = ix2 k o := funext fun a => Fin.ext (by
    match a with
    | ⟨0, _⟩ => exact (dot_S8192x256_S256x256_S8192x256_1_0_0_1_n_n.rhsIdx_val_of_single rfl _ _).trans hk
    | ⟨1, _⟩ =>
      show (dot_S8192x256_S256x256_S8192x256_1_0_0_1_n_n.rhsIdx (ix2 r o) _ 1).val = o.val
      unfold DotDims.rhsIdx
      rw [dif_neg (show ¬(1 : Fin S256x256.rank) ∈ dot_S8192x256_S256x256_S8192x256_1_0_0_1_n_n.rhsBatch by decide), dif_pos (show (1 : Fin S256x256.rank) ∈ dot_S8192x256_S256x256_S8192x256_1_0_0_1_n_n.rhsNonContracting by decide)]
      rfl)
  rw [el, er]

/-- The host's product of an [8192, 256] array and a [256, 1] array at row `r` and column `o`: the sum over the 256
    contracted positions of the products. -/
theorem dg1 (l : FVec Ideal S8192x256 .f32) (w : FVec Ideal S256x1 .f32) (r : Fin 8192) (o : Fin 1) :
    Host.dotGeneral dot_S8192x256_S256x1_S8192x1_1_0_0_1_n_n none l w (ix2 r o) = ∑ k : Fin 256, l (ix2 r k) * w (ix2 k o) := by
  simp only [Host.dotGeneral]
  rw [Ideal.dotGeneral_apply, ← Equiv.sum_comp (ValueIdx.contrEquiv1 dot_S8192x256_S256x1_S8192x1_1_0_0_1_n_n 256 rfl rfl).symm]
  refine Finset.sum_congr rfl fun k _ => ?_
  have hk := ValueIdx.contrEquiv1_symm_val dot_S8192x256_S256x1_S8192x1_1_0_0_1_n_n 256 rfl rfl k
  have el : dot_S8192x256_S256x1_S8192x1_1_0_0_1_n_n.lhsIdx (ix2 r o) ((ValueIdx.contrEquiv1 dot_S8192x256_S256x1_S8192x1_1_0_0_1_n_n 256 rfl rfl).symm k) = ix2 r k := funext fun a => Fin.ext (by
    match a with
    | ⟨0, _⟩ =>
      show (dot_S8192x256_S256x1_S8192x1_1_0_0_1_n_n.lhsIdx (ix2 r o) _ 0).val = r.val
      unfold DotDims.lhsIdx
      rw [dif_neg (show ¬(0 : Fin S8192x256.rank) ∈ dot_S8192x256_S256x1_S8192x1_1_0_0_1_n_n.lhsBatch by decide), dif_pos (show (0 : Fin S8192x256.rank) ∈ dot_S8192x256_S256x1_S8192x1_1_0_0_1_n_n.lhsNonContracting by decide)]
      rfl
    | ⟨1, _⟩ => exact (dot_S8192x256_S256x1_S8192x1_1_0_0_1_n_n.lhsIdx_val_of_single rfl _ _).trans hk)
  have er : dot_S8192x256_S256x1_S8192x1_1_0_0_1_n_n.rhsIdx (ix2 r o) ((ValueIdx.contrEquiv1 dot_S8192x256_S256x1_S8192x1_1_0_0_1_n_n 256 rfl rfl).symm k) = ix2 k o := funext fun a => Fin.ext (by
    match a with
    | ⟨0, _⟩ => exact (dot_S8192x256_S256x1_S8192x1_1_0_0_1_n_n.rhsIdx_val_of_single rfl _ _).trans hk
    | ⟨1, _⟩ =>
      show (dot_S8192x256_S256x1_S8192x1_1_0_0_1_n_n.rhsIdx (ix2 r o) _ 1).val = o.val
      unfold DotDims.rhsIdx
      rw [dif_neg (show ¬(1 : Fin S256x1.rank) ∈ dot_S8192x256_S256x1_S8192x1_1_0_0_1_n_n.rhsBatch by decide), dif_pos (show (1 : Fin S256x1.rank) ∈ dot_S8192x256_S256x1_S8192x1_1_0_0_1_n_n.rhsNonContracting by decide)]
      rfl)
  rw [el, er]

/-- A length-128 vector laid as a row and repeated down 8192 rows, at `(r, o)`: its entry `o`. -/
theorem hbias128 (b : FVec Ideal S128 .f32) (r : Fin 8192) (o : Fin 128) :
    broadcastInDim S8192x128 (no_index ![0, 1]) bcast_S1x128_S8192x128_0_1 (broadcastInDim S1x128 (no_index ![1]) bcast_S128_S1x128_1 b) (ix2 r o) = b (ix1 o) := by
  refine (broadcastInDim_apply _ bcast_S1x128_S8192x128_0_1 _ (ix2 r o) (ix2 (0 : Fin 1) o) (fun a => by
    match a with
    | ⟨0, _⟩ => show (0 : Nat) = if (1 : Nat) = 1 then 0 else _; rw [if_pos rfl]
    | ⟨1, _⟩ => show o.val = if (128 : Nat) = 1 then 0 else o.val; rw [if_neg (by decide)])).trans ?_
  exact broadcastInDim_apply _ bcast_S128_S1x128_1 b (ix2 (0 : Fin 1) o) (ix1 o) (fun a => by
    match a with
    | ⟨0, _⟩ => show o.val = if (128 : Nat) = 1 then 0 else o.val; rw [if_neg (by decide)])

/-- A length-256 vector laid as a row and repeated down 8192 rows, at `(r, o)`: its entry `o`. -/
theorem hbias256 (b : FVec Ideal S256 .f32) (r : Fin 8192) (o : Fin 256) :
    broadcastInDim S8192x256 (no_index ![0, 1]) bcast_S1x256_S8192x256_0_1 (broadcastInDim S1x256 (no_index ![1]) bcast_S256_S1x256_1 b) (ix2 r o) = b (ix1 o) := by
  refine (broadcastInDim_apply _ bcast_S1x256_S8192x256_0_1 _ (ix2 r o) (ix2 (0 : Fin 1) o) (fun a => by
    match a with
    | ⟨0, _⟩ => show (0 : Nat) = if (1 : Nat) = 1 then 0 else _; rw [if_pos rfl]
    | ⟨1, _⟩ => show o.val = if (256 : Nat) = 1 then 0 else o.val; rw [if_neg (by decide)])).trans ?_
  exact broadcastInDim_apply _ bcast_S256_S1x256_1 b (ix2 (0 : Fin 1) o) (ix1 o) (fun a => by
    match a with
    | ⟨0, _⟩ => show o.val = if (256 : Nat) = 1 then 0 else o.val; rw [if_neg (by decide)])

/-- A length-1 vector laid as a row and repeated down 8192 rows, at `(r, o)`: its entry `o`. -/
theorem hbias1 (b : FVec Ideal S1 .f32) (r : Fin 8192) (o : Fin 1) :
    broadcastInDim S8192x1 (no_index ![0, 1]) bcast_S1x1_S8192x1_0_1 (broadcastInDim S1x1 (no_index ![1]) bcast_S1_S1x1_1 b) (ix2 r o) = b (ix1 o) := by
  refine (broadcastInDim_apply _ bcast_S1x1_S8192x1_0_1 _ (ix2 r o) (ix2 (0 : Fin 1) o) (fun a => by
    match a with
    | ⟨0, _⟩ => show (0 : Nat) = if (1 : Nat) = 1 then 0 else _; rw [if_pos rfl]
    | ⟨1, _⟩ => show o.val = if (1 : Nat) = 1 then 0 else _; rw [if_pos rfl]; have := o.isLt; omega)).trans ?_
  exact broadcastInDim_apply _ bcast_S1_S1x1_1 b (ix2 (0 : Fin 1) o) (ix1 o) (fun a => by
    match a with
    | ⟨0, _⟩ => show o.val = if (1 : Nat) = 1 then 0 else _; rw [if_pos rfl]; have := o.isLt; omega)

/-- An [8192, 1] column repeated across 128 lanes, at `(r, d)`: the column's entry `r`. -/
theorem hlanes128 (w : FVec Ideal S8192x1 .f32) (r : Fin 8192) (d : Fin 128) :
    broadcastInDim S8192x128 (no_index ![0, 1]) bcast_S8192x1_S8192x128_0_1 w (ix2 r d) = w (ix2 r 0) :=
  broadcastInDim_apply _ bcast_S8192x1_S8192x128_0_1 w (ix2 r d) (ix2 r 0) (fun a => by
    match a with
    | ⟨0, _⟩ => show r.val = if (8192 : Nat) = 1 then 0 else r.val; rw [if_neg (by decide)]
    | ⟨1, _⟩ => show (0 : Nat) = if (1 : Nat) = 1 then 0 else _; rw [if_pos rfl])

/-- A scalar spread over an array, at any index: the scalar. -/
theorem hsplat {s : Shape} (h : (S_ : Shape).BroadcastsInDim s ![]) (x : FVec Ideal S_ .f32) (i : s.Idx) :
    broadcastInDim s (no_index ![]) h x i = x (fun a => a.elim0) :=
  broadcastInDim_apply _ h x i (fun a => a.elim0) (fun a => a.elim0)

/-- The zero the reference splats for its relus, at any index. -/
theorem zsplat {s : Shape} (h : (S_ : Shape).BroadcastsInDim s ![]) (i : s.Idx) :
    broadcastInDim s (no_index ![]) h (constant (F := Ideal) S_ .f32 0x00000000#32) i = 0 := by
  rw [hsplat]; exact Ideal.ofBits_zero_f32
/-- The one the reference splats for its logistic and for `1 - gate`, at any index. -/
theorem osplat {s : Shape} (h : (S_ : Shape).BroadcastsInDim s ![]) (i : s.Idx) :
    broadcastInDim s (no_index ![]) h (constant (F := Ideal) S_ .f32 0x3F800000#32) i = 1 := by
  rw [hsplat]; exact Ideal.ofBits_one_f32

/-- Two [8192, 128] arrays joined along the lanes. -/
def catArr (a b : FVec Ideal S8192x128 .f32) : FVec Ideal S8192x256 .f32 :=
  concatenate S8192x256 1 [⟨S8192x128, a⟩, ⟨S8192x128, b⟩] concatenates_S8192x128_S8192x128_S8192x256_d1

/-- The reference's joining of two [8192, 128] arrays is `catArr`. -/
theorem cat_fold (a b : FVec Ideal S8192x128 .f32) (h : Shape.Concatenates [S8192x128, S8192x128] S8192x256 1) :
    concatenate S8192x256 1 [⟨S8192x128, a⟩, ⟨S8192x128, b⟩] h = catArr a b := rfl

/-- Joined arrays of equal arrays are equal. -/
theorem catArr_congr {a a' b b' : FVec Ideal S8192x128 .f32} (h1 : a = a') (h2 : b = b') : catArr a b = catArr a' b' := by
  rw [h1, h2]

/-- The joined array at row `r` and lane `j`: the row of the first array then the row of the second. -/
theorem hcat_apply (a b : FVec Ideal S8192x128 .f32) (r : Fin 8192) (j : Fin 256) :
    catArr a b (ix2 r j) = join (fun d => a (ix2 r d)) (fun d => b (ix2 r d)) j := by
  unfold catArr join
  by_cases h : j.val < 128
  · rw [dif_pos h]
    exact concatenate_pair_apply_left (1 : Fin 2) a b concatenates_S8192x128_S8192x128_S8192x256_d1 (ix2 r j) rfl
      (ix2 r ⟨j.val, h⟩) (fun c => match c with | ⟨0, _⟩ => rfl | ⟨1, _⟩ => rfl)
  · rw [dif_neg h]
    exact concatenate_pair_apply_right (1 : Fin 2) a b concatenates_S8192x128_S8192x128_S8192x256_d1 (ix2 r j) rfl rfl
      (ix2 r ⟨j.val - 128, by have := j.isLt; omega⟩)
      (fun c hc => match c, hc with | ⟨0, _⟩, _ => rfl | ⟨1, _⟩, hc => absurd rfl hc)
      (by show j.val - 128 + 128 = j.val; omega)

/-- A side's feature array: the category means plus the positive part of the numeric features' affine image. -/
def featArr (cat : FVec Ideal S8192x128 .f32) (num : FVec Ideal S8192x16 .f32) (NwT : FVec Ideal S16x128 .f32)
    (nb : FVec Ideal S128 .f32) : FVec Ideal S8192x128 .f32 :=
  addf cat (maximumf (addf (Host.dotGeneral dot_S8192x16_S16x128_S8192x128_1_0_0_1_n_n none num NwT) (broadcastInDim S8192x128 ![0, 1] bcast_S1x128_S8192x128_0_1 (broadcastInDim S1x128 ![1] bcast_S128_S1x128_1 nb))) (broadcastInDim S8192x128 ![] bcast_S_S8192x128 (constant (F := Ideal) S_ .f32 0x00000000#32)))

theorem featArr_apply (cat : FVec Ideal S8192x128 .f32) (num : FVec Ideal S8192x16 .f32) (NwT : FVec Ideal S16x128 .f32)
    (nb : FVec Ideal S128 .f32) (r : Fin 8192) (d : Fin 128) :
    featArr cat num NwT nb (ix2 r d)
      = feat (fun d => cat (ix2 r d)) (fun k => num (ix2 r k)) (fun k d => NwT (ix2 k d)) (fun d => nb (ix1 d)) d := by
  unfold featArr
  simp only [addf_apply, maximumf_apply, dg16, hbias128, zsplat]
  rfl

/-- The second hidden layer before its relu, over the whole batch. -/
def hiddenArr (x : FVec Ideal S8192x256 .f32) (W0T : FVec Ideal S256x256 .f32) (b0 : FVec Ideal S256 .f32)
    (W1T : FVec Ideal S256x256 .f32) (b1 : FVec Ideal S256 .f32) : FVec Ideal S8192x256 .f32 :=
  addf (Host.dotGeneral dot_S8192x256_S256x256_S8192x256_1_0_0_1_n_n none
      (maximumf (addf (Host.dotGeneral dot_S8192x256_S256x256_S8192x256_1_0_0_1_n_n none x W0T) (broadcastInDim S8192x256 ![0, 1] bcast_S1x256_S8192x256_0_1 (broadcastInDim S1x256 ![1] bcast_S256_S1x256_1 b0))) (broadcastInDim S8192x256 ![] bcast_S_S8192x256 (constant (F := Ideal) S_ .f32 0x00000000#32))) W1T) (broadcastInDim S8192x256 ![0, 1] bcast_S1x256_S8192x256_0_1 (broadcastInDim S1x256 ![1] bcast_S256_S1x256_1 b1))

theorem hiddenArr_apply (x : FVec Ideal S8192x256 .f32) (W0T : FVec Ideal S256x256 .f32) (b0 : FVec Ideal S256 .f32)
    (W1T : FVec Ideal S256x256 .f32) (b1 : FVec Ideal S256 .f32) (r : Fin 8192) (o : Fin 256) :
    hiddenArr x W0T b0 W1T b1 (ix2 r o)
      = hidden (fun j => x (ix2 r j)) (fun j o => W0T (ix2 j o)) (fun o => b0 (ix1 o)) (fun j o => W1T (ix2 j o)) (fun o => b1 (ix1 o)) o := by
  unfold hiddenArr
  simp only [addf_apply, maximumf_apply, dg256, hbias256, zsplat]
  rfl

/-- The gate over the whole batch: the logistic, spelt `1 / (1 + exp (-z))`, of the one-output layer of the relu of the second hidden layer. -/
def gateArr (h1 : FVec Ideal S8192x256 .f32) (W2T : FVec Ideal S256x1 .f32) (b2 : FVec Ideal S1 .f32) : FVec Ideal S8192x1 .f32 :=
  Host.divf (broadcastInDim S8192x1 ![] bcast_S_S8192x1 (constant (F := Ideal) S_ .f32 0x3F800000#32)) (addf (broadcastInDim S8192x1 ![] bcast_S_S8192x1 (constant (F := Ideal) S_ .f32 0x3F800000#32)) (Host.exp (Host.negf
    (addf (Host.dotGeneral dot_S8192x256_S256x1_S8192x1_1_0_0_1_n_n none (maximumf h1 (broadcastInDim S8192x256 ![] bcast_S_S8192x256 (constant (F := Ideal) S_ .f32 0x00000000#32))) W2T) (broadcastInDim S8192x1 ![0, 1] bcast_S1x1_S8192x1_0_1 (broadcastInDim S1x1 ![1] bcast_S1_S1x1_1 b2))))))

theorem gateArr_apply (h1 : FVec Ideal S8192x256 .f32) (W2T : FVec Ideal S256x1 .f32) (b2 : FVec Ideal S1 .f32) (r : Fin 8192) :
    gateArr h1 W2T b2 (ix2 r 0)
      = gateOf (fun j => h1 (ix2 r j)) (fun j o => W2T (ix2 j o)) (fun o => b2 (ix1 o)) := by
  unfold gateArr
  show Ideal.div ((broadcastInDim S8192x1 ![] bcast_S_S8192x1 (constant (F := Ideal) S_ .f32 0x3F800000#32)) (ix2 r 0)) ((broadcastInDim S8192x1 ![] bcast_S_S8192x1 (constant (F := Ideal) S_ .f32 0x3F800000#32)) (ix2 r 0) + Ideal.exp (-(addf (Host.dotGeneral dot_S8192x256_S256x1_S8192x1_1_0_0_1_n_n none (maximumf h1 (broadcastInDim S8192x256 ![] bcast_S_S8192x256 (constant (F := Ideal) S_ .f32 0x00000000#32))) W2T) (broadcastInDim S8192x1 ![0, 1] bcast_S1x1_S8192x1_0_1 (broadcastInDim S1x1 ![1] bcast_S1_S1x1_1 b2)) (ix2 r 0)))) = _
  simp only [osplat, addf_apply, maximumf_apply, dg1, hbias1, zsplat]
  rfl

/-- A side's mixed output over the whole batch. -/
def mixArr (g : FVec Ideal S8192x1 .f32) (e f : FVec Ideal S8192x128 .f32) : FVec Ideal S8192x128 .f32 :=
  addf (mulf (broadcastInDim S8192x128 ![0, 1] bcast_S8192x1_S8192x128_0_1 g) e) (mulf (broadcastInDim S8192x128 ![0, 1] bcast_S8192x1_S8192x128_0_1 (subf (broadcastInDim S8192x1 ![] bcast_S_S8192x1 (constant (F := Ideal) S_ .f32 0x3F800000#32)) g)) f)

theorem mixArr_apply (g : FVec Ideal S8192x1 .f32) (e f : FVec Ideal S8192x128 .f32) (r : Fin 8192) (d : Fin 128) :
    mixArr g e f (ix2 r d) = mix (g (ix2 r 0)) (fun d => e (ix2 r d)) (fun d => f (ix2 r d)) d := by
  unfold mixArr
  simp only [addf_apply, mulf_apply, subf_apply, hlanes128, osplat]
  rfl

/-- A side's output over the whole batch, from its embedding, category-mean and numeric-feature arrays and its weights. -/
def towerArr (e cat : FVec Ideal S8192x128 .f32) (num : FVec Ideal S8192x16 .f32) (NwT : FVec Ideal S16x128 .f32) (nb : FVec Ideal S128 .f32)
    (W0T : FVec Ideal S256x256 .f32) (b0 : FVec Ideal S256 .f32) (W1T : FVec Ideal S256x256 .f32) (b1 : FVec Ideal S256 .f32)
    (W2T : FVec Ideal S256x1 .f32) (b2 : FVec Ideal S1 .f32) : FVec Ideal S8192x128 .f32 :=
  mixArr (gateArr (hiddenArr (catArr e (featArr cat num NwT nb)) W0T b0 W1T b1) W2T b2) e (featArr cat num NwT nb)

theorem towerArr_apply (e cat : FVec Ideal S8192x128 .f32) (num : FVec Ideal S8192x16 .f32) (NwT : FVec Ideal S16x128 .f32) (nb : FVec Ideal S128 .f32)
    (W0T : FVec Ideal S256x256 .f32) (b0 : FVec Ideal S256 .f32) (W1T : FVec Ideal S256x256 .f32) (b1 : FVec Ideal S256 .f32)
    (W2T : FVec Ideal S256x1 .f32) (b2 : FVec Ideal S1 .f32) (r : Fin 8192) (d : Fin 128) :
    towerArr e cat num NwT nb W0T b0 W1T b1 W2T b2 (ix2 r d)
      = tower (fun d => e (ix2 r d)) (fun d => cat (ix2 r d)) (fun k => num (ix2 r k)) (fun k d => NwT (ix2 k d)) (fun d => nb (ix1 d))
          (fun j o => W0T (ix2 j o)) (fun o => b0 (ix1 o)) (fun j o => W1T (ix2 j o)) (fun o => b1 (ix1 o))
          (fun j o => W2T (ix2 j o)) (fun o => b2 (ix1 o)) d := by
  unfold towerArr
  simp only [mixArr_apply, gateArr_apply, hiddenArr_apply, hcat_apply, featArr_apply]
  rfl

/-- The batch's scores: the row sums of the product of the two sides' outputs. -/
def scoreArr (u i : FVec Ideal S8192x128 .f32) : FVec Ideal S8192 .f32 :=
  Host.reduceAdd (mulf u i) (constant (F := Ideal) S_ .f32 0x00000000#32) reducesTo_S8192x128_S8192_d1 h_S_

theorem scoreArr_apply (u i : FVec Ideal S8192x128 .f32) (r : Fin 8192) :
    scoreArr u i (ix1 r) = score (fun d => u (ix2 r d)) (fun d => i (ix2 r d)) := by
  unfold scoreArr
  simp only [Host.reduceAdd, Ideal.hostReduceAdd_def]
  rw [Ideal.hostReduceAdd_single reducesTo_S8192x128_S8192_d1 (by decide)]
  show Ideal.ofBits .f32 0x00000000#32 + _ = _
  rw [Ideal.ofBits_zero_f32, zero_add]
  refine Finset.sum_congr rfl fun k _ => ?_
  have e : ∀ x : S8192x128.Idx, x = ix2 r k → mulf u i x = u (ix2 r k) * i (ix2 r k) := fun x hx => by rw [hx]; rfl
  exact e _ (funext fun a => Fin.ext (by match a with | ⟨0, _⟩ => rfl | ⟨1, _⟩ => rfl))

end Cert.ReferenceIdeal.RowOps

end
-- ==== Proof.RefValue.lean ====
/-
  The reference's result, row by row.

  The reference's composed term is the row sums of the product of two side arrays, each side the array-level tower of its
  own stages (the propagated embeddings gathered at the batch's ids, the category means, the gathered numeric features, the
  masked and transposed weights, the masked biases). Read at row `r` it is the row specification applied to row `r` of
  those stages.
-/
import proofs.«109762_j70643622084958_2_alg».proof.Proof.ReadP
import proofs.«109762_j70643622084958_2_alg».proof.Proof.RefOps

noncomputable section

namespace Cert.ReferenceIdeal.RowValue

open Cert.ReferenceIdeal Cert.ReferenceIdeal.ReadP Cert.ReferenceIdeal.RowOps Idealize.ShloMosaic Idealize.ShloMosaic.ValueIdx Cert.RowSpec

set_option maxRecDepth 8192 in
/-- The first side's output array is the tower of its stages. -/
theorem sideU_eq (x0 : (⟨S250000x128, .f32⟩ : BufTy).Contents (Elt Ideal)) (x1 : (⟨S2000000, .f32⟩ : BufTy).Contents (Elt Ideal)) (x2 : (⟨S1001x128, .f32⟩ : BufTy).Contents (Elt Ideal)) (x4 : (⟨S128x16, .f32⟩ : BufTy).Contents (Elt Ideal)) (x5 : (⟨S128, .f32⟩ : BufTy).Contents (Elt Ideal)) (x8 : (⟨S256x256, .f32⟩ : BufTy).Contents (Elt Ideal)) (x9 : (⟨S256, .f32⟩ : BufTy).Contents (Elt Ideal)) (x10 : (⟨S2x256x256, .f32⟩ : BufTy).Contents (Elt Ideal)) (x11 : (⟨S2x256, .f32⟩ : BufTy).Contents (Elt Ideal)) (x12 : (⟨S256x256, .f32⟩ : BufTy).Contents (Elt Ideal)) (x13 : (⟨S256, .f32⟩ : BufTy).Contents (Elt Ideal)) (x14 : (⟨S2x256x256, .f32⟩ : BufTy).Contents (Elt Ideal)) (x15 : (⟨S2x256, .f32⟩ : BufTy).Contents (Elt Ideal)) (x16 : (⟨S1x256, .f32⟩ : BufTy).Contents (Elt Ideal)) (x17 : (⟨S1, .f32⟩ : BufTy).Contents (Elt Ideal)) (x18 : (⟨S2x1x256, .f32⟩ : BufTy).Contents (Elt Ideal)) (x19 : (⟨S2x1, .f32⟩ : BufTy).Contents (Elt Ideal)) (x20 : (⟨S50000x16, .f32⟩ : BufTy).Contents (Elt Ideal)) (x22 : (⟨S2000000, .i32⟩ : BufTy).Contents (Elt Ideal)) (x23 : (⟨S2000000, .i32⟩ : BufTy).Contents (Elt Ideal)) (x24 : (⟨S50000x8, .i32⟩ : BufTy).Contents (Elt Ideal)) (x26 : (⟨S8192, .i32⟩ : BufTy).Contents (Elt Ideal)) :
    (val_main_v151 (F := Ideal) x0 x1 x2 x4 x5 x8 x9 x10 x11 x12 x13 x14 x15 x16 x17 x18 x19 x20 x22 x23 x24 x26) = (towerArr (val_main_v36 (F := Ideal) x0 x1 x22 x23 x26) (val_main_v59 (F := Ideal) x2 x24 x26) (val_main_v29 (F := Ideal) x20 x26) (val_main_v60 (F := Ideal) x4) x5 (val_main_v77 (F := Ideal) x8 x10) (val_main_v87 (F := Ideal) x9 x11) (val_main_v101 (F := Ideal) x12 x14) (val_main_v111 (F := Ideal) x13 x15) (val_main_v125 (F := Ideal) x16 x18) (val_main_v135 (F := Ideal) x17 x19)) := rfl

set_option maxRecDepth 8192 in
/-- The second side's output array is the tower of its stages. -/
theorem sideI_eq (x0 : (⟨S250000x128, .f32⟩ : BufTy).Contents (Elt Ideal)) (x1 : (⟨S2000000, .f32⟩ : BufTy).Contents (Elt Ideal)) (x3 : (⟨S1001x128, .f32⟩ : BufTy).Contents (Elt Ideal)) (x6 : (⟨S128x16, .f32⟩ : BufTy).Contents (Elt Ideal)) (x7 : (⟨S128, .f32⟩ : BufTy).Contents (Elt Ideal)) (x8 : (⟨S256x256, .f32⟩ : BufTy).Contents (Elt Ideal)) (x9 : (⟨S256, .f32⟩ : BufTy).Contents (Elt Ideal)) (x10 : (⟨S2x256x256, .f32⟩ : BufTy).Contents (Elt Ideal)) (x11 : (⟨S2x256, .f32⟩ : BufTy).Contents (Elt Ideal)) (x12 : (⟨S256x256, .f32⟩ : BufTy).Contents (Elt Ideal)) (x13 : (⟨S256, .f32⟩ : BufTy).Contents (Elt Ideal)) (x14 : (⟨S2x256x256, .f32⟩ : BufTy).Contents (Elt Ideal)) (x15 : (⟨S2x256, .f32⟩ : BufTy).Contents (Elt Ideal)) (x16 : (⟨S1x256, .f32⟩ : BufTy).Contents (Elt Ideal)) (x17 : (⟨S1, .f32⟩ : BufTy).Contents (Elt Ideal)) (x18 : (⟨S2x1x256, .f32⟩ : BufTy).Contents (Elt Ideal)) (x19 : (⟨S2x1, .f32⟩ : BufTy).Contents (Elt Ideal)) (x21 : (⟨S200000x16, .f32⟩ : BufTy).Contents (Elt Ideal)) (x22 : (⟨S2000000, .i32⟩ : BufTy).Contents (Elt Ideal)) (x23 : (⟨S2000000, .i32⟩ : BufTy).Contents (Elt Ideal)) (x25 : (⟨S200000x8, .i32⟩ : BufTy).Contents (Elt Ideal)) (x27 : (⟨S8192, .i32⟩ : BufTy).Contents (Elt Ideal)) :
    (val_main_v287 (F := Ideal) x0 x1 x3 x6 x7 x8 x9 x10 x11 x12 x13 x14 x15 x16 x17 x18 x19 x21 x22 x23 x25 x27) = (towerArr (val_main_v172 (F := Ideal) x0 x1 x22 x23 x27) (val_main_v195 (F := Ideal) x3 x25 x27) (val_main_v165 (F := Ideal) x21 x27) (val_main_v196 (F := Ideal) x6) x7 (val_main_v213 (F := Ideal) x8 x10) (val_main_v223 (F := Ideal) x9 x11) (val_main_v237 (F := Ideal) x12 x14) (val_main_v247 (F := Ideal) x13 x15) (val_main_v261 (F := Ideal) x16 x18) (val_main_v271 (F := Ideal) x17 x19)) := rfl

/-- The reference's result at row `r`: the score of the row's two sides, each from row `r` of its stages. -/
theorem result_row (x0 : (⟨S250000x128, .f32⟩ : BufTy).Contents (Elt Ideal)) (x1 : (⟨S2000000, .f32⟩ : BufTy).Contents (Elt Ideal)) (x2 : (⟨S1001x128, .f32⟩ : BufTy).Contents (Elt Ideal)) (x3 : (⟨S1001x128, .f32⟩ : BufTy).Contents (Elt Ideal)) (x4 : (⟨S128x16, .f32⟩ : BufTy).Contents (Elt Ideal)) (x5 : (⟨S128, .f32⟩ : BufTy).Contents (Elt Ideal)) (x6 : (⟨S128x16, .f32⟩ : BufTy).Contents (Elt Ideal)) (x7 : (⟨S128, .f32⟩ : BufTy).Contents (Elt Ideal)) (x8 : (⟨S256x256, .f32⟩ : BufTy).Contents (Elt Ideal)) (x9 : (⟨S256, .f32⟩ : BufTy).Contents (Elt Ideal)) (x10 : (⟨S2x256x256, .f32⟩ : BufTy).Contents (Elt Ideal)) (x11 : (⟨S2x256, .f32⟩ : BufTy).Contents (Elt Ideal)) (x12 : (⟨S256x256, .f32⟩ : BufTy).Contents (Elt Ideal)) (x13 : (⟨S256, .f32⟩ : BufTy).Contents (Elt Ideal)) (x14 : (⟨S2x256x256, .f32⟩ : BufTy).Contents (Elt Ideal)) (x15 : (⟨S2x256, .f32⟩ : BufTy).Contents (Elt Ideal)) (x16 : (⟨S1x256, .f32⟩ : BufTy).Contents (Elt Ideal)) (x17 : (⟨S1, .f32⟩ : BufTy).Contents (Elt Ideal)) (x18 : (⟨S2x1x256, .f32⟩ : BufTy).Contents (Elt Ideal)) (x19 : (⟨S2x1, .f32⟩ : BufTy).Contents (Elt Ideal)) (x20 : (⟨S50000x16, .f32⟩ : BufTy).Contents (Elt Ideal)) (x21 : (⟨S200000x16, .f32⟩ : BufTy).Contents (Elt Ideal)) (x22 : (⟨S2000000, .i32⟩ : BufTy).Contents (Elt Ideal)) (x23 : (⟨S2000000, .i32⟩ : BufTy).Contents (Elt Ideal)) (x24 : (⟨S50000x8, .i32⟩ : BufTy).Contents (Elt Ideal)) (x25 : (⟨S200000x8, .i32⟩ : BufTy).Contents (Elt Ideal)) (x26 : (⟨S8192, .i32⟩ : BufTy).Contents (Elt Ideal)) (x27 : (⟨S8192, .i32⟩ : BufTy).Contents (Elt Ideal)) (r : Fin 8192) :
    (val_main_v289 (F := Ideal) x0 x1 x2 x3 x4 x5 x6 x7 x8 x9 x10 x11 x12 x13 x14 x15 x16 x17 x18 x19 x20 x21 x22 x23 x24 x25 x26 x27) (ix1 r)
      = score (tower (fun d => (val_main_v36 (F := Ideal) x0 x1 x22 x23 x26) (ix2 r d)) (fun d => (val_main_v59 (F := Ideal) x2 x24 x26) (ix2 r d)) (fun k => (val_main_v29 (F := Ideal) x20 x26) (ix2 r k))
        (fun k d => (val_main_v60 (F := Ideal) x4) (ix2 k d)) (fun d => x5 (ix1 d))
        (fun j o => (val_main_v77 (F := Ideal) x8 x10) (ix2 j o)) (fun o => (val_main_v87 (F := Ideal) x9 x11) (ix1 o)) (fun j o => (val_main_v101 (F := Ideal) x12 x14) (ix2 j o)) (fun o => (val_main_v111 (F := Ideal) x13 x15) (ix1 o))
        (fun j o => (val_main_v125 (F := Ideal) x16 x18) (ix2 j o)) (fun o => (val_main_v135 (F := Ideal) x17 x19) (ix1 o)))
          (tower (fun d => (val_main_v172 (F := Ideal) x0 x1 x22 x23 x27) (ix2 r d)) (fun d => (val_main_v195 (F := Ideal) x3 x25 x27) (ix2 r d)) (fun k => (val_main_v165 (F := Ideal) x21 x27) (ix2 r k))
        (fun k d => (val_main_v196 (F := Ideal) x6) (ix2 k d)) (fun d => x7 (ix1 d))
        (fun j o => (val_main_v213 (F := Ideal) x8 x10) (ix2 j o)) (fun o => (val_main_v223 (F := Ideal) x9 x11) (ix1 o)) (fun j o => (val_main_v237 (F := Ideal) x12 x14) (ix2 j o)) (fun o => (val_main_v247 (F := Ideal) x13 x15) (ix1 o))
        (fun j o => (val_main_v261 (F := Ideal) x16 x18) (ix2 j o)) (fun o => (val_main_v271 (F := Ideal) x17 x19) (ix1 o))) := by
  have e : (val_main_v289 (F := Ideal) x0 x1 x2 x3 x4 x5 x6 x7 x8 x9 x10 x11 x12 x13 x14 x15 x16 x17 x18 x19 x20 x21 x22 x23 x24 x25 x26 x27) = scoreArr (val_main_v151 (F := Ideal) x0 x1 x2 x4 x5 x8 x9 x10 x11 x12 x13 x14 x15 x16 x17 x18 x19 x20 x22 x23 x24 x26) (val_main_v287 (F := Ideal) x0 x1 x3 x6 x7 x8 x9 x10 x11 x12 x13 x14 x15 x16 x17 x18 x19 x21 x22 x23 x25 x27) := rfl
  rw [e, sideU_eq, sideI_eq, scoreArr_apply]
  simp only [towerArr_apply]

end Cert.ReferenceIdeal.RowValue

end
-- ==== Proof.RefArgs.lean ====
/-
  The reference's arguments after its line of operations: no operation writes an argument (each writes only its own result
  buffer, which is no argument), so each argument holds its launch contents.
-/
import proofs.«109762_j70643622084958_2_alg».proof.Proof.RunP
import Idealize.ShloMosaic.Lib.StableHlo.Run
import Idealize.ShloMosaic.PureOps.Ideal

noncomputable section

namespace Cert.ReferenceIdeal.RowValue

open Cert.ReferenceIdeal Cert.ReferenceIdeal.Gen Cert.ReferenceIdeal.ValueP
open Idealize.ShloMosaic Idealize.ShloMosaic.TcCoe Idealize.SL.Sem Idealize.ShloMosaic.StableHlo

variable (m : (ℓ : Loc nD τ sig) → Buf (Elt Ideal) ℓ)

set_option maxHeartbeats 4000000 in
/-- No operation of the reference writes argument 0: after the line it holds its launch contents. -/
theorem arg0_after (c : Dev nD) :
    after (ops (F := Ideal)) (launchContents m c) (Proc.devRef .tc main_arg0) = m ((c.tc : Thread nD τ).loc main_arg0) :=
  StableHlo.after_of_forall_not_mem (b := Proc.devRef .tc main_arg0) _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- No operation of the reference writes argument 1: after the line it holds its launch contents. -/
theorem arg1_after (c : Dev nD) :
    after (ops (F := Ideal)) (launchContents m c) (Proc.devRef .tc main_arg1) = m ((c.tc : Thread nD τ).loc main_arg1) :=
  StableHlo.after_of_forall_not_mem (b := Proc.devRef .tc main_arg1) _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- No operation of the reference writes argument 2: after the line it holds its launch contents. -/
theorem arg2_after (c : Dev nD) :
    after (ops (F := Ideal)) (launchContents m c) (Proc.devRef .tc main_arg2) = m ((c.tc : Thread nD τ).loc main_arg2) :=
  StableHlo.after_of_forall_not_mem (b := Proc.devRef .tc main_arg2) _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- No operation of the reference writes argument 3: after the line it holds its launch contents. -/
theorem arg3_after (c : Dev nD) :
    after (ops (F := Ideal)) (launchContents m c) (Proc.devRef .tc main_arg3) = m ((c.tc : Thread nD τ).loc main_arg3) :=
  StableHlo.after_of_forall_not_mem (b := Proc.devRef .tc main_arg3) _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- No operation of the reference writes argument 4: after the line it holds its launch contents. -/
theorem arg4_after (c : Dev nD) :
    after (ops (F := Ideal)) (launchContents m c) (Proc.devRef .tc main_arg4) = m ((c.tc : Thread nD τ).loc main_arg4) :=
  StableHlo.after_of_forall_not_mem (b := Proc.devRef .tc main_arg4) _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- No operation of the reference writes argument 5: after the line it holds its launch contents. -/
theorem arg5_after (c : Dev nD) :
    after (ops (F := Ideal)) (launchContents m c) (Proc.devRef .tc main_arg5) = m ((c.tc : Thread nD τ).loc main_arg5) :=
  StableHlo.after_of_forall_not_mem (b := Proc.devRef .tc main_arg5) _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- No operation of the reference writes argument 6: after the line it holds its launch contents. -/
theorem arg6_after (c : Dev nD) :
    after (ops (F := Ideal)) (launchContents m c) (Proc.devRef .tc main_arg6) = m ((c.tc : Thread nD τ).loc main_arg6) :=
  StableHlo.after_of_forall_not_mem (b := Proc.devRef .tc main_arg6) _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- No operation of the reference writes argument 7: after the line it holds its launch contents. -/
theorem arg7_after (c : Dev nD) :
    after (ops (F := Ideal)) (launchContents m c) (Proc.devRef .tc main_arg7) = m ((c.tc : Thread nD τ).loc main_arg7) :=
  StableHlo.after_of_forall_not_mem (b := Proc.devRef .tc main_arg7) _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- No operation of the reference writes argument 8: after the line it holds its launch contents. -/
theorem arg8_after (c : Dev nD) :
    after (ops (F := Ideal)) (launchContents m c) (Proc.devRef .tc main_arg8) = m ((c.tc : Thread nD τ).loc main_arg8) :=
  StableHlo.after_of_forall_not_mem (b := Proc.devRef .tc main_arg8) _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- No operation of the reference writes argument 9: after the line it holds its launch contents. -/
theorem arg9_after (c : Dev nD) :
    after (ops (F := Ideal)) (launchContents m c) (Proc.devRef .tc main_arg9) = m ((c.tc : Thread nD τ).loc main_arg9) :=
  StableHlo.after_of_forall_not_mem (b := Proc.devRef .tc main_arg9) _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- No operation of the reference writes argument 10: after the line it holds its launch contents. -/
theorem arg10_after (c : Dev nD) :
    after (ops (F := Ideal)) (launchContents m c) (Proc.devRef .tc main_arg10) = m ((c.tc : Thread nD τ).loc main_arg10) :=
  StableHlo.after_of_forall_not_mem (b := Proc.devRef .tc main_arg10) _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- No operation of the reference writes argument 11: after the line it holds its launch contents. -/
theorem arg11_after (c : Dev nD) :
    after (ops (F := Ideal)) (launchContents m c) (Proc.devRef .tc main_arg11) = m ((c.tc : Thread nD τ).loc main_arg11) :=
  StableHlo.after_of_forall_not_mem (b := Proc.devRef .tc main_arg11) _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- No operation of the reference writes argument 12: after the line it holds its launch contents. -/
theorem arg12_after (c : Dev nD) :
    after (ops (F := Ideal)) (launchContents m c) (Proc.devRef .tc main_arg12) = m ((c.tc : Thread nD τ).loc main_arg12) :=
  StableHlo.after_of_forall_not_mem (b := Proc.devRef .tc main_arg12) _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- No operation of the reference writes argument 13: after the line it holds its launch contents. -/
theorem arg13_after (c : Dev nD) :
    after (ops (F := Ideal)) (launchContents m c) (Proc.devRef .tc main_arg13) = m ((c.tc : Thread nD τ).loc main_arg13) :=
  StableHlo.after_of_forall_not_mem (b := Proc.devRef .tc main_arg13) _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- No operation of the reference writes argument 14: after the line it holds its launch contents. -/
theorem arg14_after (c : Dev nD) :
    after (ops (F := Ideal)) (launchContents m c) (Proc.devRef .tc main_arg14) = m ((c.tc : Thread nD τ).loc main_arg14) :=
  StableHlo.after_of_forall_not_mem (b := Proc.devRef .tc main_arg14) _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- No operation of the reference writes argument 15: after the line it holds its launch contents. -/
theorem arg15_after (c : Dev nD) :
    after (ops (F := Ideal)) (launchContents m c) (Proc.devRef .tc main_arg15) = m ((c.tc : Thread nD τ).loc main_arg15) :=
  StableHlo.after_of_forall_not_mem (b := Proc.devRef .tc main_arg15) _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- No operation of the reference writes argument 16: after the line it holds its launch contents. -/
theorem arg16_after (c : Dev nD) :
    after (ops (F := Ideal)) (launchContents m c) (Proc.devRef .tc main_arg16) = m ((c.tc : Thread nD τ).loc main_arg16) :=
  StableHlo.after_of_forall_not_mem (b := Proc.devRef .tc main_arg16) _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- No operation of the reference writes argument 17: after the line it holds its launch contents. -/
theorem arg17_after (c : Dev nD) :
    after (ops (F := Ideal)) (launchContents m c) (Proc.devRef .tc main_arg17) = m ((c.tc : Thread nD τ).loc main_arg17) :=
  StableHlo.after_of_forall_not_mem (b := Proc.devRef .tc main_arg17) _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- No operation of the reference writes argument 18: after the line it holds its launch contents. -/
theorem arg18_after (c : Dev nD) :
    after (ops (F := Ideal)) (launchContents m c) (Proc.devRef .tc main_arg18) = m ((c.tc : Thread nD τ).loc main_arg18) :=
  StableHlo.after_of_forall_not_mem (b := Proc.devRef .tc main_arg18) _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- No operation of the reference writes argument 19: after the line it holds its launch contents. -/
theorem arg19_after (c : Dev nD) :
    after (ops (F := Ideal)) (launchContents m c) (Proc.devRef .tc main_arg19) = m ((c.tc : Thread nD τ).loc main_arg19) :=
  StableHlo.after_of_forall_not_mem (b := Proc.devRef .tc main_arg19) _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- No operation of the reference writes argument 20: after the line it holds its launch contents. -/
theorem arg20_after (c : Dev nD) :
    after (ops (F := Ideal)) (launchContents m c) (Proc.devRef .tc main_arg20) = m ((c.tc : Thread nD τ).loc main_arg20) :=
  StableHlo.after_of_forall_not_mem (b := Proc.devRef .tc main_arg20) _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- No operation of the reference writes argument 21: after the line it holds its launch contents. -/
theorem arg21_after (c : Dev nD) :
    after (ops (F := Ideal)) (launchContents m c) (Proc.devRef .tc main_arg21) = m ((c.tc : Thread nD τ).loc main_arg21) :=
  StableHlo.after_of_forall_not_mem (b := Proc.devRef .tc main_arg21) _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- No operation of the reference writes argument 22: after the line it holds its launch contents. -/
theorem arg22_after (c : Dev nD) :
    after (ops (F := Ideal)) (launchContents m c) (Proc.devRef .tc main_arg22) = m ((c.tc : Thread nD τ).loc main_arg22) :=
  StableHlo.after_of_forall_not_mem (b := Proc.devRef .tc main_arg22) _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- No operation of the reference writes argument 23: after the line it holds its launch contents. -/
theorem arg23_after (c : Dev nD) :
    after (ops (F := Ideal)) (launchContents m c) (Proc.devRef .tc main_arg23) = m ((c.tc : Thread nD τ).loc main_arg23) :=
  StableHlo.after_of_forall_not_mem (b := Proc.devRef .tc main_arg23) _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- No operation of the reference writes argument 24: after the line it holds its launch contents. -/
theorem arg24_after (c : Dev nD) :
    after (ops (F := Ideal)) (launchContents m c) (Proc.devRef .tc main_arg24) = m ((c.tc : Thread nD τ).loc main_arg24) :=
  StableHlo.after_of_forall_not_mem (b := Proc.devRef .tc main_arg24) _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- No operation of the reference writes argument 25: after the line it holds its launch contents. -/
theorem arg25_after (c : Dev nD) :
    after (ops (F := Ideal)) (launchContents m c) (Proc.devRef .tc main_arg25) = m ((c.tc : Thread nD τ).loc main_arg25) :=
  StableHlo.after_of_forall_not_mem (b := Proc.devRef .tc main_arg25) _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- No operation of the reference writes argument 26: after the line it holds its launch contents. -/
theorem arg26_after (c : Dev nD) :
    after (ops (F := Ideal)) (launchContents m c) (Proc.devRef .tc main_arg26) = m ((c.tc : Thread nD τ).loc main_arg26) :=
  StableHlo.after_of_forall_not_mem (b := Proc.devRef .tc main_arg26) _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
/-- No operation of the reference writes argument 27: after the line it holds its launch contents. -/
theorem arg27_after (c : Dev nD) :
    after (ops (F := Ideal)) (launchContents m c) (Proc.devRef .tc main_arg27) = m ((c.tc : Thread nD τ).loc main_arg27) :=
  StableHlo.after_of_forall_not_mem (b := Proc.devRef .tc main_arg27) _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

end Cert.ReferenceIdeal.RowValue

end
-- ==== Proof.RefRun.lean ====
/-
  The reference's run, read: its result is the last stage of its own operations, the arguments unchanged.

  The reference is one straight line of host operations, so every weakly fair execution ends with each buffer at the fold
  of the operations' results over the launch contents. Read at the result buffer, that fold is the row sums of the product
  of two side arrays, each the array-level tower of buffers computed earlier in the line; each of those buffers is, by
  unfolding the operations that produce it, the stage of the same name. No argument is written by any operation.
-/
import proofs.«109762_j70643622084958_2_alg».proof.Proof.RunP
import proofs.«109762_j70643622084958_2_alg».proof.Proof.ReadP
import proofs.«109762_j70643622084958_2_alg».proof.Proof.RefValue
import proofs.«109762_j70643622084958_2_alg».proof.Proof.RefArgs
import Idealize.ShloMosaic.Lib.StableHlo.Run

noncomputable section

namespace Cert.ReferenceIdeal.RowValue

open Cert.ReferenceIdeal Cert.ReferenceIdeal.Gen Cert.ReferenceIdeal.ValueP Cert.ReferenceIdeal.ReadP Cert.ReferenceIdeal.RowOps
open Idealize.ShloMosaic Idealize.ShloMosaic.TcCoe Idealize.ShloMosaic.ValueIdx Idealize.SL.Sem Idealize.ShloMosaic.StableHlo Cert.RowSpec

variable (m : (ℓ : Loc nD τ sig) → Buf (Elt Ideal) ℓ) (ρ : Dev nD → PrngReg)

/-- Towers of equal arrays are equal. -/
theorem towerArr_congr {e e' cat cat' : FVec Ideal S8192x128 .f32} {num num' : FVec Ideal S8192x16 .f32} {NwT NwT' : FVec Ideal S16x128 .f32}
    {nb nb' : FVec Ideal S128 .f32} {W0T W0T' : FVec Ideal S256x256 .f32} {b0 b0' : FVec Ideal S256 .f32}
    {W1T W1T' : FVec Ideal S256x256 .f32} {b1 b1' : FVec Ideal S256 .f32} {W2T W2T' : FVec Ideal S256x1 .f32} {b2 b2' : FVec Ideal S1 .f32}
    (h1 : e = e') (h2 : cat = cat') (h3 : num = num') (h4 : NwT = NwT') (h5 : nb = nb') (h6 : W0T = W0T') (h7 : b0 = b0')
    (h8 : W1T = W1T') (h9 : b1 = b1') (h10 : W2T = W2T') (h11 : b2 = b2') :
    towerArr e cat num NwT nb W0T b0 W1T b1 W2T b2 = towerArr e' cat' num' NwT' nb' W0T' b0' W1T' b1' W2T' b2' := by
  rw [h1, h2, h3, h4, h5, h6, h7, h8, h9, h10, h11]

/-- The reference's last stage is the row sums of the product of its two side towers. -/
theorem last_stage (x0 : (⟨S250000x128, .f32⟩ : BufTy).Contents (Elt Ideal)) (x1 : (⟨S2000000, .f32⟩ : BufTy).Contents (Elt Ideal)) (x2 : (⟨S1001x128, .f32⟩ : BufTy).Contents (Elt Ideal)) (x3 : (⟨S1001x128, .f32⟩ : BufTy).Contents (Elt Ideal)) (x4 : (⟨S128x16, .f32⟩ : BufTy).Contents (Elt Ideal)) (x5 : (⟨S128, .f32⟩ : BufTy).Contents (Elt Ideal)) (x6 : (⟨S128x16, .f32⟩ : BufTy).Contents (Elt Ideal)) (x7 : (⟨S128, .f32⟩ : BufTy).Contents (Elt Ideal)) (x8 : (⟨S256x256, .f32⟩ : BufTy).Contents (Elt Ideal)) (x9 : (⟨S256, .f32⟩ : BufTy).Contents (Elt Ideal)) (x10 : (⟨S2x256x256, .f32⟩ : BufTy).Contents (Elt Ideal)) (x11 : (⟨S2x256, .f32⟩ : BufTy).Contents (Elt Ideal)) (x12 : (⟨S256x256, .f32⟩ : BufTy).Contents (Elt Ideal)) (x13 : (⟨S256, .f32⟩ : BufTy).Contents (Elt Ideal)) (x14 : (⟨S2x256x256, .f32⟩ : BufTy).Contents (Elt Ideal)) (x15 : (⟨S2x256, .f32⟩ : BufTy).Contents (Elt Ideal)) (x16 : (⟨S1x256, .f32⟩ : BufTy).Contents (Elt Ideal)) (x17 : (⟨S1, .f32⟩ : BufTy).Contents (Elt Ideal)) (x18 : (⟨S2x1x256, .f32⟩ : BufTy).Contents (Elt Ideal)) (x19 : (⟨S2x1, .f32⟩ : BufTy).Contents (Elt Ideal)) (x20 : (⟨S50000x16, .f32⟩ : BufTy).Contents (Elt Ideal)) (x21 : (⟨S200000x16, .f32⟩ : BufTy).Contents (Elt Ideal)) (x22 : (⟨S2000000, .i32⟩ : BufTy).Contents (Elt Ideal)) (x23 : (⟨S2000000, .i32⟩ : BufTy).Contents (Elt Ideal)) (x24 : (⟨S50000x8, .i32⟩ : BufTy).Contents (Elt Ideal)) (x25 : (⟨S200000x8, .i32⟩ : BufTy).Contents (Elt Ideal)) (x26 : (⟨S8192, .i32⟩ : BufTy).Contents (Elt Ideal)) (x27 : (⟨S8192, .i32⟩ : BufTy).Contents (Elt Ideal)) :
    (val_main_v289 (F := Ideal) x0 x1 x2 x3 x4 x5 x6 x7 x8 x9 x10 x11 x12 x13 x14 x15 x16 x17 x18 x19 x20 x21 x22 x23 x24 x25 x26 x27) = scoreArr (towerArr (val_main_v36 (F := Ideal) x0 x1 x22 x23 x26) (val_main_v59 (F := Ideal) x2 x24 x26) (val_main_v29 (F := Ideal) x20 x26) (val_main_v60 (F := Ideal) x4) x5 (val_main_v77 (F := Ideal) x8 x10) (val_main_v87 (F := Ideal) x9 x11) (val_main_v101 (F := Ideal) x12 x14) (val_main_v111 (F := Ideal) x13 x15) (val_main_v125 (F := Ideal) x16 x18) (val_main_v135 (F := Ideal) x17 x19)) (towerArr (val_main_v172 (F := Ideal) x0 x1 x22 x23 x27) (val_main_v195 (F := Ideal) x3 x25 x27) (val_main_v165 (F := Ideal) x21 x27) (val_main_v196 (F := Ideal) x6) x7 (val_main_v213 (F := Ideal) x8 x10) (val_main_v223 (F := Ideal) x9 x11) (val_main_v237 (F := Ideal) x12 x14) (val_main_v247 (F := Ideal) x13 x15) (val_main_v261 (F := Ideal) x16 x18) (val_main_v271 (F := Ideal) x17 x19)) := by
  have e : (val_main_v289 (F := Ideal) x0 x1 x2 x3 x4 x5 x6 x7 x8 x9 x10 x11 x12 x13 x14 x15 x16 x17 x18 x19 x20 x21 x22 x23 x24 x25 x26 x27) = scoreArr (val_main_v151 (F := Ideal) x0 x1 x2 x4 x5 x8 x9 x10 x11 x12 x13 x14 x15 x16 x17 x18 x19 x20 x22 x23 x24 x26) (val_main_v287 (F := Ideal) x0 x1 x3 x6 x7 x8 x9 x10 x11 x12 x13 x14 x15 x16 x17 x18 x19 x21 x22 x23 x25 x27) := rfl
  rw [e, sideU_eq, sideI_eq]

set_option maxRecDepth 16384 in
set_option maxHeartbeats 40000000 in
/-- What the line of operations leaves in the result buffer is the last stage of the launch contents. -/
theorem result_after (c : Dev nD) :
    (after (ops (F := Ideal)) (launchContents m c) (Proc.devRef .tc main_v289) : S8192.Idx → EReal)
      = (val_main_v289 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))) := by
  refine Eq.trans ?_ (last_stage (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))).symm
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', cat_fold]
  show scoreArr (towerArr _ _ _ _ _ _ _ _ _ _ _) (towerArr _ _ _ _ _ _ _ _ _ _ _) = _
  refine congrArg₂ scoreArr (towerArr_congr ?_ ?_ ?_ ?_ ?_ ?_ ?_ ?_ ?_ ?_ ?_) (towerArr_congr ?_ ?_ ?_ ?_ ?_ ?_ ?_ ?_ ?_ ?_ ?_) <;> rfl

set_option maxHeartbeats 4000000 in
/-- The run, read: the result at the last stage of the launch contents, the arguments unchanged. -/
theorem run : θ_run defs (onTc (τ := τ) (main (F := Ideal))) ⟨m, fun _ => 0, ρ⟩ fun r => ∀ c : Dev nD,
      r.2.mem ((c.tc : Thread nD τ).loc main_v289) = (val_main_v289 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27) :=
  (θ_run defs _ _).mono (fun _ h c => ⟨(h c main_v289).trans (result_after m c),
      (h c main_arg0).trans (arg0_after m c),
      (h c main_arg1).trans (arg1_after m c),
      (h c main_arg2).trans (arg2_after m c),
      (h c main_arg3).trans (arg3_after m c),
      (h c main_arg4).trans (arg4_after m c),
      (h c main_arg5).trans (arg5_after m c),
      (h c main_arg6).trans (arg6_after m c),
      (h c main_arg7).trans (arg7_after m c),
      (h c main_arg8).trans (arg8_after m c),
      (h c main_arg9).trans (arg9_after m c),
      (h c main_arg10).trans (arg10_after m c),
      (h c main_arg11).trans (arg11_after m c),
      (h c main_arg12).trans (arg12_after m c),
      (h c main_arg13).trans (arg13_after m c),
      (h c main_arg14).trans (arg14_after m c),
      (h c main_arg15).trans (arg15_after m c),
      (h c main_arg16).trans (arg16_after m c),
      (h c main_arg17).trans (arg17_after m c),
      (h c main_arg18).trans (arg18_after m c),
      (h c main_arg19).trans (arg19_after m c),
      (h c main_arg20).trans (arg20_after m c),
      (h c main_arg21).trans (arg21_after m c),
      (h c main_arg22).trans (arg22_after m c),
      (h c main_arg23).trans (arg23_after m c),
      (h c main_arg24).trans (arg24_after m c),
      (h c main_arg25).trans (arg25_after m c),
      (h c main_arg26).trans (arg26_after m c),
      (h c main_arg27).trans (arg27_after m c)⟩)
    (run_seq scopedRefs_eq scopedSems_eq defs main (fun _ => ops) main_eq (fun _ => ops_sub) m ρ)

end Cert.ReferenceIdeal.RowValue

end
-- ==== Proof.lean ====
/-
  The certificate of the fused scoring kernel against its whole-batch reference.

  Both programs compute, for each of 8192 batch rows, the inner product of a user-side and an item-side vector; each side
  mixes a propagated embedding with a feature vector by a gate, the logistic of a small perceptron over the two laid end
  to end. The kernel runs the perceptrons, the mixing and the inner product block by block (1024 rows per grid point, the
  masked weights prepared by the host in front of it); the reference runs them over the whole batch. On the extended reals
  a change of float format is the identity, a matrix product is the sum of products, and the kernel's logistic is the
  reference's `1 / (1 + exp (-z))`, so both results are, row by row, one function of the arguments — the row
  specification applied to the same stages (the gathered embeddings, category means and numeric features, the masked
  weights and biases). No step needs the entries to be finite.

  The kernels' frames are the generated runs, the reference's frame its run with the result dropped; the idealization rewrote nothing, so `preserves` is trivial; `algebraic` puts the
  kernel's run and the reference's run side by side and meets them at the row specification.
-/
import proofs.«109762_j70643622084958_2_alg».proof.Defs
import proofs.«109762_j70643622084958_2_alg».proof.Proof.Gen.Kernel
import proofs.«109762_j70643622084958_2_alg».proof.Proof.Gen.Kernel.Frame
import proofs.«109762_j70643622084958_2_alg».proof.Proof.Gen.KernelIdeal
import proofs.«109762_j70643622084958_2_alg».proof.Proof.Gen.KernelIdeal.Frame
import proofs.«109762_j70643622084958_2_alg».proof.Proof.Gen.ReferenceIdeal
import proofs.«109762_j70643622084958_2_alg».proof.Proof.Gen.Pre_finite_inputs
import proofs.«109762_j70643622084958_2_alg».proof.Proof.KernelRun
import proofs.«109762_j70643622084958_2_alg».proof.Proof.RefValue
import proofs.«109762_j70643622084958_2_alg».proof.Proof.RefRun
import Idealize.ShloMosaic.Adequacy
import Idealize.ShloMosaic.Init

noncomputable section

namespace Cert.Proof

open Idealize.ShloMosaic Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RowValue.run m ρ)

/-- The idealization rewrote no operation. -/
theorem preserves : Cert.preserves_Kernel_KernelIdeal := trivial

set_option maxHeartbeats 1600000 in
/-- From memories agreeing on the arguments both programs end with every row's score: the kernel's result read through its
    blocks and its closing reshape, the reference's at its last stage, are the row specification of the same stages. -/
theorem algebraic : Cert.algebraic_KernelIdeal_ReferenceIdeal := by
  intro m ρ m' ρ' _ hagree
  refine ⟨fun c => (fun i : Cert.KernelIdeal.S8192.Idx => Cert.KernelIdeal.RowValue.rowR m c ⟨(i 0).val, (i 0).isLt⟩),
    Cert.KernelIdeal.RowValue.run m ρ, ?_⟩
  refine (θ_run Cert.ReferenceIdeal.defs _ _).mono (fun r h c => ⟨(h c).1.trans ?_, (h c).2⟩)
    (Cert.ReferenceIdeal.RowValue.run m' ρ')
  obtain ⟨h0, h1, h2, h3, h4, h5, h6, h7, h8, h9, h10, h11, h12, h13, h14, h15, h16, h17, h18, h19, h20, h21, h22, h23, h24, h25, h26, h27⟩ := hagree c
  rw [h0, h1, h2, h3, h4, h5, h6, h7, h8, h9, h10, h11, h12, h13, h14, h15, h16, h17, h18, h19, h20, h21, h22, h23, h24, h25, h26, h27]
  funext i
  obtain ⟨r, rfl⟩ : ∃ r : Fin 8192, i = ix1 r := ⟨i 0, eq_ix1 i⟩
  rw [Cert.ReferenceIdeal.RowValue.result_row]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
